-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x128 : Shape := ⟨3, ![32, 512, 128]⟩
abbrev S32x512x512 : Shape := ⟨3, ![32, 512, 512]⟩
abbrev S32x512x1 : Shape := ⟨3, ![32, 512, 1]⟩
abbrev S128x128 : Shape := ⟨2, ![128, 128]⟩
abbrev S128 : Shape := ⟨1, ![128]⟩
abbrev S_ : Shape := ⟨0, ![]⟩

class Facts : Prop where
  bcast_S_S32x512x128 : S_.BroadcastsInDim S32x512x128 (![] : Fin 0 → Fin S32x512x128.rank)
  reducesTo_S32x512x128_S_d0_1_2 : S32x512x128.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S32x512x1 : S_.BroadcastsInDim S32x512x1 (![] : Fin 0 → Fin S32x512x1.rank)
  reducesTo_S32x512x1_S_d0_1_2 : S32x512x1.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32x512x128 .f32) (main_arg1 : FVec F S32x512x512 .f32) (main_arg2 : FVec F S32x512x1 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S32x512x128 .f32 := Host.absf main_arg0
  let main_cst : FVec F S_ .f32 := constant S_ .f32 0x7F800000#32
  let main_v1 : FVec F S32x512x128 .f32 := broadcastInDim S32x512x128 ![] bcast_S_S32x512x128 main_cst
  let main_v2 : IVec S32x512x128 1 := cmpf .olt main_v0 main_v1
  let main_c : IVec S_ 1 := constantI S_ 1 1#1
  let main_v3 : IVec S_ 1 := (fun x v => Host.reduce IntOp.andi x v reducesTo_S32x512x128_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S32x512x1 .f32 := Host.absf main_arg2
  let main_cst_2 : FVec F S_ .f32 := constant S_ .f32 0x7F800000#32
  let main_v10 : FVec F S32x512x1 .f32 := broadcastInDim S32x512x1 ![] bcast_S_S32x512x1 main_cst_2
  let main_v11 : IVec S32x512x1 1 := cmpf .olt main_v9 main_v10
  let main_c_3 : IVec S_ 1 := constantI S_ 1 1#1
  let main_v12 : IVec S_ 1 := (fun x v => Host.reduce IntOp.andi x v reducesTo_S32x512x1_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32x512x128 : Shape := ⟨3, ![32, 512, 128]⟩
abbrev S32x512x512 : Shape := ⟨3, ![32, 512, 512]⟩
abbrev S32x512x1 : Shape := ⟨3, ![32, 512, 1]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S128x256 : Shape := ⟨2, ![128, 256]⟩
abbrev S256 : Shape := ⟨1, ![256]⟩
abbrev S1x256 : Shape := ⟨2, ![1, 256]⟩
abbrev S1x128 : Shape := ⟨2, ![1, 128]⟩
abbrev S4x512x128 : Shape := ⟨3, ![4, 512, 128]⟩
abbrev S4x512x512 : Shape := ⟨3, ![4, 512, 512]⟩
abbrev S4x512x1 : Shape := ⟨3, ![4, 512, 1]⟩
abbrev S1x512x128 : Shape := ⟨3, ![1, 512, 128]⟩
abbrev S512x128 : Shape := ⟨2, ![512, 128]⟩
abbrev S1x512x1 : Shape := ⟨3, ![1, 512, 1]⟩
abbrev S512x1 : Shape := ⟨2, ![512, 1]⟩
abbrev S1x512x512 : Shape := ⟨3, ![1, 512, 512]⟩
abbrev S512x512 : Shape := ⟨2, ![512, 512]⟩
abbrev S512x384 : Shape := ⟨2, ![512, 384]⟩
abbrev S512x256 : Shape := ⟨2, ![512, 256]⟩

abbrev nBuf : Space → Nat
  | .hbm => 26
  | .vmem => 16
  | .smem => 0
  | _ => 0

abbrev bufTy : (tb : Table) → Fin (tcTables nBuf tb) → BufTy
  | .hbm, ⟨0, _⟩ => ⟨S32x512x128, .f32⟩
  | .hbm, ⟨1, _⟩ => ⟨S32x512x512, .f32⟩
  | .hbm, ⟨2, _⟩ => ⟨S32x512x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x384, .f32⟩
  | .hbm, ⟨18, _⟩ => ⟨S384, .f32⟩
  | .hbm, ⟨19, _⟩ => ⟨S1x384, .f32⟩
  | .hbm, ⟨20, _⟩ => ⟨S128x256, .f32⟩
  | .hbm, ⟨21, _⟩ => ⟨S256, .f32⟩
  | .hbm, ⟨22, _⟩ => ⟨S1x256, .f32⟩
  | .hbm, ⟨23, _⟩ => ⟨S1x128, .f32⟩
  | .hbm, ⟨24, _⟩ => ⟨S1x128, .f32⟩
  | .hbm, ⟨25, _⟩ => ⟨S32x512x128, .f32⟩
  | .local _ .vmem, ⟨0, _⟩ => ⟨S4x512x128, .f32⟩
  | .local _ .vmem, ⟨1, _⟩ => ⟨S4x512x128, .f32⟩
  | .local _ .vmem, ⟨2, _⟩ => ⟨S4x512x512, .f32⟩
  | .local _ .vmem, ⟨3, _⟩ => ⟨S4x512x512, .f32⟩
  | .local _ .vmem, ⟨4, _⟩ => ⟨S4x512x1, .f32⟩
  | .local _ .vmem, ⟨5, _⟩ => ⟨S4x512x1, .f32⟩
  | .local _ .vmem, ⟨6, _⟩ => ⟨S128x128, .f32⟩
  | .local _ .vmem, ⟨7, _⟩ => ⟨S1x128, .f32⟩
  | .local _ .vmem, ⟨8, _⟩ => ⟨S128x384, .f32⟩
  | .local _ .vmem, ⟨9, _⟩ => ⟨S1x384, .f32⟩
  | .local _ .vmem, ⟨10, _⟩ => ⟨S128x256, .f32⟩
  | .local _ .vmem, ⟨11, _⟩ => ⟨S1x256, .f32⟩
  | .local _ .vmem, ⟨12, _⟩ => ⟨S128x128, .f32⟩
  | .local _ .vmem, ⟨13, _⟩ => ⟨S1x128, .f32⟩
  | .local _ .vmem, ⟨14, _⟩ => ⟨S4x512x128, .f32⟩
  | .local _ .vmem, ⟨15, _⟩ => ⟨S4x512x128, .f32⟩
  | _, _ => ⟨S32x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  shapeCasts_S128_S1x128 : S128.ShapeCasts S1x128
  inb_S4x512x128_S1x512x128_0_0_0 : ∀ a, (![0, 0, 0] : Fin 3 → Nat) a + S1x512x128.size a ≤ S4x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  inb_S4x512x1_S1x512x1_0_0_0 : ∀ a, (![0, 0, 0] : Fin 3 → Nat) a + S1x512x1.size a ≤ S4x512x1.size a
  h_S1x512x1 : 0 < S1x512x1.numel
  shapeCasts_S1x512x1_S512x1 : S1x512x1.ShapeCasts S512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  broadcasts_S512x1_S512x128 : S512x1.Broadcasts S512x128
  inb_S4x512x128_S1x512x128_1_0_0 : ∀ a, (![1, 0, 0] : Fin 3 → Nat) a + S1x512x128.size a ≤ S4x512x128.size a
  inb_S4x512x1_S1x512x1_1_0_0 : ∀ a, (![1, 0, 0] : Fin 3 → Nat) a + S1x512x1.size a ≤ S4x512x1.size a
  inb_S4x512x128_S1x512x128_2_0_0 : ∀ a, (![2, 0, 0] : Fin 3 → Nat) a + S1x512x128.size a ≤ S4x512x128.size a
  inb_S4x512x1_S1x512x1_2_0_0 : ∀ a, (![2, 0, 0] : Fin 3 → Nat) a + S1x512x1.size a ≤ S4x512x1.size a
  inb_S4x512x128_S1x512x128_3_0_0 : ∀ a, (![3, 0, 0] : Fin 3 → Nat) a + S1x512x128.size a ≤ S4x512x128.size a
  inb_S4x512x1_S1x512x1_3_0_0 : ∀ a, (![3, 0, 0] : Fin 3 → Nat) a + S1x512x1.size a ≤ S4x512x1.size a
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  slices_S512x384_o0_0_S512x128 : S512x384.Slices ![0, 0] S512x128
  slices_S512x256_o0_0_S512x128 : S512x256.Slices ![0, 0] S512x128
  slices_S512x384_o0_128_S512x128 : S512x384.Slices ![0, 128] S512x128
  slices_S512x256_o0_128_S512x128 : S512x256.Slices ![0, 128] S512x128
  slices_S512x384_o0_256_S512x128 : S512x384.Slices ![0, 256] S512x128
  inb_S4x512x512_S1x512x512_1_0_0 : ∀ a, (![1, 0, 0] : Fin 3 → Nat) a + S1x512x512.size a ≤ S4x512x512.size a
  inb_S4x512x512_S1x512x512_2_0_0 : ∀ a, (![2, 0, 0] : Fin 3 → Nat) a + S1x512x512.size a ≤ S4x512x512.size a
  inb_S4x512x512_S1x512x512_3_0_0 : ∀ a, (![3, 0, 0] : Fin 3 → Nat) a + S1x512x512.size a ≤ S4x512x512.size a
  shapeCasts_S512x128_S1x512x128 : S512x128.ShapeCasts S1x512x128
  dot_S512x128_S128x128_S512x128_1_0_0_1_n_n_wf : DotDims.WF S512x128 S128x128 S512x128 [1] [0] [0] [1] [] []
  dot_S512x512_S512x128_S512x128_1_0_0_1_n_n_wf : DotDims.WF S512x512 S512x128 S512x128 [1] [0] [0] [1] [] []
  dot_S512x128_S128x384_S512x384_1_0_0_1_n_n_wf : DotDims.WF S512x128 S128x384 S512x384 [1] [0] [0] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S32x512x128.size a
  hwx0_0 : ∀ i : grid0.Coords, EltTy.bits .f32 = 32 ∨ (Rect.block (s := S32x512x128) S4x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S32x512x512.size a
  hwx0_1 : ∀ i : grid0.Coords, EltTy.bits .f32 = 32 ∨ (Rect.block (s := S32x512x512) S4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1.size a ≤ S32x512x1.size a
  hwx0_2 : ∀ i : grid0.Coords, EltTy.bits .f32 = 32 ∨ (Rect.block (s := S32x512x1) S4x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x512x128.size a ≤ S32x512x128.size a
  hwx0_11 : ∀ i : grid0.Coords, EltTy.bits .f32 = 32 ∨ (Rect.block (s := S32x512x128) S4x512x128.size (cc0_transform_11 i) (hinb0_11 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_arg0) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S4x512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x512x128 : Shape := ⟨3, ![32, 512, 128]⟩
abbrev S32x512x512 : Shape := ⟨3, ![32, 512, 512]⟩
abbrev S32x512x1 : Shape := ⟨3, ![32, 512, 1]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 138
  | .vmem => 0
  | .smem => 0
  | _ => 0

abbrev hbmTy0_0 (i : Nat) : BufTy := match i % 128 with
  | 0 => ⟨S32x512x128, .f32⟩
  | 1 => ⟨S32x512x512, .f32⟩
  | 2 => ⟨S32x512x1, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S32x512x128, .f32⟩
  | 18 => ⟨S1x1x128, .f32⟩
  | 19 => ⟨S32x512x128, .f32⟩
  | 20 => ⟨S32x512x128, .f32⟩
  | 21 => ⟨S_, .f32⟩
  | 22 => ⟨S32x512x128, .f32⟩
  | 23 => ⟨S32x512x128, .f32⟩
  | 24 => ⟨S32x512x128, .f32⟩
  | 25 => ⟨S32x512x128, .f32⟩
  | 26 => ⟨S32x512x128, .f32⟩
  | 27 => ⟨S32x512x128, .f32⟩
  | 28 => ⟨S1x1x128, .f32⟩
  | 29 => ⟨S32x512x128, .f32⟩
  | 30 => ⟨S32x512x128, .f32⟩
  | 31 => ⟨S32x512x128, .f32⟩
  | 32 => ⟨S1x1x128, .f32⟩
  | 33 => ⟨S32x512x128, .f32⟩
  | 34 => ⟨S32x512x128, .f32⟩
  | 35 => ⟨S32x512x128, .f32⟩
  | 36 => ⟨S32x512x128, .f32⟩
  | 37 => ⟨S32x512x128, .f32⟩
  | 38 => ⟨S_, .f32⟩
  | 39 => ⟨S32x512x128, .f32⟩
  | 40 => ⟨S32x512x128, .f32⟩
  | 41 => ⟨S_, .f32⟩
  | 42 => ⟨S32x512x128, .f32⟩
  | 43 => ⟨S32x512x128, .f32⟩
  | 44 => ⟨S32x512x128, .f32⟩
  | 45 => ⟨S1x1x128, .f32⟩
  | 46 => ⟨S32x512x128, .f32⟩
  | 47 => ⟨S32x512x128, .f32⟩
  | 48 => ⟨S32x512x128, .f32⟩
  | 49 => ⟨S1x1x128, .f32⟩
  | 50 => ⟨S32x512x128, .f32⟩
  | 51 => ⟨S32x512x128, .f32⟩
  | 52 => ⟨S32x512x128, .f32⟩
  | 53 => ⟨S32x512x128, .f32⟩
  | 54 => ⟨S32x512x128, .f32⟩
  | 55 => ⟨S_, .f32⟩
  | 56 => ⟨S32x512x128, .f32⟩
  | 57 => ⟨S32x512x128, .f32⟩
  | 58 => ⟨S_, .f32⟩
  | 59 => ⟨S32x512x128, .f32⟩
  | 60 => ⟨S32x512x128, .f32⟩
  | 61 => ⟨S32x512x128, .f32⟩
  | 62 => ⟨S1x1x128, .f32⟩
  | 63 => ⟨S32x512x128, .f32⟩
  | 64 => ⟨S32x512x128, .f32⟩
  | 65 => ⟨S32x512x128, .f32⟩
  | 66 => ⟨S32x512x128, .f32⟩
  | 67 => ⟨S1x1x128, .f32⟩
  | 68 => ⟨S32x512x128, .f32⟩
  | 69 => ⟨S32x512x128, .f32⟩
  | 70 => ⟨S32x512x128, .f32⟩
  | 71 => ⟨S32x512x128, .f32⟩
  | 72 => ⟨S32x512x128, .f32⟩
  | 73 => ⟨S_, .f32⟩
  | 74 => ⟨S32x512x128, .f32⟩
  | 75 => ⟨S32x512x128, .f32⟩
  | 76 => ⟨S32x512x128, .f32⟩
  | 77 => ⟨S_, .f32⟩
  | 78 => ⟨S32x512x128, .f32⟩
  | 79 => ⟨S32x512x128, .f32⟩
  | 80 => ⟨S32x512x128, .f32⟩
  | 81 => ⟨S32x512x128, .f32⟩
  | 82 => ⟨S32x512x128, .f32⟩
  | 83 => ⟨S32x512x128, .f32⟩
  | 84 => ⟨S1x1x128, .f32⟩
  | 85 => ⟨S32x512x128, .f32⟩
  | 86 => ⟨S32x512x128, .f32⟩
  | 87 => ⟨S32x512x128, .f32⟩
  | 88 => ⟨S1x1x128, .f32⟩
  | 89 => ⟨S32x512x128, .f32⟩
  | 90 => ⟨S32x512x128, .f32⟩
  | 91 => ⟨S32x512x128, .f32⟩
  | 92 => ⟨S32x512x128, .f32⟩
  | 93 => ⟨S32x512x128, .f32⟩
  | 94 => ⟨S_, .f32⟩
  | 95 => ⟨S32x512x128, .f32⟩
  | 96 => ⟨S32x512x128, .f32⟩
  | 97 => ⟨S_, .f32⟩
  | 98 => ⟨S32x512x128, .f32⟩
  | 99 => ⟨S32x512x128, .f32⟩
  | 100 => ⟨S32x512x128, .f32⟩
  | 101 => ⟨S1x1x128, .f32⟩
  | 102 => ⟨S32x512x128, .f32⟩
  | 103 => ⟨S32x512x128, .f32⟩
  | 104 => ⟨S32x512x128, .f32⟩
  | 105 => ⟨S1x1x128, .f32⟩
  | 106 => ⟨S32x512x128, .f32⟩
  | 107 => ⟨S32x512x128, .f32⟩
  | 108 => ⟨S32x512x128, .f32⟩
  | 109 => ⟨S32x512x128, .f32⟩
  | 110 => ⟨S32x512x128, .f32⟩
  | 111 => ⟨S_, .f32⟩
  | 112 => ⟨S32x512x128, .f32⟩
  | 113 => ⟨S32x512x128, .f32⟩
  | 114 => ⟨S_, .f32⟩
  | 115 => ⟨S32x512x128, .f32⟩
  | 116 => ⟨S32x512x128, .f32⟩
  | 117 => ⟨S32x512x128, .f32⟩
  | 118 => ⟨S1x1x128, .f32⟩
  | 119 => ⟨S32x512x128, .f32⟩
  | 120 => ⟨S32x512x128, .f32⟩
  | 121 => ⟨S32x512x128, .f32⟩
  | 122 => ⟨S32x512x128, .f32⟩
  | 123 => ⟨S1x1x128, .f32⟩
  | 124 => ⟨S32x512x128, .f32⟩
  | 125 => ⟨S32x512x128, .f32⟩
  | 126 => ⟨S32x512x128, .f32⟩
  | 127 => ⟨S32x512x128, .f32⟩
  | _ => ⟨S32x512x128, .f32⟩

abbrev hbmTy0_1 (i : Nat) : BufTy := match i % 128 with
  | 0 => ⟨S32x512x128, .f32⟩
  | 1 => ⟨S_, .f32⟩
  | 2 => ⟨S32x512x128, .f32⟩
  | 3 => ⟨S32x512x128, .f32⟩
  | 4 => ⟨S32x512x128, .f32⟩
  | 5 => ⟨S_, .f32⟩
  | 6 => ⟨S32x512x128, .f32⟩
  | 7 => ⟨S32x512x128, .f32⟩
  | 8 => ⟨S32x512x128, .f32⟩
  | 9 => ⟨S32x512x128, .f32⟩
  | _ => ⟨S32x512x128, .f32⟩

abbrev hbmTy (i : Nat) : BufTy := match i / 128 with
  | 0 => hbmTy0_0 i
  | 1 => hbmTy0_1 i
  | _ => ⟨S32x512x128, .f32⟩

abbrev bufTy : (tb : Table) → Fin (tcTables nBuf tb) → BufTy
  | .hbm, ⟨i, _⟩ => hbmTy i
  | _, _ => ⟨S32x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_6 : Ref sig .tc := ⟨.hbm, 111, rfl⟩
abbrev main_v83 : Ref sig .tc := ⟨.hbm, 112, rfl⟩
abbrev main_v84 : Ref sig .tc := ⟨.hbm, 113, rfl⟩
abbrev main_cst_7 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call2_cst : Ref sig .tc := ⟨.hbm, 129, rfl⟩
abbrev main_call2_v0 : Ref sig .tc := ⟨.hbm, 130, rfl⟩
abbrev main_v99 : Ref sig .tc := ⟨.hbm, 131, rfl⟩
abbrev main_v100 : Ref sig .tc := ⟨.hbm, 132, rfl⟩
abbrev main_cst_8 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x512x128_0_1_2 : S1x1x128.BroadcastsInDim S32x512x128 (![0, 1, 2] : Fin 3 → Fin S32x512x128.rank)
  bcast_S_S32x512x128 : S_.BroadcastsInDim S32x512x128 (![] : Fin 0 → Fin S32x512x128.rank)
  bcast_S32x512x1_S32x512x128_0_1_2 : S32x512x1.BroadcastsInDim S32x512x128 (![0, 1, 2] : Fin 3 → Fin S32x512x128.rank)
  dot_S32x512x128_S128x128_S32x512x128_2_0_01_1_n_n_wf : DotDims.WF S32x512x128 S128x128 S32x512x128 [2] [0] [0, 1] [1] [] []
  dot_S32x512x512_S32x512x128_S32x512x128_2_1_1_2_0_0_wf : DotDims.WF S32x512x512 S32x512x128 S32x512x128 [2] [1] [1] [2] [0] [0]

variable [Facts₀]

def dot_S32x512x128_S128x128_S32x512x128_2_0_01_1_n_n : DotDims S32x512x128 S128x128 S32x512x128 where
  lhsContracting := [2]
  rhsContracting := [0]
  lhsNonContracting := [0, 1]
  rhsNonContracting := [1]
  lhsBatch := []
  rhsBatch := []
  wf := dot_S32x512x128_S128x128_S32x512x128_2_0_01_1_n_n_wf
def dot_S32x512x512_S32x512x128_S32x512x128_2_1_1_2_0_0 : DotDims S32x512x512 S32x512x128 S32x512x128 where
  lhsContracting := [2]
  rhsContracting := [1]
  lhsNonContracting := [1]
  rhsNonContracting := [2]
  lhsBatch := [0]
  rhsBatch := [0]
  wf := dot_S32x512x512_S32x512x128_S32x512x128_2_1_1_2_0_0_wf

class Facts : Prop extends Facts₀ where

variable [Facts]
-- ==== Proof.FrameBits.lean ====
import proofs.«106638_g44787918963399_cont_sun_c4_384_9_alg».proof.Proof.Gen.Kernel.Launch
import proofs.«106638_g44787918963399_cont_sun_c4_384_9_alg».proof.Proof.Gen.Kernel.Skeleton
import proofs.«106638_g44787918963399_cont_sun_c4_384_9_alg».proof.Proof.Gen.Kernel.Points
import Idealize.ShloMosaic.Lib.Pipeline.FrameBody
import Idealize.ShloMosaic.Lib.Ring
import Idealize.ShloMosaic.Lib.Tactic

/-!
# The frame of the fused graph-GRU program

The program first assembles, on the host side, the concatenated gate weights and the row-shaped
biases into fresh arrays, and then runs one pipelined region over eight grid points.  At a point
the body sees four graphs at once: their feature blocks, their dense support matrices, their node
masks, and the (point-independent) weights and biases.  For each of the four graphs it computes
the encoder output and two gated propagation steps, and writes the graph's final state into its
own quarter of the output block.

This file shows that every run terminates without fault, describes the output block left by the
body at each point as a closed function of the eleven input blocks, and concludes that the
seventeen argument arrays hold at the end exactly what they held at the start.
-/

set_option maxRecDepth 16384

noncomputable section

namespace Cert.Kernel.HandFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region

Eight host operations precede the region: two three-way concatenations, two two-way
concatenations and four reshapes.  Each writes one fresh intermediate array and reads, besides
other intermediates, only argument arrays.  None of them allocates. -/

/-- What core `c`'s arrays hold when the region starts: the launch contents, rewritten by the
    eight host operations in order. -/
abbrev V (c : Dev nD) (b : Ref sig .tc) : Buf (Elt F) ((c : Thread nD τ).loc b) :=
  StableHlo.after hostOps0 (fun b => m (c, b)) b

/-- No host operation allocates a buffer. -/
theorem hostOps0_noalloc : (hostOps0 : List (HloOp τ sig (Elt F))).Forall fun op => op.fresh = ∅ := by
  simp only [List.Forall]; repeat' constructor

/-- The program is its host operations followed by the one region, so the region starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_noalloc main_chain

/-! Every host operation writes an intermediate array, never an argument: each argument array is,
    at the start of the region, what it was at launch. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))

/-! ## Blocks

Window `w` selects, at grid point `t`, a block of its array: four consecutive graphs for the
three batched inputs and for the output, the whole array for the weights and biases. -/

/-- The block of window `w` at point `t`, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block whenever the body runs.  Where the pipeline
    has just fetched it this is what a fetch does; where it has not (the weights and biases after
    the first point) the block index has not moved since the last fetch and the body left the
    buffer alone, so the block fetched earlier is still the right one. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## From the region's post-condition to the frame

After the region, an array staged by an input window holds what it held when the region started,
and an array no window stages was never touched.  Five argument arrays are staged inputs (the
features, the supports, the masks, the encoder weights and the last gate weights); the other
twelve are read only by the host operations. -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 9).trans (((dats 0 c).arrAt_in 9 rfl _).trans ((hA c 9).trans (V_main_arg15 m c))),
      ((h c).2 main_arg16 (Pipeline.mem_restRefs_of main_arg16 (by decide) (by decide))).trans (V_main_arg16 m c)⟩) h

/-! ## The rectangles the body reads and writes

Graph `g` of the four occupies the slab `[g, 0, 0]` of extent one along the leading axis in each
batched block; the weights and biases are read whole. -/

abbrev featRow0 : Rect S4x512x128 := Rect.unit (s := S4x512x128) ![0, 0, 0] S1x512x128.size inb_S4x512x128_S1x512x128_0_0_0
abbrev suppRow0 : Rect S4x512x512 := Rect.unit (s := S4x512x512) ![0, 0, 0] S1x512x512.size inb_S4x512x512_S1x512x512_0_0_0
abbrev maskRow0 : Rect S4x512x1 := Rect.unit (s := S4x512x1) ![0, 0, 0] S1x512x1.size inb_S4x512x1_S1x512x1_0_0_0
abbrev featRow1 : Rect S4x512x128 := Rect.unit (s := S4x512x128) ![1, 0, 0] S1x512x128.size inb_S4x512x128_S1x512x128_1_0_0
abbrev suppRow1 : Rect S4x512x512 := Rect.unit (s := S4x512x512) ![1, 0, 0] S1x512x512.size inb_S4x512x512_S1x512x512_1_0_0
abbrev maskRow1 : Rect S4x512x1 := Rect.unit (s := S4x512x1) ![1, 0, 0] S1x512x1.size inb_S4x512x1_S1x512x1_1_0_0
abbrev featRow2 : Rect S4x512x128 := Rect.unit (s := S4x512x128) ![2, 0, 0] S1x512x128.size inb_S4x512x128_S1x512x128_2_0_0
abbrev suppRow2 : Rect S4x512x512 := Rect.unit (s := S4x512x512) ![2, 0, 0] S1x512x512.size inb_S4x512x512_S1x512x512_2_0_0
abbrev maskRow2 : Rect S4x512x1 := Rect.unit (s := S4x512x1) ![2, 0, 0] S1x512x1.size inb_S4x512x1_S1x512x1_2_0_0
abbrev featRow3 : Rect S4x512x128 := Rect.unit (s := S4x512x128) ![3, 0, 0] S1x512x128.size inb_S4x512x128_S1x512x128_3_0_0
abbrev suppRow3 : Rect S4x512x512 := Rect.unit (s := S4x512x512) ![3, 0, 0] S1x512x512.size inb_S4x512x512_S1x512x512_3_0_0
abbrev maskRow3 : Rect S4x512x1 := Rect.unit (s := S4x512x1) ![3, 0, 0] S1x512x1.size inb_S4x512x1_S1x512x1_3_0_0
abbrev all128x128 : Rect S128x128 := Rect.unit (s := S128x128) ![0, 0] S128x128.size inb_S128x128_S128x128_0_0
abbrev all1x128 : Rect S1x128 := Rect.unit (s := S1x128) ![0, 0] S1x128.size inb_S1x128_S1x128_0_0
abbrev all128x384 : Rect S128x384 := Rect.unit (s := S128x384) ![0, 0] S128x384.size inb_S128x384_S128x384_0_0
abbrev all1x384 : Rect S1x384 := Rect.unit (s := S1x384) ![0, 0] S1x384.size inb_S1x384_S1x384_0_0
abbrev all128x256 : Rect S128x256 := Rect.unit (s := S128x256) ![0, 0] S128x256.size inb_S128x256_S128x256_0_0
abbrev all1x256 : Rect S1x256 := Rect.unit (s := S1x256) ![0, 0] S1x256.size inb_S1x256_S1x256_0_0

/-! ## What the body computes

The input blocks are `x0` (features), `x1` (supports), `x2` (masks), `x3`, `x4` (encoder weight
and bias), `x5`, `x6` (the three support-side gate weights side by side, and their biases),
`x7`, `x8` (the two state-side gate weights side by side, and their biases), `x9`, `x10` (the
candidate weight and bias).  For each graph `g`:

* `enc g` is the encoder output, the masked rectified affine image of the graph's features;
* `hid g` is the state after the first propagation step applied to `enc g`;
* `fin g` is the state after the second propagation step applied to `hid g`, as the slab that
  is stored.

Each is the composition of the program's named pure pieces in the order the body evaluates them. -/

/-- Encoder output of graph 0. -/
def enc0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay1 (View.ld x0 featRow0) (View.ld x3 all128x128) (View.ld x2 maskRow0) (View.ld x4 all1x128)

/-- Encoder output of graph 1. -/
def enc1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay2 (View.ld x0 featRow1) (View.ld x3 all128x128) (View.ld x2 maskRow1) (View.ld x4 all1x128)

/-- Encoder output of graph 2. -/
def enc2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay4 (k0_pay3 (View.ld x0 featRow2)) (View.ld x3 all128x128) (View.ld x2 maskRow2) (View.ld x4 all1x128)

/-- Encoder output of graph 3. -/
def enc3 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay5 (View.ld x0 featRow3) (View.ld x3 all128x128) (View.ld x2 maskRow3) (View.ld x4 all1x128)

/-- State of graph 0 after the first step: the support-side gate pre-activations, then the gated update. -/
def hid0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay7 (enc0 x0 x1 x2 x3 x4 x5 x6 x7 x8 x9 x10) (k0_pay6 (enc0 x0 x1 x2 x3 x4 x5 x6 x7 x8 x9 x10) (View.ld x1 suppRow0) (View.ld x5 all128x384))
    (View.ld x6 all1x384) (View.ld x7 all128x256) (View.ld x8 all1x256) (View.ld x9 all128x128) (View.ld x2 maskRow0) (View.ld x10 all1x128)

/-- State of graph 1 after the first step: the aggregated neighbours, then the gated update. -/
def hid1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay9 (enc1 x0 x1 x2 x3 x4 x5 x6 x7 x8 x9 x10) (k0_pay8 (enc1 x0 x1 x2 x3 x4 x5 x6 x7 x8 x9 x10) (View.ld x1 suppRow1))
    (View.ld x5 all128x384) (View.ld x6 all1x384) (View.ld x7 all128x256) (View.ld x8 all1x256) (View.ld x9 all128x128) (View.ld x2 maskRow1) (View.ld x10 all1x128)

/-- State of graph 2 after the first step: the update gate, the candidate, then their blend with the old state. -/
def hid2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay14 (enc2 x0 x1 x2 x3 x4 x5 x6 x7 x8 x9 x10)
    (k0_pay12 (enc2 x0 x1 x2 x3 x4 x5 x6 x7 x8 x9 x10) (View.ld x1 suppRow2) (View.ld x5 all128x384) (View.ld x6 all1x384) (View.ld x7 all128x256) (View.ld x8 all1x256))
    (k0_pay13 (enc2 x0 x1 x2 x3 x4 x5 x6 x7 x8 x9 x10) (View.ld x1 suppRow2) (View.ld x5 all128x384) (View.ld x6 all1x384) (View.ld x7 all128x256) (View.ld x8 all1x256)
      (View.ld x9 all128x128) (View.ld x2 maskRow2) (View.ld x10 all1x128))

/-- State of graph 3 after the first step: the update gate, the mask column, the candidate's matrix
    product and the broadcast bias, then the gated update. -/
def hid3 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay21 (enc3 x0 x1 x2 x3 x4 x5 x6 x7 x8 x9 x10)
    (k0_pay17 (enc3 x0 x1 x2 x3 x4 x5 x6 x7 x8 x9 x10) (View.ld x1 suppRow3) (View.ld x5 all128x384) (View.ld x6 all1x384) (View.ld x7 all128x256) (View.ld x8 all1x256))
    (k0_pay18 (View.ld x2 maskRow3))
    (k0_pay19 (enc3 x0 x1 x2 x3 x4 x5 x6 x7 x8 x9 x10) (View.ld x1 suppRow3) (View.ld x5 all128x384) (View.ld x6 all1x384) (View.ld x7 all128x256) (View.ld x8 all1x256) (View.ld x9 all128x128))
    (k0_pay20 (View.ld x10 all1x128))

/-- State of graph 0 after the second step. -/
def mid0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay28 (hid0 x0 x1 x2 x3 x4 x5 x6 x7 x8 x9 x10)
    (k0_pay24 (hid0 x0 x1 x2 x3 x4 x5 x6 x7 x8 x9 x10) (View.ld x1 suppRow0) (View.ld x5 all128x384) (View.ld x6 all1x384) (View.ld x7 all128x256) (View.ld x8 all1x256))
    (k0_pay25 (hid0 x0 x1 x2 x3 x4 x5 x6 x7 x8 x9 x10) (View.ld x1 suppRow0) (View.ld x5 all128x384) (View.ld x6 all1x384) (View.ld x7 all128x256) (View.ld x8 all1x256) (View.ld x9 all128x128))
    (k0_pay26 (View.ld x2 maskRow0))
    (k0_pay27 (hid0 x0 x1 x2 x3 x4 x5 x6 x7 x8 x9 x10) (View.ld x1 suppRow0) (View.ld x5 all128x384) (View.ld x6 all1x384))
    (View.ld x10 all1x128)

/-- State of graph 1 after the second step. -/
def mid1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay33 (hid1 x0 x1 x2 x3 x4 x5 x6 x7 x8 x9 x10)
    (k0_pay29 (hid1 x0 x1 x2 x3 x4 x5 x6 x7 x8 x9 x10) (View.ld x1 suppRow1) (View.ld x5 all128x384) (View.ld x6 all1x384))
    (k0_pay31 (hid1 x0 x1 x2 x3 x4 x5 x6 x7 x8 x9 x10) (View.ld x1 suppRow1) (View.ld x5 all128x384) (View.ld x6 all1x384) (View.ld x7 all128x256) (View.ld x8 all1x256))
    (k0_pay32 (hid1 x0 x1 x2 x3 x4 x5 x6 x7 x8 x9 x10) (View.ld x1 suppRow1) (View.ld x5 all128x384) (View.ld x6 all1x384) (View.ld x7 all128x256) (View.ld x8 all1x256) (View.ld x9 all128x128))
    (View.ld x2 maskRow1) (View.ld x10 all1x128)

/-- State of graph 2 after the second step. -/
def mid2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay38 (hid2 x0 x1 x2 x3 x4 x5 x6 x7 x8 x9 x10)
    (k0_pay34 (hid2 x0 x1 x2 x3 x4 x5 x6 x7 x8 x9 x10) (View.ld x1 suppRow2) (View.ld x5 all128x384) (View.ld x6 all1x384))
    (k0_pay36 (hid2 x0 x1 x2 x3 x4 x5 x6 x7 x8 x9 x10) (View.ld x1 suppRow2) (View.ld x5 all128x384) (View.ld x6 all1x384) (View.ld x7 all128x256) (View.ld x8 all1x256))
    (k0_pay37 (hid2 x0 x1 x2 x3 x4 x5 x6 x7 x8 x9 x10) (View.ld x1 suppRow2) (View.ld x5 all128x384) (View.ld x6 all1x384) (View.ld x7 all128x256) (View.ld x8 all1x256))
    (View.ld x9 all128x128) (View.ld x2 maskRow2) (View.ld x10 all1x128)

/-- The slab stored for graph 0: its state after the second step. -/
def res0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 := k0_pay43 (mid0 x0 x1 x2 x3 x4 x5 x6 x7 x8 x9 x10)

/-- The slab stored for graph 1. -/
def res1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 := k0_pay44 (mid1 x0 x1 x2 x3 x4 x5 x6 x7 x8 x9 x10)

/-- The slab stored for graph 2. -/
def res2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 := k0_pay45 (mid2 x0 x1 x2 x3 x4 x5 x6 x7 x8 x9 x10)

/-- The slab stored for graph 3: the second step applied to its state after the first, reshaped for the store. -/
def res3 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 :=
  k0_pay46 (hid3 x0 x1 x2 x3 x4 x5 x6 x7 x8 x9 x10)
    (k0_pay39 (hid3 x0 x1 x2 x3 x4 x5 x6 x7 x8 x9 x10) (View.ld x1 suppRow3) (View.ld x5 all128x384) (View.ld x6 all1x384))
    (k0_pay40 (hid3 x0 x1 x2 x3 x4 x5 x6 x7 x8 x9 x10) (View.ld x7 all128x256) (View.ld x8 all1x256))
    (k0_pay41 (hid3 x0 x1 x2 x3 x4 x5 x6 x7 x8 x9 x10) (View.ld x1 suppRow3) (View.ld x5 all128x384) (View.ld x6 all1x384))
    (k0_pay42 (hid3 x0 x1 x2 x3 x4 x5 x6 x7 x8 x9 x10) (View.ld x7 all128x256) (View.ld x8 all1x256))
    (View.ld x9 all128x128) (View.ld x2 maskRow3) (View.ld x10 all1x128)

/-! ## The output block after the body

The body stores the four slabs in the order of the graphs, each into its own quarter of the
output block.  The block is then the overlay of the four pieces (listed latest first); the
quarters are disjoint and exhaust the block, so nothing of its earlier contents remains. -/

def out0_11 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : Vec F S4x512x128 .f32 :=
  View.canon [⟨featRow3, res3 x0 x1 x2 x3 x4 x5 x6 x7 x8 x9 x10⟩, ⟨featRow2, res2 x0 x1 x2 x3 x4 x5 x6 x7 x8 x9 x10⟩, ⟨featRow1, res1 x0 x1 x2 x3 x4 x5 x6 x7 x8 x9 x10⟩, ⟨featRow0, res0 x0 x1 x2 x3 x4 x5 x6 x7 x8 x9 x10⟩]

/-- Four slabs of extent one along the leading axis, at offsets 0 to 3, tile the block of extent four. -/
theorem cover0_11 (p0 p1 p2 p3 : Vec F S1x512x128 .f32) (y : S4x512x128.Idx) :
    ∃ pc ∈ ([⟨featRow3, p3⟩, ⟨featRow2, p2⟩, ⟨featRow1, p1⟩, ⟨featRow0, p0⟩] : List (View.Piece (Elt F) S4x512x128 .f32)), y ∈ pc.1.set :=
  View.cover_of_tiled [⟨featRow3, p3⟩, ⟨featRow2, p2⟩, ⟨featRow1, p1⟩, ⟨featRow0, p0⟩] S1x512x128.size (by rfl) y

/-! ## The body, run on its buffers

Given the eleven input buffers whole at contents `x0 … x10` and the output buffer whole at any
contents, the body terminates, leaves every input buffer as it was, and leaves the output buffer
at `out0_11 x0 … x10`.  The body only loads from the inputs, so they are unchanged; its loads
from the output buffer are never used; and what its four stores leave is read back as the
overlay of the four pieces because they cover the block. -/

set_option maxHeartbeats 4000000 in
theorem sound_kernel (c : Dev nD) (E : Set ℕ) (i : grid0.Coords) (a0 : Memref sig .tc .vmem S4x512x128 .f32) (ha0 : a0.IsWhole) (a1 : Memref sig .tc .vmem S4x512x512 .f32) (ha1 : a1.IsWhole) (a2 : Memref sig .tc .vmem S4x512x1 .f32) (ha2 : a2.IsWhole) (a3 : Memref sig .tc .vmem S128x128 .f32) (ha3 : a3.IsWhole) (a4 : Memref sig .tc .vmem S1x128 .f32) (ha4 : a4.IsWhole) (a5 : Memref sig .tc .vmem S128x384 .f32) (ha5 : a5.IsWhole) (a6 : Memref sig .tc .vmem S1x384 .f32) (ha6 : a6.IsWhole) (a7 : Memref sig .tc .vmem S128x256 .f32) (ha7 : a7.IsWhole) (a8 : Memref sig .tc .vmem S1x256 .f32) (ha8 : a8.IsWhole) (a9 : Memref sig .tc .vmem S128x128 .f32) (ha9 : a9.IsWhole) (a10 : Memref sig .tc .vmem S1x128 .f32) (ha10 : a10.IsWhole) (a11 : Memref sig .tc .vmem S4x512x128 .f32) (ha11 : a11.IsWhole)
    (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out0_11 x0 x1 x2 x3 x4 x5 x6 x7 x8 x9 x10)) -∗ K ⟨⟩))
      ⊢ wp frame (wpE (defs₀ (F := F)) Variants.none c none) E (cc0__graph_gru_kernel i a0 ha0 a1 ha1 a2 ha2 a3 ha3 a4 ha4 a5 ha5 a6 ha6 a7 ha7 a8 ha8 a9 ha9 a10 ha10 a11 ha11) K := by
  simp only [cc0__graph_gru_kernel_eq_skeleton]; unfold cc0__graph_gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _ _ _ _)

/-! ## The proof data of the pipeline

On each core: the arrays are those the region finds; after the body at point `t` every input
buffer still holds its block and the output buffer holds `out0_11` of the eleven input blocks;
the body keeps nothing from point to point and owes no signal. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a grid point -/

/-- What the pipeline hands the body at point `t`: the invariant, the signals owed, and each
    window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- At every point the input buffers hold their blocks, so the body's triple applies with the
    blocks as the contents; the invariant and the owed signals are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with all counters at zero, every fair run of the program terminates,
    and at the end each array of the pipeline holds what the proof data prescribe while every
    other array holds what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without fault and leaves its seventeen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.HandFrame

end
-- ==== Proof.FrameIdeal.lean ====
import proofs.«106638_g44787918963399_cont_sun_c4_384_9_alg».proof.Proof.Gen.KernelIdeal.Launch
import proofs.«106638_g44787918963399_cont_sun_c4_384_9_alg».proof.Proof.Gen.KernelIdeal.Skeleton
import proofs.«106638_g44787918963399_cont_sun_c4_384_9_alg».proof.Proof.Gen.KernelIdeal.Points
import Idealize.ShloMosaic.Lib.Pipeline.FrameBody
import Idealize.ShloMosaic.Lib.Ring
import Idealize.ShloMosaic.Lib.Tactic

/-!
# The frame of the fused graph-GRU program

The program first assembles, on the host side, the concatenated gate weights and the row-shaped
biases into fresh arrays, and then runs one pipelined region over eight grid points.  At a point
the body sees four graphs at once: their feature blocks, their dense support matrices, their node
masks, and the (point-independent) weights and biases.  For each of the four graphs it computes
the encoder output and two gated propagation steps, and writes the graph's final state into its
own quarter of the output block.

This file shows that every run terminates without fault, describes the output block left by the
body at each point as a closed function of the eleven input blocks, and concludes that the
seventeen argument arrays hold at the end exactly what they held at the start.
-/

set_option maxRecDepth 16384

noncomputable section

namespace Cert.KernelIdeal.HandFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region

Eight host operations precede the region: two three-way concatenations, two two-way
concatenations and four reshapes.  Each writes one fresh intermediate array and reads, besides
other intermediates, only argument arrays.  None of them allocates. -/

/-- What core `c`'s arrays hold when the region starts: the launch contents, rewritten by the
    eight host operations in order. -/
abbrev V (c : Dev nD) (b : Ref sig .tc) : Buf (Elt F) ((c : Thread nD τ).loc b) :=
  StableHlo.after hostOps0 (fun b => m (c, b)) b

/-- No host operation allocates a buffer. -/
theorem hostOps0_noalloc : (hostOps0 : List (HloOp τ sig (Elt F))).Forall fun op => op.fresh = ∅ := by
  simp only [List.Forall]; repeat' constructor

/-- The program is its host operations followed by the one region, so the region starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_noalloc main_chain

/-! Every host operation writes an intermediate array, never an argument: each argument array is,
    at the start of the region, what it was at launch. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.binary_writes, StableHlo.reshape_writes, Finset.mem_singleton]
    repeat' apply And.intro
    all_goals exact StableHlo.devRef_ne_of_ne (by decide)))

/-! ## Blocks

Window `w` selects, at grid point `t`, a block of its array: four consecutive graphs for the
three batched inputs and for the output, the whole array for the weights and biases. -/

/-- The block of window `w` at point `t`, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block whenever the body runs.  Where the pipeline
    has just fetched it this is what a fetch does; where it has not (the weights and biases after
    the first point) the block index has not moved since the last fetch and the body left the
    buffer alone, so the block fetched earlier is still the right one. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## From the region's post-condition to the frame

After the region, an array staged by an input window holds what it held when the region started,
and an array no window stages was never touched.  Five argument arrays are staged inputs (the
features, the supports, the masks, the encoder weights and the last gate weights); the other
twelve are read only by the host operations. -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 9).trans (((dats 0 c).arrAt_in 9 rfl _).trans ((hA c 9).trans (V_main_arg15 m c))),
      ((h c).2 main_arg16 (Pipeline.mem_restRefs_of main_arg16 (by decide) (by decide))).trans (V_main_arg16 m c)⟩) h

/-! ## The rectangles the body reads and writes

Graph `g` of the four occupies the slab `[g, 0, 0]` of extent one along the leading axis in each
batched block; the weights and biases are read whole. -/

abbrev featRow0 : Rect S4x512x128 := Rect.unit (s := S4x512x128) ![0, 0, 0] S1x512x128.size inb_S4x512x128_S1x512x128_0_0_0
abbrev suppRow0 : Rect S4x512x512 := Rect.unit (s := S4x512x512) ![0, 0, 0] S1x512x512.size inb_S4x512x512_S1x512x512_0_0_0
abbrev maskRow0 : Rect S4x512x1 := Rect.unit (s := S4x512x1) ![0, 0, 0] S1x512x1.size inb_S4x512x1_S1x512x1_0_0_0
abbrev featRow1 : Rect S4x512x128 := Rect.unit (s := S4x512x128) ![1, 0, 0] S1x512x128.size inb_S4x512x128_S1x512x128_1_0_0
abbrev suppRow1 : Rect S4x512x512 := Rect.unit (s := S4x512x512) ![1, 0, 0] S1x512x512.size inb_S4x512x512_S1x512x512_1_0_0
abbrev maskRow1 : Rect S4x512x1 := Rect.unit (s := S4x512x1) ![1, 0, 0] S1x512x1.size inb_S4x512x1_S1x512x1_1_0_0
abbrev featRow2 : Rect S4x512x128 := Rect.unit (s := S4x512x128) ![2, 0, 0] S1x512x128.size inb_S4x512x128_S1x512x128_2_0_0
abbrev suppRow2 : Rect S4x512x512 := Rect.unit (s := S4x512x512) ![2, 0, 0] S1x512x512.size inb_S4x512x512_S1x512x512_2_0_0
abbrev maskRow2 : Rect S4x512x1 := Rect.unit (s := S4x512x1) ![2, 0, 0] S1x512x1.size inb_S4x512x1_S1x512x1_2_0_0
abbrev featRow3 : Rect S4x512x128 := Rect.unit (s := S4x512x128) ![3, 0, 0] S1x512x128.size inb_S4x512x128_S1x512x128_3_0_0
abbrev suppRow3 : Rect S4x512x512 := Rect.unit (s := S4x512x512) ![3, 0, 0] S1x512x512.size inb_S4x512x512_S1x512x512_3_0_0
abbrev maskRow3 : Rect S4x512x1 := Rect.unit (s := S4x512x1) ![3, 0, 0] S1x512x1.size inb_S4x512x1_S1x512x1_3_0_0
abbrev all128x128 : Rect S128x128 := Rect.unit (s := S128x128) ![0, 0] S128x128.size inb_S128x128_S128x128_0_0
abbrev all1x128 : Rect S1x128 := Rect.unit (s := S1x128) ![0, 0] S1x128.size inb_S1x128_S1x128_0_0
abbrev all128x384 : Rect S128x384 := Rect.unit (s := S128x384) ![0, 0] S128x384.size inb_S128x384_S128x384_0_0
abbrev all1x384 : Rect S1x384 := Rect.unit (s := S1x384) ![0, 0] S1x384.size inb_S1x384_S1x384_0_0
abbrev all128x256 : Rect S128x256 := Rect.unit (s := S128x256) ![0, 0] S128x256.size inb_S128x256_S128x256_0_0
abbrev all1x256 : Rect S1x256 := Rect.unit (s := S1x256) ![0, 0] S1x256.size inb_S1x256_S1x256_0_0

/-! ## What the body computes

The input blocks are `x0` (features), `x1` (supports), `x2` (masks), `x3`, `x4` (encoder weight
and bias), `x5`, `x6` (the three support-side gate weights side by side, and their biases),
`x7`, `x8` (the two state-side gate weights side by side, and their biases), `x9`, `x10` (the
candidate weight and bias).  For each graph `g`:

* `enc g` is the encoder output, the masked rectified affine image of the graph's features;
* `hid g` is the state after the first propagation step applied to `enc g`;
* `fin g` is the state after the second propagation step applied to `hid g`, as the slab that
  is stored.

Each is the composition of the program's named pure pieces in the order the body evaluates them. -/

/-- Encoder output of graph 0. -/
def enc0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay1 (View.ld x0 featRow0) (View.ld x3 all128x128) (View.ld x2 maskRow0) (View.ld x4 all1x128)

/-- Encoder output of graph 1. -/
def enc1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay2 (View.ld x0 featRow1) (View.ld x3 all128x128) (View.ld x2 maskRow1) (View.ld x4 all1x128)

/-- Encoder output of graph 2. -/
def enc2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay4 (k0_pay3 (View.ld x0 featRow2)) (View.ld x3 all128x128) (View.ld x2 maskRow2) (View.ld x4 all1x128)

/-- Encoder output of graph 3. -/
def enc3 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay5 (View.ld x0 featRow3) (View.ld x3 all128x128) (View.ld x2 maskRow3) (View.ld x4 all1x128)

/-- State of graph 0 after the first step: the support-side gate pre-activations, then the gated update. -/
def hid0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay7 (enc0 x0 x1 x2 x3 x4 x5 x6 x7 x8 x9 x10) (k0_pay6 (enc0 x0 x1 x2 x3 x4 x5 x6 x7 x8 x9 x10) (View.ld x1 suppRow0) (View.ld x5 all128x384))
    (View.ld x6 all1x384) (View.ld x7 all128x256) (View.ld x8 all1x256) (View.ld x9 all128x128) (View.ld x2 maskRow0) (View.ld x10 all1x128)

/-- State of graph 1 after the first step: the aggregated neighbours, then the gated update. -/
def hid1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay9 (enc1 x0 x1 x2 x3 x4 x5 x6 x7 x8 x9 x10) (k0_pay8 (enc1 x0 x1 x2 x3 x4 x5 x6 x7 x8 x9 x10) (View.ld x1 suppRow1))
    (View.ld x5 all128x384) (View.ld x6 all1x384) (View.ld x7 all128x256) (View.ld x8 all1x256) (View.ld x9 all128x128) (View.ld x2 maskRow1) (View.ld x10 all1x128)

/-- State of graph 2 after the first step: the update gate, the candidate, then their blend with the old state. -/
def hid2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay14 (enc2 x0 x1 x2 x3 x4 x5 x6 x7 x8 x9 x10)
    (k0_pay12 (enc2 x0 x1 x2 x3 x4 x5 x6 x7 x8 x9 x10) (View.ld x1 suppRow2) (View.ld x5 all128x384) (View.ld x6 all1x384) (View.ld x7 all128x256) (View.ld x8 all1x256))
    (k0_pay13 (enc2 x0 x1 x2 x3 x4 x5 x6 x7 x8 x9 x10) (View.ld x1 suppRow2) (View.ld x5 all128x384) (View.ld x6 all1x384) (View.ld x7 all128x256) (View.ld x8 all1x256)
      (View.ld x9 all128x128) (View.ld x2 maskRow2) (View.ld x10 all1x128))

/-- State of graph 3 after the first step: the update gate, the mask column, the candidate's matrix
    product and the broadcast bias, then the gated update. -/
def hid3 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay21 (enc3 x0 x1 x2 x3 x4 x5 x6 x7 x8 x9 x10)
    (k0_pay17 (enc3 x0 x1 x2 x3 x4 x5 x6 x7 x8 x9 x10) (View.ld x1 suppRow3) (View.ld x5 all128x384) (View.ld x6 all1x384) (View.ld x7 all128x256) (View.ld x8 all1x256))
    (k0_pay18 (View.ld x2 maskRow3))
    (k0_pay19 (enc3 x0 x1 x2 x3 x4 x5 x6 x7 x8 x9 x10) (View.ld x1 suppRow3) (View.ld x5 all128x384) (View.ld x6 all1x384) (View.ld x7 all128x256) (View.ld x8 all1x256) (View.ld x9 all128x128))
    (k0_pay20 (View.ld x10 all1x128))

/-- State of graph 0 after the second step. -/
def mid0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay28 (hid0 x0 x1 x2 x3 x4 x5 x6 x7 x8 x9 x10)
    (k0_pay24 (hid0 x0 x1 x2 x3 x4 x5 x6 x7 x8 x9 x10) (View.ld x1 suppRow0) (View.ld x5 all128x384) (View.ld x6 all1x384) (View.ld x7 all128x256) (View.ld x8 all1x256))
    (k0_pay25 (hid0 x0 x1 x2 x3 x4 x5 x6 x7 x8 x9 x10) (View.ld x1 suppRow0) (View.ld x5 all128x384) (View.ld x6 all1x384) (View.ld x7 all128x256) (View.ld x8 all1x256) (View.ld x9 all128x128))
    (k0_pay26 (View.ld x2 maskRow0))
    (k0_pay27 (hid0 x0 x1 x2 x3 x4 x5 x6 x7 x8 x9 x10) (View.ld x1 suppRow0) (View.ld x5 all128x384) (View.ld x6 all1x384))
    (View.ld x10 all1x128)

/-- State of graph 1 after the second step. -/
def mid1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay33 (hid1 x0 x1 x2 x3 x4 x5 x6 x7 x8 x9 x10)
    (k0_pay29 (hid1 x0 x1 x2 x3 x4 x5 x6 x7 x8 x9 x10) (View.ld x1 suppRow1) (View.ld x5 all128x384) (View.ld x6 all1x384))
    (k0_pay31 (hid1 x0 x1 x2 x3 x4 x5 x6 x7 x8 x9 x10) (View.ld x1 suppRow1) (View.ld x5 all128x384) (View.ld x6 all1x384) (View.ld x7 all128x256) (View.ld x8 all1x256))
    (k0_pay32 (hid1 x0 x1 x2 x3 x4 x5 x6 x7 x8 x9 x10) (View.ld x1 suppRow1) (View.ld x5 all128x384) (View.ld x6 all1x384) (View.ld x7 all128x256) (View.ld x8 all1x256) (View.ld x9 all128x128))
    (View.ld x2 maskRow1) (View.ld x10 all1x128)

/-- State of graph 2 after the second step. -/
def mid2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S512x128 .f32 :=
  k0_pay38 (hid2 x0 x1 x2 x3 x4 x5 x6 x7 x8 x9 x10)
    (k0_pay34 (hid2 x0 x1 x2 x3 x4 x5 x6 x7 x8 x9 x10) (View.ld x1 suppRow2) (View.ld x5 all128x384) (View.ld x6 all1x384))
    (k0_pay36 (hid2 x0 x1 x2 x3 x4 x5 x6 x7 x8 x9 x10) (View.ld x1 suppRow2) (View.ld x5 all128x384) (View.ld x6 all1x384) (View.ld x7 all128x256) (View.ld x8 all1x256))
    (k0_pay37 (hid2 x0 x1 x2 x3 x4 x5 x6 x7 x8 x9 x10) (View.ld x1 suppRow2) (View.ld x5 all128x384) (View.ld x6 all1x384) (View.ld x7 all128x256) (View.ld x8 all1x256))
    (View.ld x9 all128x128) (View.ld x2 maskRow2) (View.ld x10 all1x128)

/-- The slab stored for graph 0: its state after the second step. -/
def res0 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 := k0_pay43 (mid0 x0 x1 x2 x3 x4 x5 x6 x7 x8 x9 x10)

/-- The slab stored for graph 1. -/
def res1 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 := k0_pay44 (mid1 x0 x1 x2 x3 x4 x5 x6 x7 x8 x9 x10)

/-- The slab stored for graph 2. -/
def res2 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 := k0_pay45 (mid2 x0 x1 x2 x3 x4 x5 x6 x7 x8 x9 x10)

/-- The slab stored for graph 3: the second step applied to its state after the first, reshaped for the store. -/
def res3 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : FVec F S1x512x128 .f32 :=
  k0_pay46 (hid3 x0 x1 x2 x3 x4 x5 x6 x7 x8 x9 x10)
    (k0_pay39 (hid3 x0 x1 x2 x3 x4 x5 x6 x7 x8 x9 x10) (View.ld x1 suppRow3) (View.ld x5 all128x384) (View.ld x6 all1x384))
    (k0_pay40 (hid3 x0 x1 x2 x3 x4 x5 x6 x7 x8 x9 x10) (View.ld x7 all128x256) (View.ld x8 all1x256))
    (k0_pay41 (hid3 x0 x1 x2 x3 x4 x5 x6 x7 x8 x9 x10) (View.ld x1 suppRow3) (View.ld x5 all128x384) (View.ld x6 all1x384))
    (k0_pay42 (hid3 x0 x1 x2 x3 x4 x5 x6 x7 x8 x9 x10) (View.ld x7 all128x256) (View.ld x8 all1x256))
    (View.ld x9 all128x128) (View.ld x2 maskRow3) (View.ld x10 all1x128)

/-! ## The output block after the body

The body stores the four slabs in the order of the graphs, each into its own quarter of the
output block.  The block is then the overlay of the four pieces (listed latest first); the
quarters are disjoint and exhaust the block, so nothing of its earlier contents remains. -/

def out0_11 (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) : Vec F S4x512x128 .f32 :=
  View.canon [⟨featRow3, res3 x0 x1 x2 x3 x4 x5 x6 x7 x8 x9 x10⟩, ⟨featRow2, res2 x0 x1 x2 x3 x4 x5 x6 x7 x8 x9 x10⟩, ⟨featRow1, res1 x0 x1 x2 x3 x4 x5 x6 x7 x8 x9 x10⟩, ⟨featRow0, res0 x0 x1 x2 x3 x4 x5 x6 x7 x8 x9 x10⟩]

/-- Four slabs of extent one along the leading axis, at offsets 0 to 3, tile the block of extent four. -/
theorem cover0_11 (p0 p1 p2 p3 : Vec F S1x512x128 .f32) (y : S4x512x128.Idx) :
    ∃ pc ∈ ([⟨featRow3, p3⟩, ⟨featRow2, p2⟩, ⟨featRow1, p1⟩, ⟨featRow0, p0⟩] : List (View.Piece (Elt F) S4x512x128 .f32)), y ∈ pc.1.set :=
  View.cover_of_tiled [⟨featRow3, p3⟩, ⟨featRow2, p2⟩, ⟨featRow1, p1⟩, ⟨featRow0, p0⟩] S1x512x128.size (by rfl) y

/-! ## The body, run on its buffers

Given the eleven input buffers whole at contents `x0 … x10` and the output buffer whole at any
contents, the body terminates, leaves every input buffer as it was, and leaves the output buffer
at `out0_11 x0 … x10`.  The body only loads from the inputs, so they are unchanged; its loads
from the output buffer are never used; and what its four stores leave is read back as the
overlay of the four pieces because they cover the block. -/

set_option maxHeartbeats 4000000 in
theorem sound_kernel (c : Dev nD) (E : Set ℕ) (i : grid0.Coords) (a0 : Memref sig .tc .vmem S4x512x128 .f32) (ha0 : a0.IsWhole) (a1 : Memref sig .tc .vmem S4x512x512 .f32) (ha1 : a1.IsWhole) (a2 : Memref sig .tc .vmem S4x512x1 .f32) (ha2 : a2.IsWhole) (a3 : Memref sig .tc .vmem S128x128 .f32) (ha3 : a3.IsWhole) (a4 : Memref sig .tc .vmem S1x128 .f32) (ha4 : a4.IsWhole) (a5 : Memref sig .tc .vmem S128x384 .f32) (ha5 : a5.IsWhole) (a6 : Memref sig .tc .vmem S1x384 .f32) (ha6 : a6.IsWhole) (a7 : Memref sig .tc .vmem S128x256 .f32) (ha7 : a7.IsWhole) (a8 : Memref sig .tc .vmem S1x256 .f32) (ha8 : a8.IsWhole) (a9 : Memref sig .tc .vmem S128x128 .f32) (ha9 : a9.IsWhole) (a10 : Memref sig .tc .vmem S1x128 .f32) (ha10 : a10.IsWhole) (a11 : Memref sig .tc .vmem S4x512x128 .f32) (ha11 : a11.IsWhole)
    (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out0_11 x0 x1 x2 x3 x4 x5 x6 x7 x8 x9 x10)) -∗ K ⟨⟩))
      ⊢ wp frame (wpE (defs₀ (F := F)) Variants.none c none) E (cc0__graph_gru_kernel i a0 ha0 a1 ha1 a2 ha2 a3 ha3 a4 ha4 a5 ha5 a6 ha6 a7 ha7 a8 ha8 a9 ha9 a10 ha10 a11 ha11) K := by
  simp only [cc0__graph_gru_kernel_eq_skeleton]; unfold cc0__graph_gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _ _ _ _)

/-! ## The proof data of the pipeline

On each core: the arrays are those the region finds; after the body at point `t` every input
buffer still holds its block and the output buffer holds `out0_11` of the eleven input blocks;
the body keeps nothing from point to point and owes no signal. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a grid point -/

/-- What the pipeline hands the body at point `t`: the invariant, the signals owed, and each
    window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- At every point the input buffers hold their blocks, so the body's triple applies with the
    blocks as the contents; the invariant and the owed signals are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with all counters at zero, every fair run of the program terminates,
    and at the end each array of the pipeline holds what the proof data prescribe while every
    other array holds what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end without fault and leaves its seventeen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.HandFrame

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibBroadcast2.lean ====
/-
  Two keep-dims broadcasts of small matrices read at an index: a column `[a, 1]` broadcast along the lanes to
  `[a, b]` reads, at `(p, c)`, the column's element `p`; a single element `[1, 1]` broadcast to `[a, b]` reads that
  element everywhere. (The row form `[1, b] → [a, b]` is the library's.)
-/
import Idealize.ShloMosaic.Lib.Pipeline.Value
import Idealize.ShloMosaic.Lib.ValueIdx

noncomputable section

namespace LibBroadcast2

open Idealize.ShloMosaic Idealize.ShloMosaic.ValueIdx

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end LibBroadcast2

end
-- ==== Proof.LibBatchNormStats.lean ====
/-
  General facts about column statistics of a real matrix read on the extended reals.

  * the inclusion of the reals into the extended reals commutes with a finite sum;
  * dividing (the extended-real division with its corners at zero) a real by a nonzero real is the real quotient;
  * the two textbook forms of the variance of a finite family f over N = card terms agree,
        (Σ f²)/N - ((Σ f)/N)²  =  (Σ (f - (Σ f)/N)²)/N,
    first on the reals and then for real entries read on the extended reals, and the second form is not negative;
  * the reciprocal square root of a positive real is the real (√·)⁻¹;
  * the maximum of two reals.
-/
import Idealize.ShloMosaic.PureOps.Ideal
import Mathlib.Algebra.BigOperators.Fin
import Mathlib.Algebra.Order.BigOperators.Ring.Finset
import Mathlib.Tactic.Ring
import Mathlib.Tactic.FieldSimp
import Mathlib.Tactic.Positivity

noncomputable section

namespace Cert.BatchNormStats

open Idealize.ShloMosaic

/-- The inclusion ℝ → EReal commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real entries divided by a nonzero real is the real sum times the reciprocal. -/
theorem div_sum_coe {ι : Type*} (s : Finset ι) (f : ι → ℝ) {N : ℝ} (hN : N ≠ 0) :
    Ideal.div (∑ i ∈ s, (f i : EReal)) (N : EReal) = (((∑ i ∈ s, f i) * (1 / N) : ℝ) : EReal) := by
  rw [Ideal.div_coe hN, ← coe_finset_sum, ← EReal.coe_mul]

/-- The real identity E[f²] - (E f)² = E[(f - E f)²] over N = card terms, with E written as "sum times 1/N". -/
theorem real_var_forms {ι : Type*} (s : Finset ι) (f : ι → ℝ) {N : ℝ} (hN : N = (s.card : ℝ)) (hN0 : N ≠ 0) :
    (∑ i ∈ s, f i * f i) * (1 / N) - ((∑ i ∈ s, f i) * (1 / N)) * ((∑ i ∈ s, f i) * (1 / N))
      = (∑ i ∈ s, (f i - (∑ i ∈ s, f i) * (1 / N)) * (f i - (∑ i ∈ s, f i) * (1 / N))) * (1 / N) := by
  set m : ℝ := (∑ i ∈ s, f i) * (1 / N) with hm
  have hS : ∑ i ∈ s, f i = N * m := by rw [hm]; field_simp
  have hexp : ∑ i ∈ s, (f i - m) * (f i - m)
      = (∑ i ∈ s, f i * f i) - 2 * m * (∑ i ∈ s, f i) + (s.card : ℝ) * (m * m) := by
    have : ∀ i ∈ s, (f i - m) * (f i - m) = f i * f i - 2 * m * f i + m * m := fun i _ => by ring
    rw [Finset.sum_congr rfl this, Finset.sum_add_distrib, Finset.sum_sub_distrib, ← Finset.mul_sum,
      Finset.sum_const, nsmul_eq_mul]
  rw [hexp, ← hN, hS]
  field_simp
  ring

/-- The mean squared deviation is not negative. -/
theorem real_var_nonneg {ι : Type*} (s : Finset ι) (f : ι → ℝ) (m : ℝ) {N : ℝ} (hN : 0 < N) :
    0 ≤ (∑ i ∈ s, (f i - m) * (f i - m)) * (1 / N) := by
  apply mul_nonneg
  · exact Finset.sum_nonneg (fun i _ => mul_self_nonneg _)
  · positivity

/-- The two forms of the variance agree for real entries read on the extended reals. -/
theorem var_forms_coe {ι : Type*} (s : Finset ι) (f : ι → ℝ) {N : ℝ} (hN : N = (s.card : ℝ)) (hN0 : N ≠ 0) :
    Ideal.div (∑ i ∈ s, (f i : EReal) * (f i : EReal)) (N : EReal)
        - Ideal.div (∑ i ∈ s, (f i : EReal)) (N : EReal) * Ideal.div (∑ i ∈ s, (f i : EReal)) (N : EReal)
      = Ideal.div (∑ i ∈ s, ((f i : EReal) - Ideal.div (∑ i ∈ s, (f i : EReal)) (N : EReal))
          * ((f i : EReal) - Ideal.div (∑ i ∈ s, (f i : EReal)) (N : EReal))) (N : EReal) := by
  rw [div_sum_coe s f hN0]
  simp only [← EReal.coe_mul, ← EReal.coe_sub]
  rw [div_sum_coe s (fun i => f i * f i) hN0, div_sum_coe s _ hN0, ← EReal.coe_sub,
    real_var_forms s f hN hN0]

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The maximum of two reals, read on the extended reals. -/
theorem max_coe (a b : ℝ) : max (a : EReal) (b : EReal) = ((max a b : ℝ) : EReal) :=
  (EReal.coe_strictMono.monotone.map_max).symm

end Cert.BatchNormStats

end
-- ==== Proof.Spec.lean ====
/-
  The mathematics both programs compute, stated once over the REAL numbers.

  A batch of 32 graphs, each with 512 nodes and 128 features. With node features `x`, a dense
  512 × 512 support matrix per graph, a node mask, an encoder (W_enc, b_enc) and six gate matrices with their
  biases, the layer is

    out₀ = mask · relu (x · W_enc + b_enc)
    a    = support · out
    z    = σ ((a · W_z0 + b_z0) + (out · W_z1 + b_z1))
    r    = σ ((a · W_r0 + b_r0) + (out · W_r1 + b_r1))
    hh   = relu (mask · ((a · W_h0 + b_h0) + ((r ⊙ out) · W_h1 + b_h1)))
    out' = hh ⊙ z + out ⊙ (1 - z)

  applied twice, with σ t = 1 / (1 + e^{-t}). Everything is a finite sum of products of reals, a maximum,
  or σ of a real, so every entry is a real number: that is what lets the two programs' different
  arrangements of the last line (`out + z ⊙ (hh - out)` against `hh ⊙ z + out ⊙ (1 - z)`) agree.
-/
import Mathlib

noncomputable section

namespace Cert.GruSpec

/-- The logistic function on the reals, in the form `(1 + e^{-t})⁻¹`. -/
def sig (t : ℝ) : ℝ := (1 + Real.exp (-t))⁻¹

/-- Arrays of the batch: `[32, 512, n]`. -/
abbrev Arr3 (n : Nat) := Fin 32 → Fin 512 → Fin n → ℝ

/-- The weights, the mask and the support: everything a step reads besides the carried state. -/
structure Params where
  sup : Arr3 512
  mask : Fin 32 → Fin 512 → ℝ
  Wz0 : Fin 128 → Fin 128 → ℝ
  bz0 : Fin 128 → ℝ
  Wz1 : Fin 128 → Fin 128 → ℝ
  bz1 : Fin 128 → ℝ
  Wr0 : Fin 128 → Fin 128 → ℝ
  br0 : Fin 128 → ℝ
  Wr1 : Fin 128 → Fin 128 → ℝ
  br1 : Fin 128 → ℝ
  Wh0 : Fin 128 → Fin 128 → ℝ
  bh0 : Fin 128 → ℝ
  Wh1 : Fin 128 → Fin 128 → ℝ
  bh1 : Fin 128 → ℝ

/-- A dense layer on the feature axis: `(u · W + b)[g, i, k] = Σ_j u[g, i, j] · W[j, k] + b[k]`. -/
def lin (u : Arr3 128) (W : Fin 128 → Fin 128 → ℝ) (b : Fin 128 → ℝ) : Arr3 128 :=
  fun g i k => (∑ j, u g i j * W j k) + b k

/-- The encoder: `mask · relu (x · W_enc + b_enc)`. -/
def enc (x : Arr3 128) (mask : Fin 32 → Fin 512 → ℝ) (Wenc : Fin 128 → Fin 128 → ℝ) (benc : Fin 128 → ℝ) : Arr3 128 :=
  fun g i k => mask g i * max (lin x Wenc benc g i k) 0

/-- Aggregation over the graph: `(support · out)[g, i, k] = Σ_l support[g, i, l] · out[g, l, k]`. -/
def agg (sup : Arr3 512) (out : Arr3 128) : Arr3 128 :=
  fun g i k => ∑ l, sup g i l * out g l k

/-- The update gate. -/
def zgate (P : Params) (out : Arr3 128) : Arr3 128 :=
  fun g i k => sig (lin (agg P.sup out) P.Wz0 P.bz0 g i k + lin out P.Wz1 P.bz1 g i k)

/-- The reset gate. -/
def rgate (P : Params) (out : Arr3 128) : Arr3 128 :=
  fun g i k => sig (lin (agg P.sup out) P.Wr0 P.br0 g i k + lin out P.Wr1 P.br1 g i k)

/-- The candidate state. -/
def cand (P : Params) (out : Arr3 128) : Arr3 128 :=
  fun g i k => max (P.mask g i * (lin (agg P.sup out) P.Wh0 P.bh0 g i k
    + lin (fun g i j => rgate P out g i j * out g i j) P.Wh1 P.bh1 g i k)) 0

/-- One gated step, in the arrangement `hh ⊙ z + out ⊙ (1 - z)`. -/
def step (P : Params) (out : Arr3 128) : Arr3 128 :=
  fun g i k => cand P out g i k * zgate P out g i k + out g i k * (1 - zgate P out g i k)

/-- The same step in the arrangement `out + z ⊙ (hh - out)`. -/
theorem step_eq (P : Params) (out : Arr3 128) (g : Fin 32) (i : Fin 512) (k : Fin 128) :
    step P out g i k = out g i k + zgate P out g i k * (cand P out g i k - out g i k) := by
  unfold step; ring

/-- The whole layer: the encoder, then two gated steps. -/
def G (x : Arr3 128) (Wenc : Fin 128 → Fin 128 → ℝ) (benc : Fin 128 → ℝ) (P : Params) : Arr3 128 :=
  step P (step P (enc x P.mask Wenc benc))

end Cert.GruSpec

end
-- ==== Proof.KStep.lean ====
/-
  One graph's share of the kernel body, as functions of whole blocks, and what they are at an index.

  The body treats four graphs per grid point, each alone: the encoder `mask · relu (x · W_enc + b_enc)`, then twice a
  gated step in which the three matrices applied to the aggregate `a = support · out` are ONE matrix of 384 columns
  `[W_z0 | W_r0 | W_h0]` and the two applied to `out` ONE matrix of 256 columns `[W_z1 | W_r1]`; the gates take
  column slices of the two products. Here each of these is written once, in the body's own operations, and read
  at an index `(i, k)` under the hypothesis that every operand's entries are real numbers: the result is then
  the real number the block-level formulas `encB`, `stepB` below give. A product of two blocks with zero
  accumulator is the sum over the contracted axis of the products of entries; a slice at column offset `o`
  reads column `o + k`; a one-row or one-column block broadcast reads its one row or column.
-/
import proofs.«106638_g44787918963399_cont_sun_c4_384_9_alg».proof.Proof.Gen.KernelIdeal.Skeleton
import proofs.«106638_g44787918963399_cont_sun_c4_384_9_alg».proof.Proof.LibMatmulNN
import proofs.«106638_g44787918963399_cont_sun_c4_384_9_alg».proof.Proof.LibBroadcast2
import proofs.«106638_g44787918963399_cont_sun_c4_384_9_alg».proof.Proof.LibBatchNormStats
import proofs.«106638_g44787918963399_cont_sun_c4_384_9_alg».proof.Proof.Spec
import Idealize.ShloMosaic.Lib.ValueLayout
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.ValueIdx Cert.GruSpec
open scoped BigOperators

variable {F : FTy → Type} [FloatOps F]

/-! ## The block-level formulas over the reals -/

/-- The encoder on one graph: `mask[i] · max (Σ_j x[i,j] · W[j,k] + b[k], 0)`. -/
def encB (x : Fin 512 → Fin 128 → ℝ) (mk : Fin 512 → ℝ) (W : Fin 128 → Fin 128 → ℝ) (b : Fin 128 → ℝ) :
    Fin 512 → Fin 128 → ℝ :=
  fun i k => mk i * max ((∑ j, x i j * W j k) + b k) 0

/-- The aggregate on one graph: `Σ_l support[i,l] · out[l,k]`. -/
def aggB (sup : Fin 512 → Fin 512 → ℝ) (o : Fin 512 → Fin 128 → ℝ) : Fin 512 → Fin 128 → ℝ :=
  fun i k => ∑ l, sup i l * o l k

/-- A product with an `n`-column matrix plus a row of biases. -/
def linB {n : Nat} (u : Fin 512 → Fin 128 → ℝ) (W : Fin 128 → Fin n → ℝ) (b : Fin n → ℝ) : Fin 512 → Fin n → ℝ :=
  fun i c => (∑ j, u i j * W j c) + b c

/-- Column `k` of the first, second, third 128-column group of a 384-column row, and of the two groups of a 256-column row. -/
abbrev c0 (k : Fin 128) : Fin 384 := ⟨k.val, by omega⟩
abbrev c1 (k : Fin 128) : Fin 384 := ⟨128 + k.val, by omega⟩
abbrev c2 (k : Fin 128) : Fin 384 := ⟨256 + k.val, by omega⟩
abbrev d0 (k : Fin 128) : Fin 256 := ⟨k.val, by omega⟩
abbrev d1 (k : Fin 128) : Fin 256 := ⟨128 + k.val, by omega⟩

/-- One gated step on one graph, with the fused matrices, in the arrangement `out + z · (hh - out)`. -/
def stepB (o : Fin 512 → Fin 128 → ℝ) (sup : Fin 512 → Fin 512 → ℝ) (Wa : Fin 128 → Fin 384 → ℝ) (ba : Fin 384 → ℝ)
    (Wo : Fin 128 → Fin 256 → ℝ) (bo : Fin 256 → ℝ) (Wh1 : Fin 128 → Fin 128 → ℝ) (mk : Fin 512 → ℝ) (bh1 : Fin 128 → ℝ) :
    Fin 512 → Fin 128 → ℝ :=
  fun i k =>
    o i k + GruSpec.sig (linB (aggB sup o) Wa ba i (c0 k) + linB o Wo bo i (d0 k))
      * (max (mk i * ((linB (aggB sup o) Wa ba i (c2 k)
            + ∑ j, (GruSpec.sig (linB (aggB sup o) Wa ba i (c1 j) + linB o Wo bo i (d1 j)) * o i j) * Wh1 j k) + bh1 k)) 0 - o i k)

/-! ## The same in the body's operations -/

/-- The encoder in the body's operations: the block and the mask column already cast to two axes. -/
def encV (x : FVec F S512x128 .f32) (W : Vec F S128x128 .f32) (mk : FVec F S512x1 .f32) (b : Vec F S1x128 .f32) :
    FVec F S512x128 .f32 :=
  mulf (broadcastTo S512x128 mk broadcasts_S512x1_S512x128)
    (maximumf (addf (matmul dot_S512x128_S128x128_S512x128_1_0_0_1_n_n none x W (constant S512x128 .f32 0x00000000#32))
        (broadcastTo S512x128 (shapeCast S1x128 b shapeCasts_S1x128_S1x128) broadcasts_S1x128_S512x128))
      (broadcast S512x128 (Scalar.ofBits .f32 0x00000000#32)))

/-- The aggregate `support · out`. -/
def aggV (sup : FVec F S512x512 .f32) (o : FVec F S512x128 .f32) : FVec F S512x128 .f32 :=
  matmul dot_S512x512_S512x128_S512x128_1_0_0_1_n_n none sup o (constant S512x128 .f32 0x00000000#32)

/-- The aggregate times the fused 384-column matrix. -/
def gaV (a : FVec F S512x128 .f32) (Wa : Vec F S128x384 .f32) : FVec F S512x384 .f32 :=
  matmul dot_S512x128_S128x384_S512x384_1_0_0_1_n_n none a (shapeCast S128x384 Wa shapeCasts_S128x384_S128x384)
    (constant S512x384 .f32 0x00000000#32)

/-- The rest of a step, from the state `o` and the product `ga` of its aggregate with the fused matrix. -/
def gateV (o : FVec F S512x128 .f32) (ga : FVec F S512x384 .f32) (ba : Vec F S1x384 .f32)
    (Wo : Vec F S128x256 .f32) (bo : Vec F S1x256 .f32) (Wh1 : Vec F S128x128 .f32)
    (mk : FVec F S512x1 .f32) (bh1 : Vec F S1x128 .f32) : FVec F S512x128 .f32 :=
  have v65 : FVec F S512x384 .f32 := addf ga (broadcastTo S512x384 (shapeCast S1x384 ba shapeCasts_S1x384_S1x384) broadcasts_S1x384_S512x384)
  have v72 : FVec F S512x256 .f32 := addf (matmul dot_S512x128_S128x256_S512x256_1_0_0_1_n_n none o (shapeCast S128x256 Wo shapeCasts_S128x256_S128x256) (constant S512x256 .f32 0x00000000#32))
    (broadcastTo S512x256 (shapeCast S1x256 bo shapeCasts_S1x256_S1x256) broadcasts_S1x256_S512x256)
  have v76 : FVec F S512x128 .f32 := logistic (addf (extractStridedSlice S512x128 ![0, 0] v65 slices_S512x384_o0_0_S512x128) (extractStridedSlice S512x128 ![0, 0] v72 slices_S512x256_o0_0_S512x128))
  have v80 : FVec F S512x128 .f32 := logistic (addf (extractStridedSlice S512x128 ![0, 128] v65 slices_S512x384_o0_128_S512x128) (extractStridedSlice S512x128 ![0, 128] v72 slices_S512x256_o0_128_S512x128))
  have v83 : FVec F S512x128 .f32 := matmul dot_S512x128_S128x128_S512x128_1_0_0_1_n_n none (mulf v80 o) Wh1 (constant S512x128 .f32 0x00000000#32)
  have v91 : FVec F S512x128 .f32 := addf (addf (extractStridedSlice S512x128 ![0, 256] v65 slices_S512x384_o0_256_S512x128) v83)
    (broadcastTo S512x128 (shapeCast S1x128 bh1 shapeCasts_S1x128_S1x128) broadcasts_S1x128_S512x128)
  have v95 : FVec F S512x128 .f32 := maximumf (mulf (broadcastTo S512x128 mk broadcasts_S512x1_S512x128) v91) (broadcast S512x128 (Scalar.ofBits .f32 0x00000000#32))
  addf o (mulf v76 (subf v95 o))

/-- One step. -/
def stepV (o : FVec F S512x128 .f32) (sup : FVec F S512x512 .f32) (Wa : Vec F S128x384 .f32) (ba : Vec F S1x384 .f32)
    (Wo : Vec F S128x256 .f32) (bo : Vec F S1x256 .f32) (Wh1 : Vec F S128x128 .f32)
    (mk : FVec F S512x1 .f32) (bh1 : Vec F S1x128 .f32) : FVec F S512x128 .f32 :=
  gateV o (gaV (aggV sup o) Wa) ba Wo bo Wh1 mk bh1

/-! ## Read at an index -/

/-- The zero word is the real zero. -/
theorem zero_word : Ideal.ofBits .f32 0x00000000#32 = ((0 : ℝ) : EReal) := by
  rw [Ideal.ofBits_zero_f32]; rfl

/-- The logistic operation is entrywise. -/
theorem logistic_at {s : Shape} (x : FVec Ideal s .f32) (i : s.Idx) : logistic x i = Ideal.logistic (x i) := rfl

/-- A product of blocks whose entries are reals, with zero accumulator, at `(p, q)`: the real sum of products. -/
theorem mm_apply (M K N : Nat) (x : FVec Ideal ⟨2, ![M, K]⟩ .f32) (w : FVec Ideal ⟨2, ![K, N]⟩ .f32)
    (xr : Fin M → Fin K → ℝ) (wr : Fin K → Fin N → ℝ)
    (hx : ∀ p k, x (ix2 p k) = (xr p k : EReal)) (hw : ∀ k q, w (ix2 k q) = (wr k q : EReal)) (p : Fin M) (q : Fin N) :
    FloatOps.matmul (DotDims.plain M K N) none x w (constant (F := Ideal) ⟨2, ![M, N]⟩ .f32 0x00000000#32) (ix2 p q)
      = ((∑ k, xr p k * wr k q : ℝ) : EReal) := by
  rw [LibMatmulNN.matmul_zero_apply, Cert.BatchNormStats.coe_finset_sum]
  refine Finset.sum_congr rfl fun k _ => ?_
  rw [hx, hw, EReal.coe_mul]

/-- The four products the body makes, each by its printed record. -/
theorem mm_enc (x : FVec Ideal S512x128 .f32) (w : FVec Ideal S128x128 .f32) (xr : Fin 512 → Fin 128 → ℝ) (wr : Fin 128 → Fin 128 → ℝ)
    (hx : ∀ p k, x (ix2 p k) = (xr p k : EReal)) (hw : ∀ k q, w (ix2 k q) = (wr k q : EReal)) (p : Fin 512) (q : Fin 128) :
    matmul (F := Ideal) (φ₁ := .f32) (φ₂ := .f32) dot_S512x128_S128x128_S512x128_1_0_0_1_n_n none x w (constant S512x128 .f32 0x00000000#32) (ix2 p q)
      = ((∑ k, xr p k * wr k q : ℝ) : EReal) := mm_apply 512 128 128 x w xr wr hx hw p q
theorem mm_agg (x : FVec Ideal S512x512 .f32) (w : FVec Ideal S512x128 .f32) (xr : Fin 512 → Fin 512 → ℝ) (wr : Fin 512 → Fin 128 → ℝ)
    (hx : ∀ p k, x (ix2 p k) = (xr p k : EReal)) (hw : ∀ k q, w (ix2 k q) = (wr k q : EReal)) (p : Fin 512) (q : Fin 128) :
    matmul (F := Ideal) (φ₁ := .f32) (φ₂ := .f32) dot_S512x512_S512x128_S512x128_1_0_0_1_n_n none x w (constant S512x128 .f32 0x00000000#32) (ix2 p q)
      = ((∑ k, xr p k * wr k q : ℝ) : EReal) := mm_apply 512 512 128 x w xr wr hx hw p q
theorem mm_a (x : FVec Ideal S512x128 .f32) (w : FVec Ideal S128x384 .f32) (xr : Fin 512 → Fin 128 → ℝ) (wr : Fin 128 → Fin 384 → ℝ)
    (hx : ∀ p k, x (ix2 p k) = (xr p k : EReal)) (hw : ∀ k q, w (ix2 k q) = (wr k q : EReal)) (p : Fin 512) (q : Fin 384) :
    matmul (F := Ideal) (φ₁ := .f32) (φ₂ := .f32) dot_S512x128_S128x384_S512x384_1_0_0_1_n_n none x w (constant S512x384 .f32 0x00000000#32) (ix2 p q)
      = ((∑ k, xr p k * wr k q : ℝ) : EReal) := mm_apply 512 128 384 x w xr wr hx hw p q
theorem mm_o (x : FVec Ideal S512x128 .f32) (w : FVec Ideal S128x256 .f32) (xr : Fin 512 → Fin 128 → ℝ) (wr : Fin 128 → Fin 256 → ℝ)
    (hx : ∀ p k, x (ix2 p k) = (xr p k : EReal)) (hw : ∀ k q, w (ix2 k q) = (wr k q : EReal)) (p : Fin 512) (q : Fin 256) :
    matmul (F := Ideal) (φ₁ := .f32) (φ₂ := .f32) dot_S512x128_S128x256_S512x256_1_0_0_1_n_n none x w (constant S512x256 .f32 0x00000000#32) (ix2 p q)
      = ((∑ k, xr p k * wr k q : ℝ) : EReal) := mm_apply 512 128 256 x w xr wr hx hw p q

/-- A slice at column offset `o` of an `n`-column block, read at `(i, k)`: column `o + k`. -/
theorem slice_apply {n : Nat} (o : Nat) (v : (⟨2, ![512, n]⟩ : Shape).Idx → EReal)
    (h : (⟨2, ![512, n]⟩ : Shape).Slices ![0, o] ⟨2, ![512, 128]⟩) (i : Fin 512) (k : Fin 128) (hk : o + k.val < n) :
    extractStridedSlice ⟨2, ![512, 128]⟩ ![0, o] v h (ix2 i k) = v (ix2 i ⟨o + k.val, hk⟩) := by
  refine extractStridedSlice_apply _ v h (ix2 i k) (ix2 i ⟨o + k.val, hk⟩) fun a => ?_
  match a with
  | ⟨0, _⟩ => show i.val = 0 + i.val; omega
  | ⟨1, _⟩ => rfl

/-- The encoder at `(i, k)` on real entries. -/
theorem encV_apply (x : FVec Ideal S512x128 .f32) (W : FVec Ideal S128x128 .f32) (mk : FVec Ideal S512x1 .f32) (b : FVec Ideal S1x128 .f32)
    (xr : Fin 512 → Fin 128 → ℝ) (Wr : Fin 128 → Fin 128 → ℝ) (mr : Fin 512 → ℝ) (br : Fin 128 → ℝ)
    (hx : ∀ i j, x (ix2 i j) = (xr i j : EReal)) (hW : ∀ j k, W (ix2 j k) = (Wr j k : EReal))
    (hm : ∀ i, mk (ix2 i (0 : Fin 1)) = (mr i : EReal)) (hb : ∀ k, b (ix2 (0 : Fin 1) k) = (br k : EReal)) (i : Fin 512) (k : Fin 128) :
    encV (F := Ideal) x W mk b (ix2 i k) = ((encB xr mr Wr br i k : ℝ) : EReal) := by
  unfold encV encB
  rw [mulf_apply, maximumf_apply, addf_apply, broadcast_apply, LibBroadcast2.broadcastTo_a1_ab_apply,
    broadcastTo_1b_ab_apply, shapeCast_self, hm, hb, mm_enc x W xr Wr hx hW i k]
  show (mr i : EReal) * max (((∑ j, xr i j * Wr j k : ℝ) : EReal) + (br k : EReal)) (Ideal.ofBits .f32 0x00000000#32) = _
  rw [zero_word, ← EReal.coe_add, Cert.BatchNormStats.max_coe, ← EReal.coe_mul]

/-- The aggregate at `(i, k)` on real entries. -/
theorem aggV_apply (sup : FVec Ideal S512x512 .f32) (o : FVec Ideal S512x128 .f32)
    (sr : Fin 512 → Fin 512 → ℝ) (or_ : Fin 512 → Fin 128 → ℝ)
    (hs : ∀ i l, sup (ix2 i l) = (sr i l : EReal)) (ho : ∀ l k, o (ix2 l k) = (or_ l k : EReal)) (i : Fin 512) (k : Fin 128) :
    aggV (F := Ideal) sup o (ix2 i k) = ((aggB sr or_ i k : ℝ) : EReal) :=
  mm_agg sup o sr or_ hs ho i k

/-- The aggregate times the fused matrix at `(i, c)` on real entries. -/
theorem gaV_apply (a : FVec Ideal S512x128 .f32) (Wa : FVec Ideal S128x384 .f32)
    (ar : Fin 512 → Fin 128 → ℝ) (War : Fin 128 → Fin 384 → ℝ)
    (ha : ∀ i j, a (ix2 i j) = (ar i j : EReal)) (hW : ∀ j c, Wa (ix2 j c) = (War j c : EReal)) (i : Fin 512) (c : Fin 384) :
    gaV (F := Ideal) a Wa (ix2 i c) = ((∑ j, ar i j * War j c : ℝ) : EReal) := by
  unfold gaV; rw [shapeCast_self]
  exact mm_a a Wa ar War ha hW i c

/-- The rest of a step at `(i, k)` on real entries: with `gar` the product of the aggregate with the fused matrix,
    the block-level step's formula. -/
theorem gateV_apply (o : FVec Ideal S512x128 .f32) (ga : FVec Ideal S512x384 .f32) (ba : FVec Ideal S1x384 .f32)
    (Wo : FVec Ideal S128x256 .f32) (bo : FVec Ideal S1x256 .f32) (Wh1 : FVec Ideal S128x128 .f32)
    (mk : FVec Ideal S512x1 .f32) (bh1 : FVec Ideal S1x128 .f32)
    (or_ : Fin 512 → Fin 128 → ℝ) (gar : Fin 512 → Fin 384 → ℝ) (bar : Fin 384 → ℝ) (Wor : Fin 128 → Fin 256 → ℝ) (bor : Fin 256 → ℝ)
    (Whr : Fin 128 → Fin 128 → ℝ) (mr : Fin 512 → ℝ) (bhr : Fin 128 → ℝ)
    (ho : ∀ i k, o (ix2 i k) = (or_ i k : EReal)) (hga : ∀ i c, ga (ix2 i c) = (gar i c : EReal))
    (hba : ∀ c, ba (ix2 (0 : Fin 1) c) = (bar c : EReal)) (hWo : ∀ j c, Wo (ix2 j c) = (Wor j c : EReal))
    (hbo : ∀ c, bo (ix2 (0 : Fin 1) c) = (bor c : EReal)) (hWh : ∀ j k, Wh1 (ix2 j k) = (Whr j k : EReal))
    (hm : ∀ i, mk (ix2 i (0 : Fin 1)) = (mr i : EReal)) (hbh : ∀ k, bh1 (ix2 (0 : Fin 1) k) = (bhr k : EReal))
    (i : Fin 512) (k : Fin 128) :
    gateV (F := Ideal) o ga ba Wo bo Wh1 mk bh1 (ix2 i k)
      = ((or_ i k + GruSpec.sig ((gar i (c0 k) + bar (c0 k)) + linB or_ Wor bor i (d0 k))
          * (max (mr i * (((gar i (c2 k) + bar (c2 k))
              + ∑ j, (GruSpec.sig ((gar i (c1 j) + bar (c1 j)) + linB or_ Wor bor i (d1 j)) * or_ i j) * Whr j k) + bhr k)) 0 - or_ i k) : ℝ) : EReal) := by
  unfold gateV
  simp only [shapeCast_self]
  -- the two biased products, at any column
  have e65 : ∀ (i : Fin 512) (c : Fin 384), addf (F := Ideal) ga (broadcastTo S512x384 ba broadcasts_S1x384_S512x384) (ix2 i c)
      = ((gar i c + bar c : ℝ) : EReal) := fun i c => by
    rw [addf_apply, broadcastTo_1b_ab_apply, hga, hba, EReal.coe_add]
  have e72 : ∀ (i : Fin 512) (c : Fin 256), addf (F := Ideal) (matmul (φ₁ := .f32) (φ₂ := .f32) dot_S512x128_S128x256_S512x256_1_0_0_1_n_n none o Wo (constant S512x256 .f32 0x00000000#32))
      (broadcastTo S512x256 bo broadcasts_S1x256_S512x256) (ix2 i c)
      = ((linB or_ Wor bor i c : ℝ) : EReal) := fun i c => by
    rw [addf_apply, broadcastTo_1b_ab_apply, hbo, mm_o o Wo or_ Wor ho hWo i c]
    unfold linB; rw [EReal.coe_add]
  -- the reset gate times the state, at any entry
  have e81 : ∀ (i : Fin 512) (j : Fin 128), mulf (F := Ideal) (logistic (addf
      (extractStridedSlice S512x128 ![0, 128] (addf ga (broadcastTo S512x384 ba broadcasts_S1x384_S512x384)) slices_S512x384_o0_128_S512x128)
      (extractStridedSlice S512x128 ![0, 128] (addf (matmul (φ₁ := .f32) (φ₂ := .f32) dot_S512x128_S128x256_S512x256_1_0_0_1_n_n none o Wo (constant S512x256 .f32 0x00000000#32))
        (broadcastTo S512x256 bo broadcasts_S1x256_S512x256)) slices_S512x256_o0_128_S512x128))) o (ix2 i j)
      = ((GruSpec.sig ((gar i (c1 j) + bar (c1 j)) + linB or_ Wor bor i (d1 j)) * or_ i j : ℝ) : EReal) := fun i j => by
    rw [mulf_apply, ho, logistic_at, addf_apply, slice_apply 128 _ _ i j (by omega), slice_apply 128 _ _ i j (by omega), e65, e72,
      ← EReal.coe_add, Ideal.logistic_coe, ← EReal.coe_mul]
    rfl
  rw [addf_apply, mulf_apply, subf_apply, maximumf_apply, mulf_apply, addf_apply, addf_apply, broadcast_apply,
    LibBroadcast2.broadcastTo_a1_ab_apply, broadcastTo_1b_ab_apply, ho, hm, hbh,
    mm_enc _ Wh1 _ Whr e81 hWh i k, logistic_at, addf_apply,
    slice_apply 0 _ _ i k (by omega), slice_apply 0 _ _ i k (by omega), slice_apply 256 _ _ i k (by omega),
    e65, e65, e72, ← EReal.coe_add, Ideal.logistic_coe]
  show _ + _ * (max (_ * (_ + _ + _)) (Ideal.ofBits .f32 0x00000000#32) - _) = _
  rw [zero_word, ← EReal.coe_add, ← EReal.coe_add, ← EReal.coe_mul, Cert.BatchNormStats.max_coe, ← EReal.coe_sub, ← EReal.coe_mul,
    ← EReal.coe_add]
  have h0 : ∀ (h : 0 + k.val < 384), (⟨0 + k.val, h⟩ : Fin 384) = c0 k := fun h => Fin.ext (Nat.zero_add _)
  have h0' : ∀ (h : 0 + k.val < 256), (⟨0 + k.val, h⟩ : Fin 256) = d0 k := fun h => Fin.ext (Nat.zero_add _)
  rw [h0, h0']
  rfl

/-- One step at `(i, k)` on real entries: the block-level step. -/
theorem stepV_apply (o : FVec Ideal S512x128 .f32) (sup : FVec Ideal S512x512 .f32) (Wa : FVec Ideal S128x384 .f32) (ba : FVec Ideal S1x384 .f32)
    (Wo : FVec Ideal S128x256 .f32) (bo : FVec Ideal S1x256 .f32) (Wh1 : FVec Ideal S128x128 .f32)
    (mk : FVec Ideal S512x1 .f32) (bh1 : FVec Ideal S1x128 .f32)
    (or_ : Fin 512 → Fin 128 → ℝ) (sr : Fin 512 → Fin 512 → ℝ) (War : Fin 128 → Fin 384 → ℝ) (bar : Fin 384 → ℝ)
    (Wor : Fin 128 → Fin 256 → ℝ) (bor : Fin 256 → ℝ) (Whr : Fin 128 → Fin 128 → ℝ) (mr : Fin 512 → ℝ) (bhr : Fin 128 → ℝ)
    (ho : ∀ i k, o (ix2 i k) = (or_ i k : EReal)) (hs : ∀ i l, sup (ix2 i l) = (sr i l : EReal))
    (hWa : ∀ j c, Wa (ix2 j c) = (War j c : EReal)) (hba : ∀ c, ba (ix2 (0 : Fin 1) c) = (bar c : EReal))
    (hWo : ∀ j c, Wo (ix2 j c) = (Wor j c : EReal)) (hbo : ∀ c, bo (ix2 (0 : Fin 1) c) = (bor c : EReal))
    (hWh : ∀ j k, Wh1 (ix2 j k) = (Whr j k : EReal)) (hm : ∀ i, mk (ix2 i (0 : Fin 1)) = (mr i : EReal))
    (hbh : ∀ k, bh1 (ix2 (0 : Fin 1) k) = (bhr k : EReal)) (i : Fin 512) (k : Fin 128) :
    stepV (F := Ideal) o sup Wa ba Wo bo Wh1 mk bh1 (ix2 i k) = ((stepB or_ sr War bar Wor bor Whr mr bhr i k : ℝ) : EReal) := by
  unfold stepV
  rw [gateV_apply o _ ba Wo bo Wh1 mk bh1 or_ (fun i c => ∑ j, aggB sr or_ i j * War j c) bar Wor bor Whr mr bhr ho
    (fun i c => gaV_apply _ Wa (aggB sr or_) War (fun i j => aggV_apply sup o sr or_ hs ho i j) hWa i c) hba hWo hbo hWh hm hbh i k]
  rfl

end Cert.KernelIdeal.KVal

end
-- ==== Proof.KBlock.lean ====
/-
  The four stored slabs are the encoder followed by two steps, graph by graph.

  The body interleaves four graphs; along the values of any one graph `g` it is the encoder of the graph's
  feature slab, then two steps, each reading the graph's support slab and mask column and the shared weights; the
  last state is recast with a leading unit axis and stored as slab `g`. The interleaving and the places where the
  printed body names an intermediate value differ from graph to graph, the operations applied do not: each
  identity below holds by unfolding both sides to the same operations.
-/
import proofs.«106638_g44787918963399_cont_sun_c4_384_9_alg».proof.Proof.FrameIdeal
import proofs.«106638_g44787918963399_cont_sun_c4_384_9_alg».proof.Proof.KStep

set_option maxRecDepth 16384

noncomputable section

namespace Cert.KernelIdeal.KVal

open Cert.KernelIdeal Cert.KernelIdeal.Gen Cert.KernelIdeal.HandFrame Idealize.ShloMosaic

variable {F : FTy → Type} [FloatOps F]

/-- Graph 0's feature slab, support slab and mask column, each with its leading unit axis dropped. -/
abbrev xB0 (x0 : Vec F S4x512x128 .f32) : FVec F S512x128 .f32 := shapeCast S512x128 (View.ld x0 featRow0) shapeCasts_S1x512x128_S512x128
abbrev sB0 (x1 : Vec F S4x512x512 .f32) : FVec F S512x512 .f32 := shapeCast S512x512 (View.ld x1 suppRow0) shapeCasts_S1x512x512_S512x512
abbrev mB0 (x2 : Vec F S4x512x1 .f32) : FVec F S512x1 .f32 := shapeCast S512x1 (View.ld x2 maskRow0) shapeCasts_S1x512x1_S512x1

theorem enc0_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    enc0 x0 x1 x2 x3 x4 x5 x6 x7 x8 x9 x10 = encV (xB0 x0) (View.ld x3 all128x128) (mB0 x2) (View.ld x4 all1x128) := rfl

theorem hid0_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    hid0 x0 x1 x2 x3 x4 x5 x6 x7 x8 x9 x10 = stepV (enc0 x0 x1 x2 x3 x4 x5 x6 x7 x8 x9 x10) (sB0 x1) (View.ld x5 all128x384) (View.ld x6 all1x384) (View.ld x7 all128x256)
      (View.ld x8 all1x256) (View.ld x9 all128x128) (mB0 x2) (View.ld x10 all1x128) := rfl

theorem mid0_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    mid0 x0 x1 x2 x3 x4 x5 x6 x7 x8 x9 x10 = stepV (hid0 x0 x1 x2 x3 x4 x5 x6 x7 x8 x9 x10) (sB0 x1) (View.ld x5 all128x384) (View.ld x6 all1x384) (View.ld x7 all128x256)
      (View.ld x8 all1x256) (View.ld x9 all128x128) (mB0 x2) (View.ld x10 all1x128) := rfl

theorem res0_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    res0 x0 x1 x2 x3 x4 x5 x6 x7 x8 x9 x10 = shapeCast S1x512x128 (mid0 x0 x1 x2 x3 x4 x5 x6 x7 x8 x9 x10) shapeCasts_S512x128_S1x512x128 := rfl

/-- Graph 1's feature slab, support slab and mask column, each with its leading unit axis dropped. -/
abbrev xB1 (x0 : Vec F S4x512x128 .f32) : FVec F S512x128 .f32 := shapeCast S512x128 (View.ld x0 featRow1) shapeCasts_S1x512x128_S512x128
abbrev sB1 (x1 : Vec F S4x512x512 .f32) : FVec F S512x512 .f32 := shapeCast S512x512 (View.ld x1 suppRow1) shapeCasts_S1x512x512_S512x512
abbrev mB1 (x2 : Vec F S4x512x1 .f32) : FVec F S512x1 .f32 := shapeCast S512x1 (View.ld x2 maskRow1) shapeCasts_S1x512x1_S512x1

theorem enc1_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    enc1 x0 x1 x2 x3 x4 x5 x6 x7 x8 x9 x10 = encV (xB1 x0) (View.ld x3 all128x128) (mB1 x2) (View.ld x4 all1x128) := rfl

theorem hid1_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    hid1 x0 x1 x2 x3 x4 x5 x6 x7 x8 x9 x10 = stepV (enc1 x0 x1 x2 x3 x4 x5 x6 x7 x8 x9 x10) (sB1 x1) (View.ld x5 all128x384) (View.ld x6 all1x384) (View.ld x7 all128x256)
      (View.ld x8 all1x256) (View.ld x9 all128x128) (mB1 x2) (View.ld x10 all1x128) := rfl

theorem mid1_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    mid1 x0 x1 x2 x3 x4 x5 x6 x7 x8 x9 x10 = stepV (hid1 x0 x1 x2 x3 x4 x5 x6 x7 x8 x9 x10) (sB1 x1) (View.ld x5 all128x384) (View.ld x6 all1x384) (View.ld x7 all128x256)
      (View.ld x8 all1x256) (View.ld x9 all128x128) (mB1 x2) (View.ld x10 all1x128) := rfl

theorem res1_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    res1 x0 x1 x2 x3 x4 x5 x6 x7 x8 x9 x10 = shapeCast S1x512x128 (mid1 x0 x1 x2 x3 x4 x5 x6 x7 x8 x9 x10) shapeCasts_S512x128_S1x512x128 := rfl

/-- Graph 2's feature slab, support slab and mask column, each with its leading unit axis dropped. -/
abbrev xB2 (x0 : Vec F S4x512x128 .f32) : FVec F S512x128 .f32 := shapeCast S512x128 (View.ld x0 featRow2) shapeCasts_S1x512x128_S512x128
abbrev sB2 (x1 : Vec F S4x512x512 .f32) : FVec F S512x512 .f32 := shapeCast S512x512 (View.ld x1 suppRow2) shapeCasts_S1x512x512_S512x512
abbrev mB2 (x2 : Vec F S4x512x1 .f32) : FVec F S512x1 .f32 := shapeCast S512x1 (View.ld x2 maskRow2) shapeCasts_S1x512x1_S512x1

theorem enc2_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    enc2 x0 x1 x2 x3 x4 x5 x6 x7 x8 x9 x10 = encV (xB2 x0) (View.ld x3 all128x128) (mB2 x2) (View.ld x4 all1x128) := rfl

theorem hid2_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    hid2 x0 x1 x2 x3 x4 x5 x6 x7 x8 x9 x10 = stepV (enc2 x0 x1 x2 x3 x4 x5 x6 x7 x8 x9 x10) (sB2 x1) (View.ld x5 all128x384) (View.ld x6 all1x384) (View.ld x7 all128x256)
      (View.ld x8 all1x256) (View.ld x9 all128x128) (mB2 x2) (View.ld x10 all1x128) := rfl

theorem mid2_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    mid2 x0 x1 x2 x3 x4 x5 x6 x7 x8 x9 x10 = stepV (hid2 x0 x1 x2 x3 x4 x5 x6 x7 x8 x9 x10) (sB2 x1) (View.ld x5 all128x384) (View.ld x6 all1x384) (View.ld x7 all128x256)
      (View.ld x8 all1x256) (View.ld x9 all128x128) (mB2 x2) (View.ld x10 all1x128) := rfl

theorem res2_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    res2 x0 x1 x2 x3 x4 x5 x6 x7 x8 x9 x10 = shapeCast S1x512x128 (mid2 x0 x1 x2 x3 x4 x5 x6 x7 x8 x9 x10) shapeCasts_S512x128_S1x512x128 := rfl

/-- Graph 3's feature slab, support slab and mask column, each with its leading unit axis dropped. -/
abbrev xB3 (x0 : Vec F S4x512x128 .f32) : FVec F S512x128 .f32 := shapeCast S512x128 (View.ld x0 featRow3) shapeCasts_S1x512x128_S512x128
abbrev sB3 (x1 : Vec F S4x512x512 .f32) : FVec F S512x512 .f32 := shapeCast S512x512 (View.ld x1 suppRow3) shapeCasts_S1x512x512_S512x512
abbrev mB3 (x2 : Vec F S4x512x1 .f32) : FVec F S512x1 .f32 := shapeCast S512x1 (View.ld x2 maskRow3) shapeCasts_S1x512x1_S512x1

theorem enc3_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    enc3 x0 x1 x2 x3 x4 x5 x6 x7 x8 x9 x10 = encV (xB3 x0) (View.ld x3 all128x128) (mB3 x2) (View.ld x4 all1x128) := rfl

theorem hid3_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    hid3 x0 x1 x2 x3 x4 x5 x6 x7 x8 x9 x10 = stepV (enc3 x0 x1 x2 x3 x4 x5 x6 x7 x8 x9 x10) (sB3 x1) (View.ld x5 all128x384) (View.ld x6 all1x384) (View.ld x7 all128x256)
      (View.ld x8 all1x256) (View.ld x9 all128x128) (mB3 x2) (View.ld x10 all1x128) := rfl

theorem res3_eq (x0 : Vec F S4x512x128 .f32) (x1 : Vec F S4x512x512 .f32) (x2 : Vec F S4x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) :
    res3 x0 x1 x2 x3 x4 x5 x6 x7 x8 x9 x10 = shapeCast S1x512x128 (stepV (hid3 x0 x1 x2 x3 x4 x5 x6 x7 x8 x9 x10) (sB3 x1) (View.ld x5 all128x384) (View.ld x6 all1x384) (View.ld x7 all128x256)
      (View.ld x8 all1x256) (View.ld x9 all128x128) (mB3 x2) (View.ld x10 all1x128)) shapeCasts_S512x128_S1x512x128 := rfl

end Cert.KernelIdeal.KVal

end
-- ==== Proof.KRes.lean ====
/-
  A stored slab at an index, when every operand's entries are real numbers.

  Slab `g` of the output block at `(i, k)` is the encoder followed by two fused steps, evaluated on graph `g`'s
  rows of the three batched blocks: its feature rows `X0[g, ·, ·]`, its support rows `X1[g, ·, ·]` and its mask
  column `X2[g, ·, 0]`, and on the shared weights. The statement is over blocks given as functions of their literal
  index sets, with the real entries named coordinate by coordinate.
-/
import proofs.«106638_g44787918963399_cont_sun_c4_384_9_alg».proof.Proof.KBlock

set_option maxRecDepth 16384

noncomputable section

namespace Cert.KernelIdeal.KVal

open Cert.KernelIdeal Cert.KernelIdeal.Gen Cert.KernelIdeal.HandFrame Idealize.ShloMosaic Idealize.ShloMosaic.ValueIdx

variable {Val : EltTy → Type} {e : EltTy}

/-- The all-zero offsets of rank two. -/
theorem hz2 : (![0, 0] : Fin 2 → Nat) = fun _ => 0 := funext fun a => by fin_cases a <;> rfl

/-- A load of row `g` of a `[4, 512, n]` block, at `(u, i, j)`: the block at `(g, i, j)`. -/
theorem ld_slab {n : Nat} (g : Nat) (hg : g < 4) (X : (⟨3, ![4, 512, n]⟩ : Shape).Idx → Val e)
    (inb : ∀ a, (![g, 0, 0] : Fin 3 → Nat) a + (⟨3, ![1, 512, n]⟩ : Shape).size a ≤ (⟨3, ![4, 512, n]⟩ : Shape).size a)
    (u : Fin 1) (i : Fin 512) (j : Fin n) :
    View.ld X (Rect.unit (s := ⟨3, ![4, 512, n]⟩) ![g, 0, 0] (⟨3, ![1, 512, n]⟩ : Shape).size inb) (ix3 u i j) = X (ix3 ⟨g, hg⟩ i j) := by
  show X _ = X _
  congr 1
  funext a
  apply Fin.ext
  match a with
  | ⟨0, _⟩ => show g + 1 * u.val = g; omega
  | ⟨1, _⟩ => show 0 + 1 * i.val = i.val; omega
  | ⟨2, _⟩ => show 0 + 1 * j.val = j.val; omega

/-- Slab 0 at `(u, i, k)`. -/
theorem res0_apply (X0 : Vec Ideal S4x512x128 .f32) (X1 : Vec Ideal S4x512x512 .f32) (X2 : Vec Ideal S4x512x1 .f32) (X3 : Vec Ideal S128x128 .f32)
    (X4 : Vec Ideal S1x128 .f32) (X5 : Vec Ideal S128x384 .f32) (X6 : Vec Ideal S1x384 .f32) (X7 : Vec Ideal S128x256 .f32) (X8 : Vec Ideal S1x256 .f32)
    (X9 : Vec Ideal S128x128 .f32) (X10 : Vec Ideal S1x128 .f32)
    (xr : Fin 512 → Fin 128 → ℝ) (sr : Fin 512 → Fin 512 → ℝ) (mr : Fin 512 → ℝ) (Wer : Fin 128 → Fin 128 → ℝ) (ber : Fin 128 → ℝ)
    (War : Fin 128 → Fin 384 → ℝ) (bar : Fin 384 → ℝ) (Wor : Fin 128 → Fin 256 → ℝ) (bor : Fin 256 → ℝ) (Whr : Fin 128 → Fin 128 → ℝ) (bhr : Fin 128 → ℝ)
    (h0 : ∀ i j, X0 (ix3 (0 : Fin 4) i j) = (xr i j : EReal)) (h1 : ∀ i l, X1 (ix3 (0 : Fin 4) i l) = (sr i l : EReal))
    (h2 : ∀ i, X2 (ix3 (0 : Fin 4) i (0 : Fin 1)) = (mr i : EReal)) (h3 : ∀ j k, X3 (ix2 j k) = (Wer j k : EReal))
    (h4 : ∀ k, X4 (ix2 (0 : Fin 1) k) = (ber k : EReal)) (h5 : ∀ j c, X5 (ix2 j c) = (War j c : EReal))
    (h6 : ∀ c, X6 (ix2 (0 : Fin 1) c) = (bar c : EReal)) (h7 : ∀ j c, X7 (ix2 j c) = (Wor j c : EReal))
    (h8 : ∀ c, X8 (ix2 (0 : Fin 1) c) = (bor c : EReal)) (h9 : ∀ j k, X9 (ix2 j k) = (Whr j k : EReal))
    (h10 : ∀ k, X10 (ix2 (0 : Fin 1) k) = (bhr k : EReal)) (u : Fin 1) (i : Fin 512) (k : Fin 128) :
    res0 (F := Ideal) X0 X1 X2 X3 X4 X5 X6 X7 X8 X9 X10 (ix3 u i k)
      = ((stepB (stepB (encB xr mr Wer ber) sr War bar Wor bor Whr mr bhr) sr War bar Wor bor Whr mr bhr i k : ℝ) : EReal) := by
  have hx : ∀ i j, xB0 (F := Ideal) X0 (ix2 i j) = (xr i j : EReal) := fun i j => by
    exact (shapeCast_1ab_ab_apply (View.ld X0 featRow0) _ i j).trans ((ld_slab 0 (by omega) X0 _ 0 i j).trans (h0 i j))
  have hs : ∀ i l, sB0 (F := Ideal) X1 (ix2 i l) = (sr i l : EReal) := fun i l => by
    exact (shapeCast_1ab_ab_apply (View.ld X1 suppRow0) _ i l).trans ((ld_slab 0 (by omega) X1 _ 0 i l).trans (h1 i l))
  have hm : ∀ i, mB0 (F := Ideal) X2 (ix2 i (0 : Fin 1)) = (mr i : EReal) := fun i => by
    exact (shapeCast_1ab_ab_apply (View.ld X2 maskRow0) _ i 0).trans ((ld_slab 0 (by omega) X2 _ 0 i 0).trans (h2 i))
  have e3 : View.ld X3 all128x128 = X3 := View.ld_unit_zero hz2 _ X3
  have e4 : View.ld X4 all1x128 = X4 := View.ld_unit_zero hz2 _ X4
  have e5 : View.ld X5 all128x384 = X5 := View.ld_unit_zero hz2 _ X5
  have e6 : View.ld X6 all1x384 = X6 := View.ld_unit_zero hz2 _ X6
  have e7 : View.ld X7 all128x256 = X7 := View.ld_unit_zero hz2 _ X7
  have e8 : View.ld X8 all1x256 = X8 := View.ld_unit_zero hz2 _ X8
  have e9 : View.ld X9 all128x128 = X9 := View.ld_unit_zero hz2 _ X9
  have e10 : View.ld X10 all1x128 = X10 := View.ld_unit_zero hz2 _ X10
  have henc : ∀ i k, enc0 (F := Ideal) X0 X1 X2 X3 X4 X5 X6 X7 X8 X9 X10 (ix2 i k) = ((encB xr mr Wer ber i k : ℝ) : EReal) := fun i k => by
    rw [enc0_eq, e3, e4]; exact encV_apply _ X3 _ X4 xr Wer mr ber hx h3 hm h4 i k
  have hhid : ∀ i k, hid0 (F := Ideal) X0 X1 X2 X3 X4 X5 X6 X7 X8 X9 X10 (ix2 i k)
      = ((stepB (encB xr mr Wer ber) sr War bar Wor bor Whr mr bhr i k : ℝ) : EReal) := fun i k => by
    rw [hid0_eq, e5, e6, e7, e8, e9, e10]
    exact stepV_apply _ _ X5 X6 X7 X8 X9 _ X10 (encB xr mr Wer ber) sr War bar Wor bor Whr mr bhr henc hs h5 h6 h7 h8 h9 hm h10 i k
  rw [res0_eq, shapeCast_ab_1ab_apply, mid0_eq]
  rw [e5, e6, e7, e8, e9, e10]
  exact stepV_apply _ _ X5 X6 X7 X8 X9 _ X10 _ sr War bar Wor bor Whr mr bhr hhid hs h5 h6 h7 h8 h9 hm h10 i k

/-- Slab 1 at `(u, i, k)`. -/
theorem res1_apply (X0 : Vec Ideal S4x512x128 .f32) (X1 : Vec Ideal S4x512x512 .f32) (X2 : Vec Ideal S4x512x1 .f32) (X3 : Vec Ideal S128x128 .f32)
    (X4 : Vec Ideal S1x128 .f32) (X5 : Vec Ideal S128x384 .f32) (X6 : Vec Ideal S1x384 .f32) (X7 : Vec Ideal S128x256 .f32) (X8 : Vec Ideal S1x256 .f32)
    (X9 : Vec Ideal S128x128 .f32) (X10 : Vec Ideal S1x128 .f32)
    (xr : Fin 512 → Fin 128 → ℝ) (sr : Fin 512 → Fin 512 → ℝ) (mr : Fin 512 → ℝ) (Wer : Fin 128 → Fin 128 → ℝ) (ber : Fin 128 → ℝ)
    (War : Fin 128 → Fin 384 → ℝ) (bar : Fin 384 → ℝ) (Wor : Fin 128 → Fin 256 → ℝ) (bor : Fin 256 → ℝ) (Whr : Fin 128 → Fin 128 → ℝ) (bhr : Fin 128 → ℝ)
    (h0 : ∀ i j, X0 (ix3 (1 : Fin 4) i j) = (xr i j : EReal)) (h1 : ∀ i l, X1 (ix3 (1 : Fin 4) i l) = (sr i l : EReal))
    (h2 : ∀ i, X2 (ix3 (1 : Fin 4) i (0 : Fin 1)) = (mr i : EReal)) (h3 : ∀ j k, X3 (ix2 j k) = (Wer j k : EReal))
    (h4 : ∀ k, X4 (ix2 (0 : Fin 1) k) = (ber k : EReal)) (h5 : ∀ j c, X5 (ix2 j c) = (War j c : EReal))
    (h6 : ∀ c, X6 (ix2 (0 : Fin 1) c) = (bar c : EReal)) (h7 : ∀ j c, X7 (ix2 j c) = (Wor j c : EReal))
    (h8 : ∀ c, X8 (ix2 (0 : Fin 1) c) = (bor c : EReal)) (h9 : ∀ j k, X9 (ix2 j k) = (Whr j k : EReal))
    (h10 : ∀ k, X10 (ix2 (0 : Fin 1) k) = (bhr k : EReal)) (u : Fin 1) (i : Fin 512) (k : Fin 128) :
    res1 (F := Ideal) X0 X1 X2 X3 X4 X5 X6 X7 X8 X9 X10 (ix3 u i k)
      = ((stepB (stepB (encB xr mr Wer ber) sr War bar Wor bor Whr mr bhr) sr War bar Wor bor Whr mr bhr i k : ℝ) : EReal) := by
  have hx : ∀ i j, xB1 (F := Ideal) X0 (ix2 i j) = (xr i j : EReal) := fun i j => by
    exact (shapeCast_1ab_ab_apply (View.ld X0 featRow1) _ i j).trans ((ld_slab 1 (by omega) X0 _ 0 i j).trans (h0 i j))
  have hs : ∀ i l, sB1 (F := Ideal) X1 (ix2 i l) = (sr i l : EReal) := fun i l => by
    exact (shapeCast_1ab_ab_apply (View.ld X1 suppRow1) _ i l).trans ((ld_slab 1 (by omega) X1 _ 0 i l).trans (h1 i l))
  have hm : ∀ i, mB1 (F := Ideal) X2 (ix2 i (0 : Fin 1)) = (mr i : EReal) := fun i => by
    exact (shapeCast_1ab_ab_apply (View.ld X2 maskRow1) _ i 0).trans ((ld_slab 1 (by omega) X2 _ 0 i 0).trans (h2 i))
  have e3 : View.ld X3 all128x128 = X3 := View.ld_unit_zero hz2 _ X3
  have e4 : View.ld X4 all1x128 = X4 := View.ld_unit_zero hz2 _ X4
  have e5 : View.ld X5 all128x384 = X5 := View.ld_unit_zero hz2 _ X5
  have e6 : View.ld X6 all1x384 = X6 := View.ld_unit_zero hz2 _ X6
  have e7 : View.ld X7 all128x256 = X7 := View.ld_unit_zero hz2 _ X7
  have e8 : View.ld X8 all1x256 = X8 := View.ld_unit_zero hz2 _ X8
  have e9 : View.ld X9 all128x128 = X9 := View.ld_unit_zero hz2 _ X9
  have e10 : View.ld X10 all1x128 = X10 := View.ld_unit_zero hz2 _ X10
  have henc : ∀ i k, enc1 (F := Ideal) X0 X1 X2 X3 X4 X5 X6 X7 X8 X9 X10 (ix2 i k) = ((encB xr mr Wer ber i k : ℝ) : EReal) := fun i k => by
    rw [enc1_eq, e3, e4]; exact encV_apply _ X3 _ X4 xr Wer mr ber hx h3 hm h4 i k
  have hhid : ∀ i k, hid1 (F := Ideal) X0 X1 X2 X3 X4 X5 X6 X7 X8 X9 X10 (ix2 i k)
      = ((stepB (encB xr mr Wer ber) sr War bar Wor bor Whr mr bhr i k : ℝ) : EReal) := fun i k => by
    rw [hid1_eq, e5, e6, e7, e8, e9, e10]
    exact stepV_apply _ _ X5 X6 X7 X8 X9 _ X10 (encB xr mr Wer ber) sr War bar Wor bor Whr mr bhr henc hs h5 h6 h7 h8 h9 hm h10 i k
  rw [res1_eq, shapeCast_ab_1ab_apply, mid1_eq]
  rw [e5, e6, e7, e8, e9, e10]
  exact stepV_apply _ _ X5 X6 X7 X8 X9 _ X10 _ sr War bar Wor bor Whr mr bhr hhid hs h5 h6 h7 h8 h9 hm h10 i k

/-- Slab 2 at `(u, i, k)`. -/
theorem res2_apply (X0 : Vec Ideal S4x512x128 .f32) (X1 : Vec Ideal S4x512x512 .f32) (X2 : Vec Ideal S4x512x1 .f32) (X3 : Vec Ideal S128x128 .f32)
    (X4 : Vec Ideal S1x128 .f32) (X5 : Vec Ideal S128x384 .f32) (X6 : Vec Ideal S1x384 .f32) (X7 : Vec Ideal S128x256 .f32) (X8 : Vec Ideal S1x256 .f32)
    (X9 : Vec Ideal S128x128 .f32) (X10 : Vec Ideal S1x128 .f32)
    (xr : Fin 512 → Fin 128 → ℝ) (sr : Fin 512 → Fin 512 → ℝ) (mr : Fin 512 → ℝ) (Wer : Fin 128 → Fin 128 → ℝ) (ber : Fin 128 → ℝ)
    (War : Fin 128 → Fin 384 → ℝ) (bar : Fin 384 → ℝ) (Wor : Fin 128 → Fin 256 → ℝ) (bor : Fin 256 → ℝ) (Whr : Fin 128 → Fin 128 → ℝ) (bhr : Fin 128 → ℝ)
    (h0 : ∀ i j, X0 (ix3 (2 : Fin 4) i j) = (xr i j : EReal)) (h1 : ∀ i l, X1 (ix3 (2 : Fin 4) i l) = (sr i l : EReal))
    (h2 : ∀ i, X2 (ix3 (2 : Fin 4) i (0 : Fin 1)) = (mr i : EReal)) (h3 : ∀ j k, X3 (ix2 j k) = (Wer j k : EReal))
    (h4 : ∀ k, X4 (ix2 (0 : Fin 1) k) = (ber k : EReal)) (h5 : ∀ j c, X5 (ix2 j c) = (War j c : EReal))
    (h6 : ∀ c, X6 (ix2 (0 : Fin 1) c) = (bar c : EReal)) (h7 : ∀ j c, X7 (ix2 j c) = (Wor j c : EReal))
    (h8 : ∀ c, X8 (ix2 (0 : Fin 1) c) = (bor c : EReal)) (h9 : ∀ j k, X9 (ix2 j k) = (Whr j k : EReal))
    (h10 : ∀ k, X10 (ix2 (0 : Fin 1) k) = (bhr k : EReal)) (u : Fin 1) (i : Fin 512) (k : Fin 128) :
    res2 (F := Ideal) X0 X1 X2 X3 X4 X5 X6 X7 X8 X9 X10 (ix3 u i k)
      = ((stepB (stepB (encB xr mr Wer ber) sr War bar Wor bor Whr mr bhr) sr War bar Wor bor Whr mr bhr i k : ℝ) : EReal) := by
  have hx : ∀ i j, xB2 (F := Ideal) X0 (ix2 i j) = (xr i j : EReal) := fun i j => by
    exact (shapeCast_1ab_ab_apply (View.ld X0 featRow2) _ i j).trans ((ld_slab 2 (by omega) X0 _ 0 i j).trans (h0 i j))
  have hs : ∀ i l, sB2 (F := Ideal) X1 (ix2 i l) = (sr i l : EReal) := fun i l => by
    exact (shapeCast_1ab_ab_apply (View.ld X1 suppRow2) _ i l).trans ((ld_slab 2 (by omega) X1 _ 0 i l).trans (h1 i l))
  have hm : ∀ i, mB2 (F := Ideal) X2 (ix2 i (0 : Fin 1)) = (mr i : EReal) := fun i => by
    exact (shapeCast_1ab_ab_apply (View.ld X2 maskRow2) _ i 0).trans ((ld_slab 2 (by omega) X2 _ 0 i 0).trans (h2 i))
  have e3 : View.ld X3 all128x128 = X3 := View.ld_unit_zero hz2 _ X3
  have e4 : View.ld X4 all1x128 = X4 := View.ld_unit_zero hz2 _ X4
  have e5 : View.ld X5 all128x384 = X5 := View.ld_unit_zero hz2 _ X5
  have e6 : View.ld X6 all1x384 = X6 := View.ld_unit_zero hz2 _ X6
  have e7 : View.ld X7 all128x256 = X7 := View.ld_unit_zero hz2 _ X7
  have e8 : View.ld X8 all1x256 = X8 := View.ld_unit_zero hz2 _ X8
  have e9 : View.ld X9 all128x128 = X9 := View.ld_unit_zero hz2 _ X9
  have e10 : View.ld X10 all1x128 = X10 := View.ld_unit_zero hz2 _ X10
  have henc : ∀ i k, enc2 (F := Ideal) X0 X1 X2 X3 X4 X5 X6 X7 X8 X9 X10 (ix2 i k) = ((encB xr mr Wer ber i k : ℝ) : EReal) := fun i k => by
    rw [enc2_eq, e3, e4]; exact encV_apply _ X3 _ X4 xr Wer mr ber hx h3 hm h4 i k
  have hhid : ∀ i k, hid2 (F := Ideal) X0 X1 X2 X3 X4 X5 X6 X7 X8 X9 X10 (ix2 i k)
      = ((stepB (encB xr mr Wer ber) sr War bar Wor bor Whr mr bhr i k : ℝ) : EReal) := fun i k => by
    rw [hid2_eq, e5, e6, e7, e8, e9, e10]
    exact stepV_apply _ _ X5 X6 X7 X8 X9 _ X10 (encB xr mr Wer ber) sr War bar Wor bor Whr mr bhr henc hs h5 h6 h7 h8 h9 hm h10 i k
  rw [res2_eq, shapeCast_ab_1ab_apply, mid2_eq]
  rw [e5, e6, e7, e8, e9, e10]
  exact stepV_apply _ _ X5 X6 X7 X8 X9 _ X10 _ sr War bar Wor bor Whr mr bhr hhid hs h5 h6 h7 h8 h9 hm h10 i k

/-- Slab 3 at `(u, i, k)`. -/
theorem res3_apply (X0 : Vec Ideal S4x512x128 .f32) (X1 : Vec Ideal S4x512x512 .f32) (X2 : Vec Ideal S4x512x1 .f32) (X3 : Vec Ideal S128x128 .f32)
    (X4 : Vec Ideal S1x128 .f32) (X5 : Vec Ideal S128x384 .f32) (X6 : Vec Ideal S1x384 .f32) (X7 : Vec Ideal S128x256 .f32) (X8 : Vec Ideal S1x256 .f32)
    (X9 : Vec Ideal S128x128 .f32) (X10 : Vec Ideal S1x128 .f32)
    (xr : Fin 512 → Fin 128 → ℝ) (sr : Fin 512 → Fin 512 → ℝ) (mr : Fin 512 → ℝ) (Wer : Fin 128 → Fin 128 → ℝ) (ber : Fin 128 → ℝ)
    (War : Fin 128 → Fin 384 → ℝ) (bar : Fin 384 → ℝ) (Wor : Fin 128 → Fin 256 → ℝ) (bor : Fin 256 → ℝ) (Whr : Fin 128 → Fin 128 → ℝ) (bhr : Fin 128 → ℝ)
    (h0 : ∀ i j, X0 (ix3 (3 : Fin 4) i j) = (xr i j : EReal)) (h1 : ∀ i l, X1 (ix3 (3 : Fin 4) i l) = (sr i l : EReal))
    (h2 : ∀ i, X2 (ix3 (3 : Fin 4) i (0 : Fin 1)) = (mr i : EReal)) (h3 : ∀ j k, X3 (ix2 j k) = (Wer j k : EReal))
    (h4 : ∀ k, X4 (ix2 (0 : Fin 1) k) = (ber k : EReal)) (h5 : ∀ j c, X5 (ix2 j c) = (War j c : EReal))
    (h6 : ∀ c, X6 (ix2 (0 : Fin 1) c) = (bar c : EReal)) (h7 : ∀ j c, X7 (ix2 j c) = (Wor j c : EReal))
    (h8 : ∀ c, X8 (ix2 (0 : Fin 1) c) = (bor c : EReal)) (h9 : ∀ j k, X9 (ix2 j k) = (Whr j k : EReal))
    (h10 : ∀ k, X10 (ix2 (0 : Fin 1) k) = (bhr k : EReal)) (u : Fin 1) (i : Fin 512) (k : Fin 128) :
    res3 (F := Ideal) X0 X1 X2 X3 X4 X5 X6 X7 X8 X9 X10 (ix3 u i k)
      = ((stepB (stepB (encB xr mr Wer ber) sr War bar Wor bor Whr mr bhr) sr War bar Wor bor Whr mr bhr i k : ℝ) : EReal) := by
  have hx : ∀ i j, xB3 (F := Ideal) X0 (ix2 i j) = (xr i j : EReal) := fun i j => by
    exact (shapeCast_1ab_ab_apply (View.ld X0 featRow3) _ i j).trans ((ld_slab 3 (by omega) X0 _ 0 i j).trans (h0 i j))
  have hs : ∀ i l, sB3 (F := Ideal) X1 (ix2 i l) = (sr i l : EReal) := fun i l => by
    exact (shapeCast_1ab_ab_apply (View.ld X1 suppRow3) _ i l).trans ((ld_slab 3 (by omega) X1 _ 0 i l).trans (h1 i l))
  have hm : ∀ i, mB3 (F := Ideal) X2 (ix2 i (0 : Fin 1)) = (mr i : EReal) := fun i => by
    exact (shapeCast_1ab_ab_apply (View.ld X2 maskRow3) _ i 0).trans ((ld_slab 3 (by omega) X2 _ 0 i 0).trans (h2 i))
  have e3 : View.ld X3 all128x128 = X3 := View.ld_unit_zero hz2 _ X3
  have e4 : View.ld X4 all1x128 = X4 := View.ld_unit_zero hz2 _ X4
  have e5 : View.ld X5 all128x384 = X5 := View.ld_unit_zero hz2 _ X5
  have e6 : View.ld X6 all1x384 = X6 := View.ld_unit_zero hz2 _ X6
  have e7 : View.ld X7 all128x256 = X7 := View.ld_unit_zero hz2 _ X7
  have e8 : View.ld X8 all1x256 = X8 := View.ld_unit_zero hz2 _ X8
  have e9 : View.ld X9 all128x128 = X9 := View.ld_unit_zero hz2 _ X9
  have e10 : View.ld X10 all1x128 = X10 := View.ld_unit_zero hz2 _ X10
  have henc : ∀ i k, enc3 (F := Ideal) X0 X1 X2 X3 X4 X5 X6 X7 X8 X9 X10 (ix2 i k) = ((encB xr mr Wer ber i k : ℝ) : EReal) := fun i k => by
    rw [enc3_eq, e3, e4]; exact encV_apply _ X3 _ X4 xr Wer mr ber hx h3 hm h4 i k
  have hhid : ∀ i k, hid3 (F := Ideal) X0 X1 X2 X3 X4 X5 X6 X7 X8 X9 X10 (ix2 i k)
      = ((stepB (encB xr mr Wer ber) sr War bar Wor bor Whr mr bhr i k : ℝ) : EReal) := fun i k => by
    rw [hid3_eq, e5, e6, e7, e8, e9, e10]
    exact stepV_apply _ _ X5 X6 X7 X8 X9 _ X10 (encB xr mr Wer ber) sr War bar Wor bor Whr mr bhr henc hs h5 h6 h7 h8 h9 hm h10 i k
  rw [res3_eq, shapeCast_ab_1ab_apply]
  rw [e5, e6, e7, e8, e9, e10]
  exact stepV_apply _ _ X5 X6 X7 X8 X9 _ X10 _ sr War bar Wor bor Whr mr bhr hhid hs h5 h6 h7 h8 h9 hm h10 i k

end Cert.KernelIdeal.KVal

end
-- ==== Proof.VHost.lean ====
import proofs.«106638_g44787918963399_cont_sun_c4_384_9_alg».proof.Proof.FrameIdeal

/-!
# The arrays the host operations prepare

Six of the region's input windows stage arrays that the host operations build from the argument
arrays: the three support-side gate weights side by side, their three biases end to end as one
row, the two state-side gate weights side by side, their two biases as one row, and the encoder
and candidate biases as rows.  Each is computed here from the launch contents.
-/

noncomputable section

namespace Cert.KernelIdeal.HandFrame

open Cert.KernelIdeal.Gen
open Idealize.ShloMosaic Idealize.ShloMosaic.TcCoe
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)
open Idealize.SL Idealize.SL.Sem

variable {F : FTy → Type} [FloatOps F]

variable (m : (ℓ : Loc nD τ sig) → Buf (Elt F) ℓ)

/-- The support-side gate weights: the update, reset and candidate matrices side by side. -/
theorem V_main_v0 (c : Dev nD) :
    (V m c main_v0 : S128x384.Idx → Elt F .f32) =
      concatenate S128x384 1 [⟨S128x128, (m ((c : Thread nD τ).loc main_arg5) : S128x128.Idx → Elt F .f32)⟩, ⟨S128x128, (m ((c : Thread nD τ).loc main_arg9) : S128x128.Idx → Elt F .f32)⟩, ⟨S128x128, (m ((c : Thread nD τ).loc main_arg13) : S128x128.Idx → Elt F .f32)⟩] concatenates_S128x128_S128x128_S128x128_S128x384_d1 := by
  dsimp only [V, hostOps0]; after_results; all_goals rfl

/-- The support-side gate biases: the three vectors end to end, as one row. -/
theorem V_main_v2 (c : Dev nD) :
    (V m c main_v2 : S1x384.Idx → Elt F .f32) =
      shapeCast S1x384 (concatenate S384 0 [⟨S128, (m ((c : Thread nD τ).loc main_arg6) : S128.Idx → Elt F .f32)⟩, ⟨S128, (m ((c : Thread nD τ).loc main_arg10) : S128.Idx → Elt F .f32)⟩, ⟨S128, (m ((c : Thread nD τ).loc main_arg14) : S128.Idx → Elt F .f32)⟩] concatenates_S128_S128_S128_S384_d0) shapeCasts_S384_S1x384 := by
  dsimp only [V, hostOps0]; after_results; all_goals rfl

/-- The state-side gate weights: the update and reset matrices side by side. -/
theorem V_main_v3 (c : Dev nD) :
    (V m c main_v3 : S128x256.Idx → Elt F .f32) =
      concatenate S128x256 1 [⟨S128x128, (m ((c : Thread nD τ).loc main_arg7) : S128x128.Idx → Elt F .f32)⟩, ⟨S128x128, (m ((c : Thread nD τ).loc main_arg11) : S128x128.Idx → Elt F .f32)⟩] concatenates_S128x128_S128x128_S128x256_d1 := by
  dsimp only [V, hostOps0]; after_results; all_goals rfl

/-- The state-side gate biases: the two vectors end to end, as one row. -/
theorem V_main_v5 (c : Dev nD) :
    (V m c main_v5 : S1x256.Idx → Elt F .f32) =
      shapeCast S1x256 (concatenate S256 0 [⟨S128, (m ((c : Thread nD τ).loc main_arg8) : S128.Idx → Elt F .f32)⟩, ⟨S128, (m ((c : Thread nD τ).loc main_arg12) : S128.Idx → Elt F .f32)⟩] concatenates_S128_S128_S256_d0) shapeCasts_S256_S1x256 := by
  dsimp only [V, hostOps0]; after_results; all_goals rfl

/-- The encoder bias as a row. -/
theorem V_main_v6 (c : Dev nD) :
    (V m c main_v6 : S1x128.Idx → Elt F .f32) = shapeCast S1x128 (m ((c : Thread nD τ).loc main_arg4) : S128.Idx → Elt F .f32) shapeCasts_S128_S1x128 := by
  dsimp only [V, hostOps0]; after_results; all_goals rfl

/-- The candidate bias as a row. -/
theorem V_main_v7 (c : Dev nD) :
    (V m c main_v7 : S1x128.Idx → Elt F .f32) = shapeCast S1x128 (m ((c : Thread nD τ).loc main_arg16) : S128.Idx → Elt F .f32) shapeCasts_S128_S1x128 := by
  dsimp only [V, hostOps0]; after_results; all_goals rfl

/-! Which array each window stages. -/
theorem arr0 : Pipeline.arrRef spec0 0 = main_arg0 := rfl
theorem arr1 : Pipeline.arrRef spec0 1 = main_arg1 := rfl
theorem arr2 : Pipeline.arrRef spec0 2 = main_arg2 := rfl
theorem arr3 : Pipeline.arrRef spec0 3 = main_arg3 := rfl
theorem arr4 : Pipeline.arrRef spec0 4 = main_v6 := rfl
theorem arr5 : Pipeline.arrRef spec0 5 = main_v0 := rfl
theorem arr6 : Pipeline.arrRef spec0 6 = main_v2 := rfl
theorem arr7 : Pipeline.arrRef spec0 7 = main_v3 := rfl
theorem arr8 : Pipeline.arrRef spec0 8 = main_v5 := rfl
theorem arr9 : Pipeline.arrRef spec0 9 = main_arg15 := rfl
theorem arr10 : Pipeline.arrRef spec0 10 = main_v7 := rfl
theorem arr11 : Pipeline.arrRef spec0 11 = main_v8 := rfl

end Cert.KernelIdeal.HandFrame

end
-- ==== Proof.KHost.lean ====
/-
  The fused matrices and bias rows the kernel is handed are concatenations made before the call.

  `[W_z0 | W_r0 | W_h0]` is the concatenation of three 128 × 128 matrices along the columns: at column `k` of
  group `q` (column `128 q + k`) it reads matrix `q` at column `k`. The bias row is the concatenation of three
  vectors of 128 entries recast as one row of 384. The two-piece concatenations of 256 columns are alike.
-/
import proofs.«106638_g44787918963399_cont_sun_c4_384_9_alg».proof.Proof.KStep

noncomputable section

namespace Cert.KernelIdeal.KVal

open Cert.KernelIdeal Idealize.ShloMosaic Idealize.ShloMosaic.ValueIdx

variable {α : Type}

/-- Three matrices side by side, read in each of the three column groups. -/
theorem cat3_cols (x0 x1 x2 : S128x128.Idx → α)
    (h : Shape.Concatenates [S128x128, S128x128, S128x128] S128x384 1)
    (j k : Fin 128) :
    concatenate S128x384 1 [⟨S128x128, x0⟩, ⟨S128x128, x1⟩, ⟨S128x128, x2⟩] h (ix2 j (c0 k)) = x0 (ix2 j k)
    ∧ concatenate S128x384 1 [⟨S128x128, x0⟩, ⟨S128x128, x1⟩, ⟨S128x128, x2⟩] h (ix2 j (c1 k)) = x1 (ix2 j k)
    ∧ concatenate S128x384 1 [⟨S128x128, x0⟩, ⟨S128x128, x1⟩, ⟨S128x128, x2⟩] h (ix2 j (c2 k)) = x2 (ix2 j k) := by
  refine ⟨?_, ?_, ?_⟩
  · refine concatenate_apply_piece 1 [⟨S128x128, x0⟩, ⟨S128x128, x1⟩, ⟨S128x128, x2⟩] h (ix2 j (c0 k)) 0 (by simp) S128x128 x0 rfl rfl 0 rfl (ix2 j k) (fun b hb => ?_) ?_
    · match b with
      | ⟨0, _⟩ => rfl
      | ⟨1, _⟩ => exact absurd rfl hb
    · show 0 + k.val = k.val; omega
  · refine concatenate_apply_piece 1 [⟨S128x128, x0⟩, ⟨S128x128, x1⟩, ⟨S128x128, x2⟩] h (ix2 j (c1 k)) 1 (by simp) S128x128 x1 rfl rfl 128 rfl (ix2 j k) (fun b hb => ?_) ?_
    · match b with
      | ⟨0, _⟩ => rfl
      | ⟨1, _⟩ => exact absurd rfl hb
    · rfl
  · refine concatenate_apply_piece 1 [⟨S128x128, x0⟩, ⟨S128x128, x1⟩, ⟨S128x128, x2⟩] h (ix2 j (c2 k)) 2 (by simp) S128x128 x2 rfl rfl 256 rfl (ix2 j k) (fun b hb => ?_) ?_
    · match b with
      | ⟨0, _⟩ => rfl
      | ⟨1, _⟩ => exact absurd rfl hb
    · rfl

/-- Two matrices side by side, read in each of the two column groups. -/
theorem cat2_cols (x0 x1 : S128x128.Idx → α)
    (h : Shape.Concatenates [S128x128, S128x128] S128x256 1)
    (j k : Fin 128) :
    concatenate S128x256 1 [⟨S128x128, x0⟩, ⟨S128x128, x1⟩] h (ix2 j (d0 k)) = x0 (ix2 j k)
    ∧ concatenate S128x256 1 [⟨S128x128, x0⟩, ⟨S128x128, x1⟩] h (ix2 j (d1 k)) = x1 (ix2 j k) := by
  refine ⟨?_, ?_⟩
  · refine concatenate_apply_piece 1 [⟨S128x128, x0⟩, ⟨S128x128, x1⟩] h (ix2 j (d0 k)) 0 (by simp) S128x128 x0 rfl rfl 0 rfl (ix2 j k) (fun b hb => ?_) ?_
    · match b with
      | ⟨0, _⟩ => rfl
      | ⟨1, _⟩ => exact absurd rfl hb
    · show 0 + k.val = k.val; omega
  · refine concatenate_apply_piece 1 [⟨S128x128, x0⟩, ⟨S128x128, x1⟩] h (ix2 j (d1 k)) 1 (by simp) S128x128 x1 rfl rfl 128 rfl (ix2 j k) (fun b hb => ?_) ?_
    · match b with
      | ⟨0, _⟩ => rfl
      | ⟨1, _⟩ => exact absurd rfl hb
    · rfl

/-- Three vectors end to end, recast as one row, read in each of the three groups. -/
theorem cat3_row (b0 b1 b2 : S128.Idx → α)
    (h : Shape.Concatenates [S128, S128, S128] S384 0)
    (hc : S384.ShapeCasts S1x384) (k : Fin 128) :
    shapeCast S1x384 (concatenate S384 0 [⟨S128, b0⟩, ⟨S128, b1⟩, ⟨S128, b2⟩] h) hc (ix2 (0 : Fin 1) (c0 k)) = b0 (ix1 k)
    ∧ shapeCast S1x384 (concatenate S384 0 [⟨S128, b0⟩, ⟨S128, b1⟩, ⟨S128, b2⟩] h) hc (ix2 (0 : Fin 1) (c1 k)) = b1 (ix1 k)
    ∧ shapeCast S1x384 (concatenate S384 0 [⟨S128, b0⟩, ⟨S128, b1⟩, ⟨S128, b2⟩] h) hc (ix2 (0 : Fin 1) (c2 k)) = b2 (ix1 k) := by
  refine ⟨?_, ?_, ?_⟩
  · rw [shapeCast_a_1a_apply]
    refine concatenate_apply_piece 0 [⟨S128, b0⟩, ⟨S128, b1⟩, ⟨S128, b2⟩] h (ix1 (c0 k)) 0 (by simp) S128 b0 rfl rfl 0 rfl (ix1 k) (fun b hb => ?_) ?_
    · match b with
      | ⟨0, _⟩ => exact absurd rfl hb
    · show 0 + k.val = k.val; omega
  · rw [shapeCast_a_1a_apply]
    refine concatenate_apply_piece 0 [⟨S128, b0⟩, ⟨S128, b1⟩, ⟨S128, b2⟩] h (ix1 (c1 k)) 1 (by simp) S128 b1 rfl rfl 128 rfl (ix1 k) (fun b hb => ?_) ?_
    · match b with
      | ⟨0, _⟩ => exact absurd rfl hb
    · rfl
  · rw [shapeCast_a_1a_apply]
    refine concatenate_apply_piece 0 [⟨S128, b0⟩, ⟨S128, b1⟩, ⟨S128, b2⟩] h (ix1 (c2 k)) 2 (by simp) S128 b2 rfl rfl 256 rfl (ix1 k) (fun b hb => ?_) ?_
    · match b with
      | ⟨0, _⟩ => exact absurd rfl hb
    · rfl

/-- Two vectors end to end, recast as one row, read in each of the two groups. -/
theorem cat2_row (b0 b1 : S128.Idx → α)
    (h : Shape.Concatenates [S128, S128] S256 0)
    (hc : S256.ShapeCasts S1x256) (k : Fin 128) :
    shapeCast S1x256 (concatenate S256 0 [⟨S128, b0⟩, ⟨S128, b1⟩] h) hc (ix2 (0 : Fin 1) (d0 k)) = b0 (ix1 k)
    ∧ shapeCast S1x256 (concatenate S256 0 [⟨S128, b0⟩, ⟨S128, b1⟩] h) hc (ix2 (0 : Fin 1) (d1 k)) = b1 (ix1 k) := by
  refine ⟨?_, ?_⟩
  · rw [shapeCast_a_1a_apply]
    refine concatenate_apply_piece 0 [⟨S128, b0⟩, ⟨S128, b1⟩] h (ix1 (d0 k)) 0 (by simp) S128 b0 rfl rfl 0 rfl (ix1 k) (fun b hb => ?_) ?_
    · match b with
      | ⟨0, _⟩ => exact absurd rfl hb
    · show 0 + k.val = k.val; omega
  · rw [shapeCast_a_1a_apply]
    refine concatenate_apply_piece 0 [⟨S128, b0⟩, ⟨S128, b1⟩] h (ix1 (d1 k)) 1 (by simp) S128 b1 rfl rfl 128 rfl (ix1 k) (fun b hb => ?_) ?_
    · match b with
      | ⟨0, _⟩ => exact absurd rfl hb
    · rfl

/-- A vector recast as one row reads the vector. -/
theorem row_of_vec (b : S128.Idx → α) (hc : S128.ShapeCasts S1x128) (k : Fin 128) :
    shapeCast S1x128 b hc (ix2 (0 : Fin 1) k) = b (ix1 k) := shapeCast_a_1a_apply b hc 0 k

end Cert.KernelIdeal.KVal

end
-- ==== Proof.KCover.lean ====
/-
  The arithmetic of the grid. The computation runs over a grid of eight points. At point t it reads rows
  4 t … 4 t + 3 (all of the other two axes) of each of the three batched arguments, of shapes [32, 512, 128],
  [32, 512, 512] and [32, 512, 1], reads eight parameter arrays whole, and writes rows 4 t … 4 t + 3 of the
  result, of shape [32, 512, 128]. Here: each window's block index at each point; where a block's local index
  sits in its array, (4 t + y 0, y 1, y 2) for the batched ones and y itself for the whole arrays; and that the
  eight blocks of the result cover it, index i lying in the block of point ⌊i 0 / 4⌋.
-/
import proofs.«106638_g44787918963399_cont_sun_c4_384_9_alg».proof.Proof.Gen.KernelIdeal.Points
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.SL.Sem

variable [Facts]
open Facts₀ Facts

/-! ## The index maps, decided over the grid

The block index of each window at each of the eight points. The windows over the three batched arguments and
over the result move along the first axis with the point and stay at 0 on the other two; the eight windows over
whole arrays stay at block 0 on both axes. Stated first of the printed index maps themselves, which mention no
hypothesis of the program, so that the statement is closed and can be decided point by point. -/

theorem idx_raw : ∀ t : Fin grid0.N,
    cc0_transform_0 (grid0.coords t) (0 : Fin 3) = t.val
    ∧ cc0_transform_0 (grid0.coords t) (1 : Fin 3) = 0
    ∧ cc0_transform_0 (grid0.coords t) (2 : Fin 3) = 0
    ∧ cc0_transform_1 (grid0.coords t) (0 : Fin 3) = t.val
    ∧ cc0_transform_1 (grid0.coords t) (1 : Fin 3) = 0
    ∧ cc0_transform_1 (grid0.coords t) (2 : Fin 3) = 0
    ∧ cc0_transform_2 (grid0.coords t) (0 : Fin 3) = t.val
    ∧ cc0_transform_2 (grid0.coords t) (1 : Fin 3) = 0
    ∧ cc0_transform_2 (grid0.coords t) (2 : Fin 3) = 0
    ∧ cc0_transform_11 (grid0.coords t) (0 : Fin 3) = t.val
    ∧ cc0_transform_11 (grid0.coords t) (1 : Fin 3) = 0
    ∧ cc0_transform_11 (grid0.coords t) (2 : Fin 3) = 0
    ∧ cc0_transform_3 (grid0.coords t) (0 : Fin 2) = 0
    ∧ cc0_transform_3 (grid0.coords t) (1 : Fin 2) = 0
    ∧ cc0_transform_4 (grid0.coords t) (0 : Fin 2) = 0
    ∧ cc0_transform_4 (grid0.coords t) (1 : Fin 2) = 0
    ∧ cc0_transform_5 (grid0.coords t) (0 : Fin 2) = 0
    ∧ cc0_transform_5 (grid0.coords t) (1 : Fin 2) = 0
    ∧ cc0_transform_6 (grid0.coords t) (0 : Fin 2) = 0
    ∧ cc0_transform_6 (grid0.coords t) (1 : Fin 2) = 0
    ∧ cc0_transform_7 (grid0.coords t) (0 : Fin 2) = 0
    ∧ cc0_transform_7 (grid0.coords t) (1 : Fin 2) = 0
    ∧ cc0_transform_8 (grid0.coords t) (0 : Fin 2) = 0
    ∧ cc0_transform_8 (grid0.coords t) (1 : Fin 2) = 0
    ∧ cc0_transform_9 (grid0.coords t) (0 : Fin 2) = 0
    ∧ cc0_transform_9 (grid0.coords t) (1 : Fin 2) = 0
    ∧ cc0_transform_10 (grid0.coords t) (0 : Fin 2) = 0
    ∧ cc0_transform_10 (grid0.coords t) (1 : Fin 2) = 0 := by
  decide +kernel

/-- The same of the windows' block indices: a window's block index at a point is its index map at the point's
    coordinates. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_2.index t (0 : Fin 3) = t.val
    ∧ win0_2.index t (1 : Fin 3) = 0
    ∧ win0_2.index t (2 : Fin 3) = 0
    ∧ win0_11.index t (0 : Fin 3) = t.val
    ∧ win0_11.index t (1 : Fin 3) = 0
    ∧ win0_11.index t (2 : Fin 3) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  idx_raw

/-- Window 0's block index at point t is (t, 0, 0). -/
theorem idx_at0 (t : Fin cfg0.N) : win0_0.index t (0 : Fin 3) = t.val ∧ win0_0.index t (1 : Fin 3) = 0 ∧ win0_0.index t (2 : Fin 3) = 0 :=
  have h := idx_facts t
  ⟨h.1, h.2.1, h.2.2.1⟩

/-- Window 1's block index at point t is (t, 0, 0). -/
theorem idx_at1 (t : Fin cfg0.N) : win0_1.index t (0 : Fin 3) = t.val ∧ win0_1.index t (1 : Fin 3) = 0 ∧ win0_1.index t (2 : Fin 3) = 0 :=
  have h := idx_facts t
  ⟨h.2.2.2.1, h.2.2.2.2.1, h.2.2.2.2.2.1⟩

/-- Window 2's block index at point t is (t, 0, 0). -/
theorem idx_at2 (t : Fin cfg0.N) : win0_2.index t (0 : Fin 3) = t.val ∧ win0_2.index t (1 : Fin 3) = 0 ∧ win0_2.index t (2 : Fin 3) = 0 :=
  have h := idx_facts t
  ⟨h.2.2.2.2.2.2.1, h.2.2.2.2.2.2.2.1, h.2.2.2.2.2.2.2.2.1⟩

/-- Window 11's block index at point t is (t, 0, 0). -/
theorem idx_at11 (t : Fin cfg0.N) : win0_11.index t (0 : Fin 3) = t.val ∧ win0_11.index t (1 : Fin 3) = 0 ∧ win0_11.index t (2 : Fin 3) = 0 :=
  have h := idx_facts t
  ⟨h.2.2.2.2.2.2.2.2.2.1, h.2.2.2.2.2.2.2.2.2.2.1, h.2.2.2.2.2.2.2.2.2.2.2.1⟩

/-- Window 3's block index is (0, 0) at every point. -/
theorem idx_at3 (t : Fin cfg0.N) : win0_3.index t (0 : Fin 2) = 0 ∧ win0_3.index t (1 : Fin 2) = 0 :=
  have h := idx_facts t
  ⟨h.2.2.2.2.2.2.2.2.2.2.2.2.1, h.2.2.2.2.2.2.2.2.2.2.2.2.2.1⟩

/-- Window 4's block index is (0, 0) at every point. -/
theorem idx_at4 (t : Fin cfg0.N) : win0_4.index t (0 : Fin 2) = 0 ∧ win0_4.index t (1 : Fin 2) = 0 :=
  have h := idx_facts t
  ⟨h.2.2.2.2.2.2.2.2.2.2.2.2.2.2.1, h.2.2.2.2.2.2.2.2.2.2.2.2.2.2.2.1⟩

/-- Window 5's block index is (0, 0) at every point. -/
theorem idx_at5 (t : Fin cfg0.N) : win0_5.index t (0 : Fin 2) = 0 ∧ win0_5.index t (1 : Fin 2) = 0 :=
  have h := idx_facts t
  ⟨h.2.2.2.2.2.2.2.2.2.2.2.2.2.2.2.2.1, h.2.2.2.2.2.2.2.2.2.2.2.2.2.2.2.2.2.1⟩

/-- Window 6's block index is (0, 0) at every point. -/
theorem idx_at6 (t : Fin cfg0.N) : win0_6.index t (0 : Fin 2) = 0 ∧ win0_6.index t (1 : Fin 2) = 0 :=
  have h := idx_facts t
  ⟨h.2.2.2.2.2.2.2.2.2.2.2.2.2.2.2.2.2.2.1, h.2.2.2.2.2.2.2.2.2.2.2.2.2.2.2.2.2.2.2.1⟩

/-- Window 7's block index is (0, 0) at every point. -/
theorem idx_at7 (t : Fin cfg0.N) : win0_7.index t (0 : Fin 2) = 0 ∧ win0_7.index t (1 : Fin 2) = 0 :=
  have h := idx_facts t
  ⟨h.2.2.2.2.2.2.2.2.2.2.2.2.2.2.2.2.2.2.2.2.1, h.2.2.2.2.2.2.2.2.2.2.2.2.2.2.2.2.2.2.2.2.2.1⟩

/-- Window 8's block index is (0, 0) at every point. -/
theorem idx_at8 (t : Fin cfg0.N) : win0_8.index t (0 : Fin 2) = 0 ∧ win0_8.index t (1 : Fin 2) = 0 :=
  have h := idx_facts t
  ⟨h.2.2.2.2.2.2.2.2.2.2.2.2.2.2.2.2.2.2.2.2.2.2.1, h.2.2.2.2.2.2.2.2.2.2.2.2.2.2.2.2.2.2.2.2.2.2.2.1⟩

/-- Window 9's block index is (0, 0) at every point. -/
theorem idx_at9 (t : Fin cfg0.N) : win0_9.index t (0 : Fin 2) = 0 ∧ win0_9.index t (1 : Fin 2) = 0 :=
  have h := idx_facts t
  ⟨h.2.2.2.2.2.2.2.2.2.2.2.2.2.2.2.2.2.2.2.2.2.2.2.2.1, h.2.2.2.2.2.2.2.2.2.2.2.2.2.2.2.2.2.2.2.2.2.2.2.2.2.1⟩

/-- Window 10's block index is (0, 0) at every point. -/
theorem idx_at10 (t : Fin cfg0.N) : win0_10.index t (0 : Fin 2) = 0 ∧ win0_10.index t (1 : Fin 2) = 0 :=
  have h := idx_facts t
  ⟨h.2.2.2.2.2.2.2.2.2.2.2.2.2.2.2.2.2.2.2.2.2.2.2.2.2.2.1, h.2.2.2.2.2.2.2.2.2.2.2.2.2.2.2.2.2.2.2.2.2.2.2.2.2.2.2⟩

/-! ## Where a block's index sits in its array

A block of sizes (n0, n1, n2) at block index (q0, q1, q2) places its local index y at the array index whose
coordinate on axis a is q a * n a + y a. -/

/-- The grid has eight points. -/
theorem grid_N : grid0.N = 8 := by decide

/-- A point's number is below eight. -/
theorem point_lt (t : Fin cfg0.N) : t.val < 8 := by
  have h : t.val < grid0.N := t.isLt
  have hN := grid_N
  omega

/-- Row y0 of the block of four rows at point t is row 4 t + y0 of the thirty-two. -/
theorem row_lt (t : Fin cfg0.N) (y0 : Fin 4) : 4 * t.val + y0.val < 32 := by
  have ht := point_lt t
  have hy := y0.isLt
  omega

/-- Window 0: local index y of the block at point t is the array's index (4 t + y 0, y 1, y 2). -/
theorem emb_0 (t : Fin cfg0.N) (y : S4x512x128.Idx) :
    ((cfg0.win 0).blk t).view.emb y = (ValueIdx.ix3 (⟨4 * t.val + (y 0).val, row_lt t (y 0)⟩ : Fin 32) (y 1) (y 2) : S32x512x128.Idx) := by
  obtain ⟨e0, e1, e2⟩ := idx_at0 t
  funext a; apply Fin.ext
  match a with
  | ⟨0, _⟩ => show win0_0.index t (0 : Fin 3) * 4 + 1 * (y 0).val = 4 * t.val + (y 0).val; rw [e0]; omega
  | ⟨1, _⟩ => show win0_0.index t (1 : Fin 3) * 512 + 1 * (y 1).val = (y 1).val; rw [e1]; omega
  | ⟨2, _⟩ => show win0_0.index t (2 : Fin 3) * 128 + 1 * (y 2).val = (y 2).val; rw [e2]; omega

/-- Window 1: local index y of the block at point t is the array's index (4 t + y 0, y 1, y 2). -/
theorem emb_1 (t : Fin cfg0.N) (y : S4x512x512.Idx) :
    ((cfg0.win 1).blk t).view.emb y = (ValueIdx.ix3 (⟨4 * t.val + (y 0).val, row_lt t (y 0)⟩ : Fin 32) (y 1) (y 2) : S32x512x512.Idx) := by
  obtain ⟨e0, e1, e2⟩ := idx_at1 t
  funext a; apply Fin.ext
  match a with
  | ⟨0, _⟩ => show win0_1.index t (0 : Fin 3) * 4 + 1 * (y 0).val = 4 * t.val + (y 0).val; rw [e0]; omega
  | ⟨1, _⟩ => show win0_1.index t (1 : Fin 3) * 512 + 1 * (y 1).val = (y 1).val; rw [e1]; omega
  | ⟨2, _⟩ => show win0_1.index t (2 : Fin 3) * 512 + 1 * (y 2).val = (y 2).val; rw [e2]; omega

/-- Window 2: local index y of the block at point t is the array's index (4 t + y 0, y 1, y 2). -/
theorem emb_2 (t : Fin cfg0.N) (y : S4x512x1.Idx) :
    ((cfg0.win 2).blk t).view.emb y = (ValueIdx.ix3 (⟨4 * t.val + (y 0).val, row_lt t (y 0)⟩ : Fin 32) (y 1) (y 2) : S32x512x1.Idx) := by
  obtain ⟨e0, e1, e2⟩ := idx_at2 t
  funext a; apply Fin.ext
  match a with
  | ⟨0, _⟩ => show win0_2.index t (0 : Fin 3) * 4 + 1 * (y 0).val = 4 * t.val + (y 0).val; rw [e0]; omega
  | ⟨1, _⟩ => show win0_2.index t (1 : Fin 3) * 512 + 1 * (y 1).val = (y 1).val; rw [e1]; omega
  | ⟨2, _⟩ => show win0_2.index t (2 : Fin 3) * 1 + 1 * (y 2).val = (y 2).val; rw [e2]; omega

/-- Window 11: local index y of the block at point t is the array's index (4 t + y 0, y 1, y 2). -/
theorem emb_11 (t : Fin cfg0.N) (y : S4x512x128.Idx) :
    ((cfg0.win 11).blk t).view.emb y = (ValueIdx.ix3 (⟨4 * t.val + (y 0).val, row_lt t (y 0)⟩ : Fin 32) (y 1) (y 2) : S32x512x128.Idx) := by
  obtain ⟨e0, e1, e2⟩ := idx_at11 t
  funext a; apply Fin.ext
  match a with
  | ⟨0, _⟩ => show win0_11.index t (0 : Fin 3) * 4 + 1 * (y 0).val = 4 * t.val + (y 0).val; rw [e0]; omega
  | ⟨1, _⟩ => show win0_11.index t (1 : Fin 3) * 512 + 1 * (y 1).val = (y 1).val; rw [e1]; omega
  | ⟨2, _⟩ => show win0_11.index t (2 : Fin 3) * 128 + 1 * (y 2).val = (y 2).val; rw [e2]; omega

/-- Window 3 is its whole array: the block's index is the array's. -/
theorem emb_3 (t : Fin cfg0.N) (y : S128x128.Idx) : ((cfg0.win 3).blk t).view.emb y = y := by
  obtain ⟨e0, e1⟩ := idx_at3 t
  funext a; apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4 is its whole array: the block's index is the array's. -/
theorem emb_4 (t : Fin cfg0.N) (y : S1x128.Idx) : ((cfg0.win 4).blk t).view.emb y = y := by
  obtain ⟨e0, e1⟩ := idx_at4 t
  funext a; apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Window 5 is its whole array: the block's index is the array's. -/
theorem emb_5 (t : Fin cfg0.N) (y : S128x384.Idx) : ((cfg0.win 5).blk t).view.emb y = y := by
  obtain ⟨e0, e1⟩ := idx_at5 t
  funext a; apply Fin.ext
  match a with
  | ⟨0, _⟩ => show win0_5.index t (0 : Fin 2) * 128 + 1 * (y 0).val = (y 0).val; rw [e0]; omega
  | ⟨1, _⟩ => show win0_5.index t (1 : Fin 2) * 384 + 1 * (y 1).val = (y 1).val; rw [e1]; omega

/-- Window 6 is its whole array: the block's index is the array's. -/
theorem emb_6 (t : Fin cfg0.N) (y : S1x384.Idx) : ((cfg0.win 6).blk t).view.emb y = y := by
  obtain ⟨e0, e1⟩ := idx_at6 t
  funext a; apply Fin.ext
  match a with
  | ⟨0, _⟩ => show win0_6.index t (0 : Fin 2) * 1 + 1 * (y 0).val = (y 0).val; rw [e0]; omega
  | ⟨1, _⟩ => show win0_6.index t (1 : Fin 2) * 384 + 1 * (y 1).val = (y 1).val; rw [e1]; omega

/-- Window 7 is its whole array: the block's index is the array's. -/
theorem emb_7 (t : Fin cfg0.N) (y : S128x256.Idx) : ((cfg0.win 7).blk t).view.emb y = y := by
  obtain ⟨e0, e1⟩ := idx_at7 t
  funext a; apply Fin.ext
  match a with
  | ⟨0, _⟩ => show win0_7.index t (0 : Fin 2) * 128 + 1 * (y 0).val = (y 0).val; rw [e0]; omega
  | ⟨1, _⟩ => show win0_7.index t (1 : Fin 2) * 256 + 1 * (y 1).val = (y 1).val; rw [e1]; omega

/-- Window 8 is its whole array: the block's index is the array's. -/
theorem emb_8 (t : Fin cfg0.N) (y : S1x256.Idx) : ((cfg0.win 8).blk t).view.emb y = y := by
  obtain ⟨e0, e1⟩ := idx_at8 t
  funext a; apply Fin.ext
  match a with
  | ⟨0, _⟩ => show win0_8.index t (0 : Fin 2) * 1 + 1 * (y 0).val = (y 0).val; rw [e0]; omega
  | ⟨1, _⟩ => show win0_8.index t (1 : Fin 2) * 256 + 1 * (y 1).val = (y 1).val; rw [e1]; omega

/-- Window 9 is its whole array: the block's index is the array's. -/
theorem emb_9 (t : Fin cfg0.N) (y : S128x128.Idx) : ((cfg0.win 9).blk t).view.emb y = y := by
  obtain ⟨e0, e1⟩ := idx_at9 t
  funext a; apply Fin.ext
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

/-- Window 10 is its whole array: the block's index is the array's. -/
theorem emb_10 (t : Fin cfg0.N) (y : S1x128.Idx) : ((cfg0.win 10).blk t).view.emb y = y := by
  obtain ⟨e0, e1⟩ := idx_at10 t
  funext a; apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

/-! ## The result's blocks cover it

Point t writes back rows 4 t … 4 t + 3 of the result, all of the other two axes; the eight points' blocks
therefore tile the thirty-two rows, and index i lies in the block of point ⌊i 0 / 4⌋. -/

/-- An index of the result is in point t's block iff each coordinate is in the block's range on its axis. -/
theorem mem_blk11 (t : Fin cfg0.N) (i : S32x512x128.Idx) :
    i ∈ ((cfg0.win 11).blk t).view.set ↔ ∀ a : Fin 3, win0_11.index t a * S4x512x128.size a ≤ (i a).val ∧ (i a).val < win0_11.index t a * S4x512x128.size a + S4x512x128.size a := by
  show i ∈ ((View.whole main_v8).slice (win0_11.rect t)).set ↔ _
  rw [View.set_slice_whole, Rect.mem_set_unit]
  exact Iff.rfl

/-- Every index of the result is in the block of a point that writes its block back. -/
theorem cover11 : ∀ i : S32x512x128.Idx, ∃ t : Fin cfg0.N, (cfg0.win 11).flush t = true ∧ i ∈ ((cfg0.win 11).blk t).view.set := by
  intro i
  have hi0 : (i 0).val < 32 := (i 0).isLt
  have hi1 : (i 1).val < 512 := (i 1).isLt
  have hi2 : (i 2).val < 128 := (i 2).isLt
  obtain ⟨t, ht⟩ : ∃ t : Fin cfg0.N, t.val = (i 0).val / 4 :=
    ⟨⟨(i 0).val / 4, by show (i 0).val / 4 < grid0.N; have hN := grid_N; omega⟩, rfl⟩
  refine ⟨t, flush0_11 t, ?_⟩
  rw [mem_blk11]
  obtain ⟨e0, e1, e2⟩ := idx_at11 t
  intro a
  match a with
  | ⟨0, _⟩ => show win0_11.index t (0 : Fin 3) * 4 ≤ (i 0).val ∧ (i 0).val < win0_11.index t (0 : Fin 3) * 4 + 4; rw [e0, ht]; omega
  | ⟨1, _⟩ => show win0_11.index t (1 : Fin 3) * 512 ≤ (i 1).val ∧ (i 1).val < win0_11.index t (1 : Fin 3) * 512 + 512; rw [e1]; omega
  | ⟨2, _⟩ => show win0_11.index t (2 : Fin 3) * 128 ≤ (i 2).val ∧ (i 2).val < win0_11.index t (2 : Fin 3) * 128 + 128; rw [e2]; omega

end Cert.KernelIdeal.KVal

end
-- ==== Proof.KJoin.lean ====
/-
  The block-level formulas are the spec's, graph by graph.

  Restricted to one graph `g`, the encoder is the spec's encoder, and a step with the fused matrices is the spec's
  step: column `k` of the first 128-column group of `[W_z0 | W_r0 | W_h0]` is column `k` of `W_z0`, and so on
  for the other groups and for the biases, so each slice of a fused product is the product with the matrix that
  group came from; the candidate's three summands are associated the other way round, and the last line is the
  spec's in the arrangement `out + z · (hh - out)` (`step_eq`: both are polynomial identities over the reals).
-/
import proofs.«106638_g44787918963399_cont_sun_c4_384_9_alg».proof.Proof.KStep

noncomputable section

namespace Cert.KernelIdeal.KVal

open Cert.GruSpec
open scoped BigOperators

/-- The fused matrices and bias rows are the concatenations of the spec's, group by group. -/
structure Fused (P : Params) (Wa : Fin 128 → Fin 384 → ℝ) (ba : Fin 384 → ℝ) (Wo : Fin 128 → Fin 256 → ℝ) (bo : Fin 256 → ℝ) : Prop where
  Wa0 : ∀ j k, Wa j (c0 k) = P.Wz0 j k
  Wa1 : ∀ j k, Wa j (c1 k) = P.Wr0 j k
  Wa2 : ∀ j k, Wa j (c2 k) = P.Wh0 j k
  ba0 : ∀ k, ba (c0 k) = P.bz0 k
  ba1 : ∀ k, ba (c1 k) = P.br0 k
  ba2 : ∀ k, ba (c2 k) = P.bh0 k
  Wo0 : ∀ j k, Wo j (d0 k) = P.Wz1 j k
  Wo1 : ∀ j k, Wo j (d1 k) = P.Wr1 j k
  bo0 : ∀ k, bo (d0 k) = P.bz1 k
  bo1 : ∀ k, bo (d1 k) = P.br1 k

/-- The encoder on graph `g` is the spec's encoder there. -/
theorem encB_eq (x : Arr3 128) (mask : Fin 32 → Fin 512 → ℝ) (Wenc : Fin 128 → Fin 128 → ℝ) (benc : Fin 128 → ℝ) (g : Fin 32) :
    encB (x g) (mask g) Wenc benc = enc x mask Wenc benc g := rfl

/-- A step with the fused matrices on graph `g` is the spec's step there. -/
theorem stepB_eq (P : Params) (out : Arr3 128) (g : Fin 32) {Wa : Fin 128 → Fin 384 → ℝ} {ba : Fin 384 → ℝ}
    {Wo : Fin 128 → Fin 256 → ℝ} {bo : Fin 256 → ℝ} (h : Fused P Wa ba Wo bo) :
    stepB (out g) (P.sup g) Wa ba Wo bo P.Wh1 (P.mask g) P.bh1 = step P out g := by
  funext i k
  rw [step_eq]
  unfold stepB zgate cand rgate lin linB agg aggB
  simp only [h.Wa0, h.Wa1, h.Wa2, h.ba0, h.ba1, h.ba2, h.Wo0, h.Wo1, h.bo0, h.bo1]
  rw [add_assoc (∑ j, (∑ l, P.sup g i l * out g l j) * P.Wh0 j k + P.bh0 k)]

/-- The encoder and two fused steps on graph `g`: the whole layer there. -/
theorem blockG (x : Arr3 128) (Wenc : Fin 128 → Fin 128 → ℝ) (benc : Fin 128 → ℝ) (P : Params) (g : Fin 32)
    {Wa : Fin 128 → Fin 384 → ℝ} {ba : Fin 384 → ℝ} {Wo : Fin 128 → Fin 256 → ℝ} {bo : Fin 256 → ℝ} (h : Fused P Wa ba Wo bo) :
    stepB (stepB (encB (x g) (P.mask g) Wenc benc) (P.sup g) Wa ba Wo bo P.Wh1 (P.mask g) P.bh1)
      (P.sup g) Wa ba Wo bo P.Wh1 (P.mask g) P.bh1 = G x Wenc benc P g := by
  unfold G
  rw [encB_eq, stepB_eq P _ g h, stepB_eq P _ g h]

end Cert.KernelIdeal.KVal

end
-- ==== Proof.SpecArgs.lean ====
/-
  The spec's arrays read off arrays indexed by the programs' shapes: an array on the index set of the shape
  `[a, b, c]` is the curried function of its three coordinates, and likewise for ranks 2 and 1. The mask has
  shape `[32, 512, 1]`: its last coordinate is always 0.
-/
import proofs.«106638_g44787918963399_cont_sun_c4_384_9_alg».proof.Proof.Spec
import Idealize.ShloMosaic.Lib.ValueIdx

noncomputable section

namespace Cert.GruSpec

open Idealize.ShloMosaic Idealize.ShloMosaic.ValueIdx

/-- A rank-3 array as a function of its coordinates. -/
def arr3 {a b c : Nat} (x : (⟨3, ![a, b, c]⟩ : Shape).Idx → ℝ) : Fin a → Fin b → Fin c → ℝ :=
  fun g i k => x (ix3 g i k)
/-- A rank-2 array as a function of its coordinates. -/
def arr2 {a b : Nat} (x : (⟨2, ![a, b]⟩ : Shape).Idx → ℝ) : Fin a → Fin b → ℝ :=
  fun j k => x (ix2 j k)
/-- A rank-1 array as a function of its coordinate. -/
def arr1 {a : Nat} (x : (⟨1, ![a]⟩ : Shape).Idx → ℝ) : Fin a → ℝ :=
  fun k => x (ix1 k)
/-- The mask `[32, 512, 1]` as a function of graph and node. -/
def maskOf (x : (⟨3, ![32, 512, 1]⟩ : Shape).Idx → ℝ) : Fin 32 → Fin 512 → ℝ :=
  fun g i => x (ix3 g i 0)

/-- The parameters of a step from the programs' argument arrays, in the order of the programs' signature:
    support, mask, then (W_z0, b_z0, W_z1, b_z1, W_r0, b_r0, W_r1, b_r1, W_h0, b_h0, W_h1, b_h1). -/
def paramsOf (x1 : (⟨3, ![32, 512, 512]⟩ : Shape).Idx → ℝ) (x2 : (⟨3, ![32, 512, 1]⟩ : Shape).Idx → ℝ)
    (x5 : (⟨2, ![128, 128]⟩ : Shape).Idx → ℝ) (x6 : (⟨1, ![128]⟩ : Shape).Idx → ℝ)
    (x7 : (⟨2, ![128, 128]⟩ : Shape).Idx → ℝ) (x8 : (⟨1, ![128]⟩ : Shape).Idx → ℝ)
    (x9 : (⟨2, ![128, 128]⟩ : Shape).Idx → ℝ) (x10 : (⟨1, ![128]⟩ : Shape).Idx → ℝ)
    (x11 : (⟨2, ![128, 128]⟩ : Shape).Idx → ℝ) (x12 : (⟨1, ![128]⟩ : Shape).Idx → ℝ)
    (x13 : (⟨2, ![128, 128]⟩ : Shape).Idx → ℝ) (x14 : (⟨1, ![128]⟩ : Shape).Idx → ℝ)
    (x15 : (⟨2, ![128, 128]⟩ : Shape).Idx → ℝ) (x16 : (⟨1, ![128]⟩ : Shape).Idx → ℝ) : Params where
  sup := arr3 x1
  mask := maskOf x2
  Wz0 := arr2 x5
  bz0 := arr1 x6
  Wz1 := arr2 x7
  bz1 := arr1 x8
  Wr0 := arr2 x9
  br0 := arr1 x10
  Wr1 := arr2 x11
  br1 := arr1 x12
  Wh0 := arr2 x13
  bh0 := arr1 x14
  Wh1 := arr2 x15
  bh1 := arr1 x16

/-- The whole layer of the seventeen argument arrays, at an index of the result's shape `[32, 512, 128]`. -/
def GAt (x0 : (⟨3, ![32, 512, 128]⟩ : Shape).Idx → ℝ) (x1 : (⟨3, ![32, 512, 512]⟩ : Shape).Idx → ℝ)
    (x2 : (⟨3, ![32, 512, 1]⟩ : Shape).Idx → ℝ) (x3 : (⟨2, ![128, 128]⟩ : Shape).Idx → ℝ) (x4 : (⟨1, ![128]⟩ : Shape).Idx → ℝ)
    (x5 : (⟨2, ![128, 128]⟩ : Shape).Idx → ℝ) (x6 : (⟨1, ![128]⟩ : Shape).Idx → ℝ)
    (x7 : (⟨2, ![128, 128]⟩ : Shape).Idx → ℝ) (x8 : (⟨1, ![128]⟩ : Shape).Idx → ℝ)
    (x9 : (⟨2, ![128, 128]⟩ : Shape).Idx → ℝ) (x10 : (⟨1, ![128]⟩ : Shape).Idx → ℝ)
    (x11 : (⟨2, ![128, 128]⟩ : Shape).Idx → ℝ) (x12 : (⟨1, ![128]⟩ : Shape).Idx → ℝ)
    (x13 : (⟨2, ![128, 128]⟩ : Shape).Idx → ℝ) (x14 : (⟨1, ![128]⟩ : Shape).Idx → ℝ)
    (x15 : (⟨2, ![128, 128]⟩ : Shape).Idx → ℝ) (x16 : (⟨1, ![128]⟩ : Shape).Idx → ℝ)
    (i : (⟨3, ![32, 512, 128]⟩ : Shape).Idx) : ℝ :=
  G (arr3 x0) (arr2 x3) (arr1 x4) (paramsOf x1 x2 x5 x6 x7 x8 x9 x10 x11 x12 x13 x14 x15 x16) (i 0) (i 1) (i 2)

end Cert.GruSpec

end
-- ==== Proof.KSpecB.lean ====
/-
  The fused rows over the reals, and the whole layer on one graph from the argument arrays.

  The fused 384-column matrix has, in its three column groups, the columns of `W_z0`, `W_r0`, `W_h0`; the fused
  256-column matrix those of `W_z1`, `W_r1`; the bias rows likewise. With them the block-level encoder and two steps
  on the rows of graph `b` give the layer's value at `(b, i, k)`.
-/
import proofs.«106638_g44787918963399_cont_sun_c4_384_9_alg».proof.Proof.KJoin
import proofs.«106638_g44787918963399_cont_sun_c4_384_9_alg».proof.Proof.SpecArgs

noncomputable section

namespace Cert.KernelIdeal.KVal

open Idealize.ShloMosaic Idealize.ShloMosaic.ValueIdx Cert.GruSpec

/-- Three rows of 128 entries end to end. -/
def cat3 (f0 f1 f2 : Fin 128 → ℝ) : Fin 384 → ℝ := fun q =>
  if h : q.val < 128 then f0 ⟨q.val, h⟩ else if h2 : q.val < 256 then f1 ⟨q.val - 128, by omega⟩ else f2 ⟨q.val - 256, by omega⟩

/-- Two rows of 128 entries end to end. -/
def cat2 (f0 f1 : Fin 128 → ℝ) : Fin 256 → ℝ := fun q =>
  if h : q.val < 128 then f0 ⟨q.val, h⟩ else f1 ⟨q.val - 128, by omega⟩

theorem cat3_c0 (f0 f1 f2 : Fin 128 → ℝ) (k : Fin 128) : cat3 f0 f1 f2 (c0 k) = f0 k := by
  unfold cat3; rw [dif_pos (show (c0 k).val < 128 from k.isLt)]
theorem cat3_c1 (f0 f1 f2 : Fin 128 → ℝ) (k : Fin 128) : cat3 f0 f1 f2 (c1 k) = f1 k := by
  unfold cat3
  rw [dif_neg (show ¬ (c1 k).val < 128 by show ¬ 128 + k.val < 128; omega),
    dif_pos (show (c1 k).val < 256 by show 128 + k.val < 256; omega)]
  congr 1; apply Fin.ext; show 128 + k.val - 128 = k.val; omega
theorem cat3_c2 (f0 f1 f2 : Fin 128 → ℝ) (k : Fin 128) : cat3 f0 f1 f2 (c2 k) = f2 k := by
  unfold cat3
  rw [dif_neg (show ¬ (c2 k).val < 128 by show ¬ 256 + k.val < 128; omega),
    dif_neg (show ¬ (c2 k).val < 256 by show ¬ 256 + k.val < 256; omega)]
  congr 1; apply Fin.ext; show 256 + k.val - 256 = k.val; omega
theorem cat2_d0 (f0 f1 : Fin 128 → ℝ) (k : Fin 128) : cat2 f0 f1 (d0 k) = f0 k := by
  unfold cat2; rw [dif_pos (show (d0 k).val < 128 from k.isLt)]
theorem cat2_d1 (f0 f1 : Fin 128 → ℝ) (k : Fin 128) : cat2 f0 f1 (d1 k) = f1 k := by
  unfold cat2
  rw [dif_neg (show ¬ (d1 k).val < 128 by show ¬ 128 + k.val < 128; omega)]
  congr 1; apply Fin.ext; show 128 + k.val - 128 = k.val; omega

/-- Every column of the 384 is in one of the three groups. -/
theorem col384 (q : Fin 384) : (∃ k, q = c0 k) ∨ (∃ k, q = c1 k) ∨ (∃ k, q = c2 k) := by
  by_cases h : q.val < 128
  · exact Or.inl ⟨⟨q.val, h⟩, Fin.ext rfl⟩
  · by_cases h2 : q.val < 256
    · exact Or.inr (Or.inl ⟨⟨q.val - 128, by omega⟩, Fin.ext (by show q.val = 128 + (q.val - 128); omega)⟩)
    · exact Or.inr (Or.inr ⟨⟨q.val - 256, by have := q.isLt; omega⟩, Fin.ext (by show q.val = 256 + (q.val - 256); omega)⟩)

/-- Every column of the 256 is in one of the two groups. -/
theorem col256 (q : Fin 256) : (∃ k, q = d0 k) ∨ (∃ k, q = d1 k) := by
  by_cases h : q.val < 128
  · exact Or.inl ⟨⟨q.val, h⟩, Fin.ext rfl⟩
  · exact Or.inr ⟨⟨q.val - 128, by have := q.isLt; omega⟩, Fin.ext (by show q.val = 128 + (q.val - 128); omega)⟩

section
variable (x0 : (⟨3, ![32, 512, 128]⟩ : Shape).Idx → ℝ) (x1 : (⟨3, ![32, 512, 512]⟩ : Shape).Idx → ℝ)
  (x2 : (⟨3, ![32, 512, 1]⟩ : Shape).Idx → ℝ) (x3 : (⟨2, ![128, 128]⟩ : Shape).Idx → ℝ) (x4 : (⟨1, ![128]⟩ : Shape).Idx → ℝ)
  (x5 : (⟨2, ![128, 128]⟩ : Shape).Idx → ℝ) (x6 : (⟨1, ![128]⟩ : Shape).Idx → ℝ)
  (x7 : (⟨2, ![128, 128]⟩ : Shape).Idx → ℝ) (x8 : (⟨1, ![128]⟩ : Shape).Idx → ℝ)
  (x9 : (⟨2, ![128, 128]⟩ : Shape).Idx → ℝ) (x10 : (⟨1, ![128]⟩ : Shape).Idx → ℝ)
  (x11 : (⟨2, ![128, 128]⟩ : Shape).Idx → ℝ) (x12 : (⟨1, ![128]⟩ : Shape).Idx → ℝ)
  (x13 : (⟨2, ![128, 128]⟩ : Shape).Idx → ℝ) (x14 : (⟨1, ![128]⟩ : Shape).Idx → ℝ)
  (x15 : (⟨2, ![128, 128]⟩ : Shape).Idx → ℝ) (x16 : (⟨1, ![128]⟩ : Shape).Idx → ℝ)

/-- The fused matrices and bias rows of the argument arrays. -/
def WaOf : Fin 128 → Fin 384 → ℝ := fun j => cat3 (fun k => x5 (ix2 j k)) (fun k => x9 (ix2 j k)) (fun k => x13 (ix2 j k))
def baOf : Fin 384 → ℝ := cat3 (fun k => x6 (ix1 k)) (fun k => x10 (ix1 k)) (fun k => x14 (ix1 k))
def WoOf : Fin 128 → Fin 256 → ℝ := fun j => cat2 (fun k => x7 (ix2 j k)) (fun k => x11 (ix2 j k))
def boOf : Fin 256 → ℝ := cat2 (fun k => x8 (ix1 k)) (fun k => x12 (ix1 k))

/-- They are the spec's matrices group by group. -/
theorem fusedOf : Fused (paramsOf x1 x2 x5 x6 x7 x8 x9 x10 x11 x12 x13 x14 x15 x16) (WaOf x5 x9 x13) (baOf x6 x10 x14) (WoOf x7 x11) (boOf x8 x12) where
  Wa0 j k := cat3_c0 _ _ _ k
  Wa1 j k := cat3_c1 _ _ _ k
  Wa2 j k := cat3_c2 _ _ _ k
  ba0 k := cat3_c0 _ _ _ k
  ba1 k := cat3_c1 _ _ _ k
  ba2 k := cat3_c2 _ _ _ k
  Wo0 j k := cat2_d0 _ _ k
  Wo1 j k := cat2_d1 _ _ k
  bo0 k := cat2_d0 _ _ k
  bo1 k := cat2_d1 _ _ k

/-- The block-level encoder and two fused steps on the rows of graph `b` are the layer at `(b, i, k)`. -/
theorem block_spec (b : Fin 32) (i : Fin 512) (k : Fin 128) :
    stepB (stepB (encB (fun i j => x0 (ix3 b i j)) (fun i => x2 (ix3 b i (0 : Fin 1))) (fun j k => x3 (ix2 j k)) (fun k => x4 (ix1 k)))
        (fun i l => x1 (ix3 b i l)) (WaOf x5 x9 x13) (baOf x6 x10 x14) (WoOf x7 x11) (boOf x8 x12) (fun j k => x15 (ix2 j k))
        (fun i => x2 (ix3 b i (0 : Fin 1))) (fun k => x16 (ix1 k)))
      (fun i l => x1 (ix3 b i l)) (WaOf x5 x9 x13) (baOf x6 x10 x14) (WoOf x7 x11) (boOf x8 x12) (fun j k => x15 (ix2 j k))
      (fun i => x2 (ix3 b i (0 : Fin 1))) (fun k => x16 (ix1 k)) i k
    = GAt x0 x1 x2 x3 x4 x5 x6 x7 x8 x9 x10 x11 x12 x13 x14 x15 x16 (ix3 b i k) :=
  congrFun (congrFun (blockG (arr3 x0) (arr2 x3) (arr1 x4) (paramsOf x1 x2 x5 x6 x7 x8 x9 x10 x11 x12 x13 x14 x15 x16) b
    (fusedOf x1 x2 x5 x6 x7 x8 x9 x10 x11 x12 x13 x14 x15 x16)) i) k

end

end Cert.KernelIdeal.KVal

end
-- ==== Proof.KLeaf.lean ====
import proofs.«106638_g44787918963399_cont_sun_c4_384_9_alg».proof.Proof.VHost
import proofs.«106638_g44787918963399_cont_sun_c4_384_9_alg».proof.Proof.KHost
import proofs.«106638_g44787918963399_cont_sun_c4_384_9_alg».proof.Proof.KCover
import proofs.«106638_g44787918963399_cont_sun_c4_384_9_alg».proof.Proof.KSpecB

/-!
# The input blocks, entry by entry

When the argument arrays hold real numbers, every entry of every input block at a grid point is a
named real number: an entry of an argument array for the batched inputs (graph `g` of the block at
point `t` is graph `4 t + g` of the batch) and for the two weights passed as they are; an entry of
one of the three (or two) concatenated matrices or bias vectors, chosen by the column group, for
the fused weights and biases; an entry of the bias vector for the biases passed as rows.
-/

noncomputable section

namespace Cert.KernelIdeal.KVal

open Cert.KernelIdeal Cert.KernelIdeal.Gen Cert.KernelIdeal.HandFrame
open Idealize.ShloMosaic Idealize.ShloMosaic.ValueIdx Idealize.ShloMosaic.TcCoe
open Idealize.SL Idealize.SL.Sem

/-! ## The blocks' entries -/

variable (m : (ℓ : Loc nD τ sig) → Buf (Elt Ideal) ℓ) (c : Dev nD) (t : Fin cfg0.N)

/-- Features: graph `g` of the block is graph `4 t + g` of the batch. -/
theorem leaf0 (x0 : S32x512x128.Idx → ℝ) (h0 : m ((c : Thread nD τ).loc main_arg0) = fun j => ((x0 j : ℝ) : EReal)) (g : Fin 4) (i : Fin 512) (j : Fin 128) :
    iblk m c 0 t (ix3 g i j) = ((x0 (ix3 (⟨4 * t.val + g.val, row_lt t g⟩ : Fin 32) i j) : ℝ) : EReal) := by
  show V m c (Pipeline.arrRef spec0 0) (((cfg0.win 0).blk t).view.emb (ix3 g i j)) = _
  rw [emb_0]
  show V m c main_arg0 _ = _
  rw [V_main_arg0, h0]

/-- Supports. -/
theorem leaf1 (x1 : S32x512x512.Idx → ℝ) (h1 : m ((c : Thread nD τ).loc main_arg1) = fun j => ((x1 j : ℝ) : EReal)) (g : Fin 4) (i : Fin 512) (j : Fin 512) :
    iblk m c 1 t (ix3 g i j) = ((x1 (ix3 (⟨4 * t.val + g.val, row_lt t g⟩ : Fin 32) i j) : ℝ) : EReal) := by
  show V m c (Pipeline.arrRef spec0 1) (((cfg0.win 1).blk t).view.emb (ix3 g i j)) = _
  rw [emb_1]
  show V m c main_arg1 _ = _
  rw [V_main_arg1, h1]

/-- Masks. -/
theorem leaf2 (x2 : S32x512x1.Idx → ℝ) (h2 : m ((c : Thread nD τ).loc main_arg2) = fun j => ((x2 j : ℝ) : EReal)) (g : Fin 4) (i : Fin 512) :
    iblk m c 2 t (ix3 g i (0 : Fin 1)) = ((x2 (ix3 (⟨4 * t.val + g.val, row_lt t g⟩ : Fin 32) i (0 : Fin 1)) : ℝ) : EReal) := by
  show V m c (Pipeline.arrRef spec0 2) (((cfg0.win 2).blk t).view.emb (ix3 g i (0 : Fin 1))) = _
  rw [emb_2]
  show V m c main_arg2 _ = _
  rw [V_main_arg2, h2]

/-- Encoder weight: the argument as it is. -/
theorem leaf3 (x3 : S128x128.Idx → ℝ) (h3 : m ((c : Thread nD τ).loc main_arg3) = fun j => ((x3 j : ℝ) : EReal)) (j k : Fin 128) :
    iblk m c 3 t (ix2 j k) = ((x3 (ix2 j k) : ℝ) : EReal) := by
  show V m c (Pipeline.arrRef spec0 3) (((cfg0.win 3).blk t).view.emb (ix2 j k)) = _
  rw [emb_3]
  show V m c main_arg3 _ = _
  rw [V_main_arg3, h3]

/-- Encoder bias: the vector as a row. -/
theorem leaf4 (x4 : S128.Idx → ℝ) (h4 : m ((c : Thread nD τ).loc main_arg4) = fun j => ((x4 j : ℝ) : EReal)) (k : Fin 128) :
    iblk m c 4 t (ix2 (0 : Fin 1) k) = ((x4 (ix1 k) : ℝ) : EReal) := by
  show V m c (Pipeline.arrRef spec0 4) (((cfg0.win 4).blk t).view.emb (ix2 (0 : Fin 1) k)) = _
  rw [emb_4]
  show (V m c main_v6 : S1x128.Idx → Elt Ideal .f32) (ix2 (0 : Fin 1) k) = _
  rw [V_main_v6, row_of_vec, h4]

/-- Support-side gate weights: row `j` is the three matrices' rows `j` joined. -/
theorem leaf5 (x5 : S128x128.Idx → ℝ) (h5 : m ((c : Thread nD τ).loc main_arg5) = fun j => ((x5 j : ℝ) : EReal)) (x9 : S128x128.Idx → ℝ) (h9 : m ((c : Thread nD τ).loc main_arg9) = fun j => ((x9 j : ℝ) : EReal)) (x13 : S128x128.Idx → ℝ) (h13 : m ((c : Thread nD τ).loc main_arg13) = fun j => ((x13 j : ℝ) : EReal)) (j : Fin 128) (q : Fin 384) :
    iblk m c 5 t (ix2 j q) = ((cat3 (fun k => x5 (ix2 j k)) (fun k => x9 (ix2 j k)) (fun k => x13 (ix2 j k)) q : ℝ) : EReal) := by
  show V m c (Pipeline.arrRef spec0 5) (((cfg0.win 5).blk t).view.emb (ix2 j q)) = _
  rw [emb_5]
  show (V m c main_v0 : S128x384.Idx → Elt Ideal .f32) (ix2 j q) = _
  rw [V_main_v0, h5, h9, h13]
  rcases col384 q with ⟨k, rfl⟩ | ⟨k, rfl⟩ | ⟨k, rfl⟩
  · rw [(cat3_cols _ _ _ _ j k).1, cat3_c0]
  · rw [(cat3_cols _ _ _ _ j k).2.1, cat3_c1]
  · rw [(cat3_cols _ _ _ _ j k).2.2, cat3_c2]

/-- Support-side gate biases: the three vectors joined, as a row. -/
theorem leaf6 (x6 : S128.Idx → ℝ) (h6 : m ((c : Thread nD τ).loc main_arg6) = fun j => ((x6 j : ℝ) : EReal)) (x10 : S128.Idx → ℝ) (h10 : m ((c : Thread nD τ).loc main_arg10) = fun j => ((x10 j : ℝ) : EReal)) (x14 : S128.Idx → ℝ) (h14 : m ((c : Thread nD τ).loc main_arg14) = fun j => ((x14 j : ℝ) : EReal)) (q : Fin 384) :
    iblk m c 6 t (ix2 (0 : Fin 1) q) = ((cat3 (fun k => x6 (ix1 k)) (fun k => x10 (ix1 k)) (fun k => x14 (ix1 k)) q : ℝ) : EReal) := by
  show V m c (Pipeline.arrRef spec0 6) (((cfg0.win 6).blk t).view.emb (ix2 (0 : Fin 1) q)) = _
  rw [emb_6]
  show (V m c main_v2 : S1x384.Idx → Elt Ideal .f32) (ix2 (0 : Fin 1) q) = _
  rw [V_main_v2, h6, h10, h14]
  rcases col384 q with ⟨k, rfl⟩ | ⟨k, rfl⟩ | ⟨k, rfl⟩
  · rw [(cat3_row _ _ _ _ _ k).1, cat3_c0]
  · rw [(cat3_row _ _ _ _ _ k).2.1, cat3_c1]
  · rw [(cat3_row _ _ _ _ _ k).2.2, cat3_c2]

/-- State-side gate weights: row `j` is the two matrices' rows `j` joined. -/
theorem leaf7 (x7 : S128x128.Idx → ℝ) (h7 : m ((c : Thread nD τ).loc main_arg7) = fun j => ((x7 j : ℝ) : EReal)) (x11 : S128x128.Idx → ℝ) (h11 : m ((c : Thread nD τ).loc main_arg11) = fun j => ((x11 j : ℝ) : EReal)) (j : Fin 128) (q : Fin 256) :
    iblk m c 7 t (ix2 j q) = ((cat2 (fun k => x7 (ix2 j k)) (fun k => x11 (ix2 j k)) q : ℝ) : EReal) := by
  show V m c (Pipeline.arrRef spec0 7) (((cfg0.win 7).blk t).view.emb (ix2 j q)) = _
  rw [emb_7]
  show (V m c main_v3 : S128x256.Idx → Elt Ideal .f32) (ix2 j q) = _
  rw [V_main_v3, h7, h11]
  rcases col256 q with ⟨k, rfl⟩ | ⟨k, rfl⟩
  · rw [(cat2_cols _ _ _ j k).1, cat2_d0]
  · rw [(cat2_cols _ _ _ j k).2, cat2_d1]

/-- State-side gate biases: the two vectors joined, as a row. -/
theorem leaf8 (x8 : S128.Idx → ℝ) (h8 : m ((c : Thread nD τ).loc main_arg8) = fun j => ((x8 j : ℝ) : EReal)) (x12 : S128.Idx → ℝ) (h12 : m ((c : Thread nD τ).loc main_arg12) = fun j => ((x12 j : ℝ) : EReal)) (q : Fin 256) :
    iblk m c 8 t (ix2 (0 : Fin 1) q) = ((cat2 (fun k => x8 (ix1 k)) (fun k => x12 (ix1 k)) q : ℝ) : EReal) := by
  show V m c (Pipeline.arrRef spec0 8) (((cfg0.win 8).blk t).view.emb (ix2 (0 : Fin 1) q)) = _
  rw [emb_8]
  show (V m c main_v5 : S1x256.Idx → Elt Ideal .f32) (ix2 (0 : Fin 1) q) = _
  rw [V_main_v5, h8, h12]
  rcases col256 q with ⟨k, rfl⟩ | ⟨k, rfl⟩
  · rw [(cat2_row _ _ _ _ k).1, cat2_d0]
  · rw [(cat2_row _ _ _ _ k).2, cat2_d1]

/-- Candidate weight: the argument as it is. -/
theorem leaf9 (x15 : S128x128.Idx → ℝ) (h15 : m ((c : Thread nD τ).loc main_arg15) = fun j => ((x15 j : ℝ) : EReal)) (j k : Fin 128) :
    iblk m c 9 t (ix2 j k) = ((x15 (ix2 j k) : ℝ) : EReal) := by
  show V m c (Pipeline.arrRef spec0 9) (((cfg0.win 9).blk t).view.emb (ix2 j k)) = _
  rw [emb_9]
  show V m c main_arg15 _ = _
  rw [V_main_arg15, h15]

/-- Candidate bias: the vector as a row. -/
theorem leaf10 (x16 : S128.Idx → ℝ) (h16 : m ((c : Thread nD τ).loc main_arg16) = fun j => ((x16 j : ℝ) : EReal)) (k : Fin 128) :
    iblk m c 10 t (ix2 (0 : Fin 1) k) = ((x16 (ix1 k) : ℝ) : EReal) := by
  show V m c (Pipeline.arrRef spec0 10) (((cfg0.win 10).blk t).view.emb (ix2 (0 : Fin 1) k)) = _
  rw [emb_10]
  show (V m c main_v7 : S1x128.Idx → Elt Ideal .f32) (ix2 (0 : Fin 1) k) = _
  rw [V_main_v7, row_of_vec, h16]

end Cert.KernelIdeal.KVal

end
-- ==== Proof.PostRead.lean ====
import proofs.«106638_g44787918963399_cont_sun_c4_384_9_alg».proof.Proof.FrameIdeal

/-!
# Reading one final state

A final state that satisfies the region's post-condition holds, in the output array, what the
pipeline's write-backs put there, and, in each of the seventeen argument arrays, the launch
contents: an argument staged by an input window is as the region found it, an argument no window
stages was never touched, and the host operations write no argument.
-/

noncomputable section

namespace Cert.KernelIdeal.HandFrame

open Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The output array at the end: the result of all the write-backs. -/
theorem post11 (r : PUnit × MemSt nD τ sig (Elt F)) (h : Pipeline.FramePost cfgs (dats m) 0 (V m) r) (c : Dev nD) :
    r.2.mem ((c : Thread nD τ).loc main_v8) = (dats m 0 c).arrAt 11 cfg0.N :=
  (h c).1 11

/-- The seventeen argument arrays at the end: the launch contents. -/
theorem kept_all (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).1 9).trans (((dats m 0 c).arrAt_in 9 rfl _).trans ((A_eq m c 9).trans (V_main_arg15 m c))),
    ((h c).2 main_arg16 (Pipeline.mem_restRefs_of main_arg16 (by decide) (by decide))).trans (V_main_arg16 m c)⟩

/-- The launch memory written out. -/
theorem launch_mem (ρ : Dev nD → PrngReg) : s₀ m ρ = ⟨m, fun _ => 0, ρ⟩ := rfl

end Cert.KernelIdeal.HandFrame

end
-- ==== Proof.KFinal.lean ====
/-
  The result array after the kernel's run is the layer of the argument arrays.

  At grid point `t` the output block holds, in its slab `g`, the layer's rows of graph `4 t + g`: the blocks of
  the three batched inputs at `t` are rows `4 t … 4 t + 3` of their arrays, the weight windows are the whole
  weight arrays, and the fused windows are the concatenations made before the call, so a slab read at `(i, k)` is
  the block-level encoder and two fused steps on graph `4 t + g`, which is the layer there. The four slabs cover the
  block and the eight blocks cover the array, each written back once; so the array ends as the layer of the
  arguments, index by index.
-/
import proofs.«106638_g44787918963399_cont_sun_c4_384_9_alg».proof.Proof.KRes
import proofs.«106638_g44787918963399_cont_sun_c4_384_9_alg».proof.Proof.KLeaf
import proofs.«106638_g44787918963399_cont_sun_c4_384_9_alg».proof.Proof.KSpecB
import proofs.«106638_g44787918963399_cont_sun_c4_384_9_alg».proof.Proof.PostRead

set_option maxRecDepth 16384

noncomputable section

namespace Cert.KernelIdeal.KVal

open Cert.KernelIdeal Cert.KernelIdeal.Gen Cert.KernelIdeal.HandFrame Idealize.ShloMosaic Idealize.ShloMosaic.TcCoe Idealize.SL.Sem
open Idealize.ShloMosaic.ValueIdx Cert.GruSpec
open Idealize.ShloMosaic.Pipeline (Dat)

variable {Val : EltTy → Type} {e : EltTy}

/-- Row `g` of a `[4, 512, n]` block placed in the block: local index `(u, i, j)` sits at `(g, i, j)`. -/
theorem emb_slab {n : Nat} (g : Nat) (hg : g < 4)
    (inb : ∀ a, (![g, 0, 0] : Fin 3 → Nat) a + (⟨3, ![1, 512, n]⟩ : Shape).size a ≤ (⟨3, ![4, 512, n]⟩ : Shape).size a)
    (u : Fin 1) (i : Fin 512) (j : Fin n) :
    (Rect.unit (s := ⟨3, ![4, 512, n]⟩) ![g, 0, 0] (⟨3, ![1, 512, n]⟩ : Shape).size inb).emb (ix3 u i j) = ix3 ⟨g, hg⟩ i j := by
  funext a
  apply Fin.ext
  match a with
  | ⟨0, _⟩ => show g + 1 * u.val = g; omega
  | ⟨1, _⟩ => show 0 + 1 * i.val = i.val; omega
  | ⟨2, _⟩ => show 0 + 1 * j.val = j.val; omega

section
variable (m : (ℓ : Loc nD τ sig) → Buf (Elt Ideal) ℓ) (c : Dev nD)
  (x0 : S32x512x128.Idx → ℝ) (x1 : S32x512x512.Idx → ℝ) (x2 : S32x512x1.Idx → ℝ) (x3 : S128x128.Idx → ℝ) (x4 : S128.Idx → ℝ) (x5 : S128x128.Idx → ℝ) (x6 : S128.Idx → ℝ) (x7 : S128x128.Idx → ℝ) (x8 : S128.Idx → ℝ) (x9 : S128x128.Idx → ℝ) (x10 : S128.Idx → ℝ) (x11 : S128x128.Idx → ℝ) (x12 : S128.Idx → ℝ) (x13 : S128x128.Idx → ℝ) (x14 : S128.Idx → ℝ) (x15 : S128x128.Idx → ℝ) (x16 : S128.Idx → ℝ)
    (h0 : m ((c : Thread nD τ).loc main_arg0) = fun j => ((x0 j : ℝ) : EReal))
    (h1 : m ((c : Thread nD τ).loc main_arg1) = fun j => ((x1 j : ℝ) : EReal))
    (h2 : m ((c : Thread nD τ).loc main_arg2) = fun j => ((x2 j : ℝ) : EReal))
    (h3 : m ((c : Thread nD τ).loc main_arg3) = fun j => ((x3 j : ℝ) : EReal))
    (h4 : m ((c : Thread nD τ).loc main_arg4) = fun j => ((x4 j : ℝ) : EReal))
    (h5 : m ((c : Thread nD τ).loc main_arg5) = fun j => ((x5 j : ℝ) : EReal))
    (h6 : m ((c : Thread nD τ).loc main_arg6) = fun j => ((x6 j : ℝ) : EReal))
    (h7 : m ((c : Thread nD τ).loc main_arg7) = fun j => ((x7 j : ℝ) : EReal))
    (h8 : m ((c : Thread nD τ).loc main_arg8) = fun j => ((x8 j : ℝ) : EReal))
    (h9 : m ((c : Thread nD τ).loc main_arg9) = fun j => ((x9 j : ℝ) : EReal))
    (h10 : m ((c : Thread nD τ).loc main_arg10) = fun j => ((x10 j : ℝ) : EReal))
    (h11 : m ((c : Thread nD τ).loc main_arg11) = fun j => ((x11 j : ℝ) : EReal))
    (h12 : m ((c : Thread nD τ).loc main_arg12) = fun j => ((x12 j : ℝ) : EReal))
    (h13 : m ((c : Thread nD τ).loc main_arg13) = fun j => ((x13 j : ℝ) : EReal))
    (h14 : m ((c : Thread nD τ).loc main_arg14) = fun j => ((x14 j : ℝ) : EReal))
    (h15 : m ((c : Thread nD τ).loc main_arg15) = fun j => ((x15 j : ℝ) : EReal))
    (h16 : m ((c : Thread nD τ).loc main_arg16) = fun j => ((x16 j : ℝ) : EReal))
include h0 h1 h2 h3 h4 h5 h6 h7 h8 h9 h10 h11 h12 h13 h14 h15 h16

/-- The layer of the argument arrays, as an array of extended reals. -/
def Gfun (x0 : S32x512x128.Idx → ℝ) (x1 : S32x512x512.Idx → ℝ) (x2 : S32x512x1.Idx → ℝ) (x3 : S128x128.Idx → ℝ) (x4 : S128.Idx → ℝ) (x5 : S128x128.Idx → ℝ) (x6 : S128.Idx → ℝ) (x7 : S128x128.Idx → ℝ) (x8 : S128.Idx → ℝ) (x9 : S128x128.Idx → ℝ) (x10 : S128.Idx → ℝ) (x11 : S128x128.Idx → ℝ) (x12 : S128.Idx → ℝ) (x13 : S128x128.Idx → ℝ) (x14 : S128.Idx → ℝ) (x15 : S128x128.Idx → ℝ) (x16 : S128.Idx → ℝ) : S32x512x128.Idx → EReal :=
  fun i => ((GAt x0 x1 x2 x3 x4 x5 x6 x7 x8 x9 x10 x11 x12 x13 x14 x15 x16 i : ℝ) : EReal)

/-- Slab 0 of the output block at point `t` is the layer on graph `4 t + 0`. -/
theorem piece0 (t : Fin cfg0.N) (u : Fin 1) (i : Fin 512) (k : Fin 128) :
    res0 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k)
      = Gfun x0 x1 x2 x3 x4 x5 x6 x7 x8 x9 x10 x11 x12 x13 x14 x15 x16 (ix3 (⟨4 * t.val + 0, by have := point_lt t; omega⟩ : Fin 32) i k) := by
  refine (res0_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _
    (fun i j => leaf0 m c t x0 h0 (0 : Fin 4) i j) (fun i l => leaf1 m c t x1 h1 (0 : Fin 4) i l) (fun i => leaf2 m c t x2 h2 (0 : Fin 4) i)
    (leaf3 m c t x3 h3) (leaf4 m c t x4 h4) (leaf5 m c t x5 h5 x9 h9 x13 h13) (leaf6 m c t x6 h6 x10 h10 x14 h14) (leaf7 m c t x7 h7 x11 h11) (leaf8 m c t x8 h8 x12 h12) (leaf9 m c t x15 h15) (leaf10 m c t x16 h16) u i k).trans ?_
  exact congrArg (fun r : ℝ => (r : EReal)) (block_spec x0 x1 x2 x3 x4 x5 x6 x7 x8 x9 x10 x11 x12 x13 x14 x15 x16 _ i k)

/-- Slab 1 of the output block at point `t` is the layer on graph `4 t + 1`. -/
theorem piece1 (t : Fin cfg0.N) (u : Fin 1) (i : Fin 512) (k : Fin 128) :
    res1 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k)
      = Gfun x0 x1 x2 x3 x4 x5 x6 x7 x8 x9 x10 x11 x12 x13 x14 x15 x16 (ix3 (⟨4 * t.val + 1, by have := point_lt t; omega⟩ : Fin 32) i k) := by
  refine (res1_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _
    (fun i j => leaf0 m c t x0 h0 (1 : Fin 4) i j) (fun i l => leaf1 m c t x1 h1 (1 : Fin 4) i l) (fun i => leaf2 m c t x2 h2 (1 : Fin 4) i)
    (leaf3 m c t x3 h3) (leaf4 m c t x4 h4) (leaf5 m c t x5 h5 x9 h9 x13 h13) (leaf6 m c t x6 h6 x10 h10 x14 h14) (leaf7 m c t x7 h7 x11 h11) (leaf8 m c t x8 h8 x12 h12) (leaf9 m c t x15 h15) (leaf10 m c t x16 h16) u i k).trans ?_
  exact congrArg (fun r : ℝ => (r : EReal)) (block_spec x0 x1 x2 x3 x4 x5 x6 x7 x8 x9 x10 x11 x12 x13 x14 x15 x16 _ i k)

/-- Slab 2 of the output block at point `t` is the layer on graph `4 t + 2`. -/
theorem piece2 (t : Fin cfg0.N) (u : Fin 1) (i : Fin 512) (k : Fin 128) :
    res2 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k)
      = Gfun x0 x1 x2 x3 x4 x5 x6 x7 x8 x9 x10 x11 x12 x13 x14 x15 x16 (ix3 (⟨4 * t.val + 2, by have := point_lt t; omega⟩ : Fin 32) i k) := by
  refine (res2_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _
    (fun i j => leaf0 m c t x0 h0 (2 : Fin 4) i j) (fun i l => leaf1 m c t x1 h1 (2 : Fin 4) i l) (fun i => leaf2 m c t x2 h2 (2 : Fin 4) i)
    (leaf3 m c t x3 h3) (leaf4 m c t x4 h4) (leaf5 m c t x5 h5 x9 h9 x13 h13) (leaf6 m c t x6 h6 x10 h10 x14 h14) (leaf7 m c t x7 h7 x11 h11) (leaf8 m c t x8 h8 x12 h12) (leaf9 m c t x15 h15) (leaf10 m c t x16 h16) u i k).trans ?_
  exact congrArg (fun r : ℝ => (r : EReal)) (block_spec x0 x1 x2 x3 x4 x5 x6 x7 x8 x9 x10 x11 x12 x13 x14 x15 x16 _ i k)

/-- Slab 3 of the output block at point `t` is the layer on graph `4 t + 3`. -/
theorem piece3 (t : Fin cfg0.N) (u : Fin 1) (i : Fin 512) (k : Fin 128) :
    res3 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k)
      = Gfun x0 x1 x2 x3 x4 x5 x6 x7 x8 x9 x10 x11 x12 x13 x14 x15 x16 (ix3 (⟨4 * t.val + 3, by have := point_lt t; omega⟩ : Fin 32) i k) := by
  refine (res3_apply (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _
    (fun i j => leaf0 m c t x0 h0 (3 : Fin 4) i j) (fun i l => leaf1 m c t x1 h1 (3 : Fin 4) i l) (fun i => leaf2 m c t x2 h2 (3 : Fin 4) i)
    (leaf3 m c t x3 h3) (leaf4 m c t x4 h4) (leaf5 m c t x5 h5 x9 h9 x13 h13) (leaf6 m c t x6 h6 x10 h10 x14 h14) (leaf7 m c t x7 h7 x11 h11) (leaf8 m c t x8 h8 x12 h12) (leaf9 m c t x15 h15) (leaf10 m c t x16 h16) u i k).trans ?_
  exact congrArg (fun r : ℝ => (r : EReal)) (block_spec x0 x1 x2 x3 x4 x5 x6 x7 x8 x9 x10 x11 x12 x13 x14 x15 x16 _ i k)

/-- What point `t` writes back is block `t` of the layer. -/
theorem flushed_eq (t : Fin cfg0.N) :
    (dats m 0 c).flushed 11 t = ((cfg0.win 11).blk t).view.read (Elt Ideal) (Gfun x0 x1 x2 x3 x4 x5 x6 x7 x8 x9 x10 x11 x12 x13 x14 x15 x16) := by
  show (cfg0.win 11).cut (grid0.coords t) ((dats m 0 c).after 11 t) = _
  rw [after0_11]
  funext y
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = Gfun x0 x1 x2 x3 x4 x5 x6 x7 x8 x9 x10 x11 x12 x13 x14 x15 x16 (((cfg0.win 11).blk t).view.emb y)
  rw [emb_11 t y]
  unfold out0_11
  refine View.canon_apply_of_pieces (Val := Elt Ideal) (e := .f32)
    (fun y : S4x512x128.Idx => Gfun x0 x1 x2 x3 x4 x5 x6 x7 x8 x9 x10 x11 x12 x13 x14 x15 x16 (ix3 (⟨4 * t.val + (y 0).val, row_lt t (y 0)⟩ : Fin 32) (y 1) (y 2))) _ ?_ y
    (cover0_11 _ _ _ _ y)
  intro p hp x
  simp only [List.mem_cons, List.not_mem_nil, or_false] at hp
  rcases hp with rfl | rfl | rfl | rfl
  · obtain ⟨u, i, k, rfl⟩ : ∃ (u : Fin 1) (i : Fin 512) (k : Fin 128), x = ix3 u i k := ⟨x 0, x 1, x 2, eq_ix3 x⟩
    show res3 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k) = _
    rw [emb_slab 3 (by omega) _ u i k]
    exact piece3 m c x0 x1 x2 x3 x4 x5 x6 x7 x8 x9 x10 x11 x12 x13 x14 x15 x16 h0 h1 h2 h3 h4 h5 h6 h7 h8 h9 h10 h11 h12 h13 h14 h15 h16 t u i k
  · obtain ⟨u, i, k, rfl⟩ : ∃ (u : Fin 1) (i : Fin 512) (k : Fin 128), x = ix3 u i k := ⟨x 0, x 1, x 2, eq_ix3 x⟩
    show res2 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k) = _
    rw [emb_slab 2 (by omega) _ u i k]
    exact piece2 m c x0 x1 x2 x3 x4 x5 x6 x7 x8 x9 x10 x11 x12 x13 x14 x15 x16 h0 h1 h2 h3 h4 h5 h6 h7 h8 h9 h10 h11 h12 h13 h14 h15 h16 t u i k
  · obtain ⟨u, i, k, rfl⟩ : ∃ (u : Fin 1) (i : Fin 512) (k : Fin 128), x = ix3 u i k := ⟨x 0, x 1, x 2, eq_ix3 x⟩
    show res1 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k) = _
    rw [emb_slab 1 (by omega) _ u i k]
    exact piece1 m c x0 x1 x2 x3 x4 x5 x6 x7 x8 x9 x10 x11 x12 x13 x14 x15 x16 h0 h1 h2 h3 h4 h5 h6 h7 h8 h9 h10 h11 h12 h13 h14 h15 h16 t u i k
  · obtain ⟨u, i, k, rfl⟩ : ∃ (u : Fin 1) (i : Fin 512) (k : Fin 128), x = ix3 u i k := ⟨x 0, x 1, x 2, eq_ix3 x⟩
    show res0 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 u i k) = _
    rw [emb_slab 0 (by omega) _ u i k]
    exact piece0 m c x0 x1 x2 x3 x4 x5 x6 x7 x8 x9 x10 x11 x12 x13 x14 x15 x16 h0 h1 h2 h3 h4 h5 h6 h7 h8 h9 h10 h11 h12 h13 h14 h15 h16 t u i k

/-- The result array after the run: the layer of the argument arrays. -/
theorem final11 : (dats m 0 c).arrAt 11 cfg0.N = Gfun x0 x1 x2 x3 x4 x5 x6 x7 x8 x9 x10 x11 x12 x13 x14 x15 x16 :=
  (dats m 0 c).arrAt_eq_of_cover 11 (Gfun x0 x1 x2 x3 x4 x5 x6 x7 x8 x9 x10 x11 x12 x13 x14 x15 x16) (fun t _ => flushed_eq m c x0 x1 x2 x3 x4 x5 x6 x7 x8 x9 x10 x11 x12 x13 x14 x15 x16 h0 h1 h2 h3 h4 h5 h6 h7 h8 h9 h10 h11 h12 h13 h14 h15 h16 t) cover11

end

end Cert.KernelIdeal.KVal

end
-- ==== Proof.Finite.lean ====
/-
  Finiteness of the arguments, read off the precondition. The precondition is one bit: for each of the seventeen
  float arrays x it forms the array of bits |x i| < +∞, takes the conjunction of that array over all its indices
  (a reduction by "and" from the initial bit 1 into a result with a single index), and then takes the conjunction
  of the seventeen results. Over the extended reals |a| is max a (-a), and max a (-a) < ⊤ fails exactly at
  a = ⊤ and a = ⊥; so the bit being 1 says that every entry of every array is the image of a real number.
-/
import proofs.«106638_g44787918963399_cont_sun_c4_384_9_alg».proof.Defs
import Idealize.ShloMosaic.Lib.ReduceAll
import Idealize.ShloMosaic.Lib.ValueIdx
import Idealize.ShloMosaic.PureOps.Ideal

noncomputable section

namespace Cert.KernelIdeal.Finite

open Idealize.ShloMosaic Idealize.SL.Sem

/-- The shape with no axes has exactly one index (the empty tuple). -/
instance subsingleton_idx0 : Subsingleton (Cert.Pre_finite_inputs.S_).Idx := ⟨fun a b => funext fun d => d.elim0⟩

/-- The bit pattern with sign 0, all eight exponent bits set and a zero fraction denotes +∞. -/
theorem top_bits : Ideal.ofBits .f32 0x7F800000#32 = (⊤ : EReal) := by simp [Ideal.ofBits, Ideal.ieee]

/-- An extended real whose absolute value max a (-a) lies below ⊤ is a real number:
    at a = ⊥ the absolute value is max ⊥ ⊤ = ⊤, at a = ⊤ it is max ⊤ ⊥ = ⊤. -/
theorem real_of_abs_lt_top (a : EReal) (h : max a (-a) < ⊤) : ∃ r : ℝ, a = (r : EReal) := by
  induction a using EReal.rec with
  | bot => simp at h
  | coe r => exact ⟨r, rfl⟩
  | top => simp at h

/-- A conjunction of two one-bit arrays that is 1 at an index has both operands 1 there. -/
theorem and_at {s : Shape} {a b : IVec s 1} {j : s.Idx} (h : andi a b j = 1#1) : a j = 1#1 ∧ b j = 1#1 :=
  IntOp.andi_eq_one.1 h

/-- One array's test: if the conjunction over all indices i of the bits |x i| < +∞ is 1,
    then every entry of x is a real number. The test at index i is the bit of
    max (x i) (-(x i)) < ⊤, whatever the index, because the bound is one constant spread over the shape. -/
theorem real_of_test {s : Shape} {axes : List (Fin s.rank)} (x : FVec Ideal s .f32)
    (hb : (Cert.Pre_finite_inputs.S_).BroadcastsInDim s (![] : Fin 0 → Fin s.rank)) (hr : s.ReducesTo axes Cert.Pre_finite_inputs.S_)
    (hu : 0 < (Cert.Pre_finite_inputs.S_).numel)
    (h : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i, ∃ r : ℝ, x i = (r : EReal) := by
  intro i
  have e := Host.reduce_andi_all _ _ hr hu _ h i
  have e' : Ideal.cmp .olt (max (x i) (-(x i))) (Ideal.ofBits .f32 0x7F800000#32) = 1#1 := e
  rw [top_bits] at e'
  refine real_of_abs_lt_top _ ?_
  by_contra hn
  simp [Ideal.cmp, hn] at e'

/-- The precondition decoded: if the finiteness bit of the seventeen arrays is 1, every entry of every array
    is a real number. The bit is a left-nested conjunction ((t0 ∧ t1) ∧ t2) ∧ … ∧ t16 of the arrays' tests,
    read at the one index of the result; it is split from the outside in, and each test is one array's. -/
theorem real_of_pre [Cert.Pre_finite_inputs.Facts]
    (x0 : (⟨Cert.KernelIdeal.S32x512x128, .f32⟩ : BufTy).Contents (Elt Ideal))
    (x1 : (⟨Cert.KernelIdeal.S32x512x512, .f32⟩ : BufTy).Contents (Elt Ideal))
    (x2 : (⟨Cert.KernelIdeal.S32x512x1, .f32⟩ : BufTy).Contents (Elt Ideal))
    (x3 : (⟨Cert.KernelIdeal.S128x128, .f32⟩ : BufTy).Contents (Elt Ideal))
    (x4 : (⟨Cert.KernelIdeal.S128, .f32⟩ : BufTy).Contents (Elt Ideal))
    (x5 : (⟨Cert.KernelIdeal.S128x128, .f32⟩ : BufTy).Contents (Elt Ideal))
    (x6 : (⟨Cert.KernelIdeal.S128, .f32⟩ : BufTy).Contents (Elt Ideal))
    (x7 : (⟨Cert.KernelIdeal.S128x128, .f32⟩ : BufTy).Contents (Elt Ideal))
    (x8 : (⟨Cert.KernelIdeal.S128, .f32⟩ : BufTy).Contents (Elt Ideal))
    (x9 : (⟨Cert.KernelIdeal.S128x128, .f32⟩ : BufTy).Contents (Elt Ideal))
    (x10 : (⟨Cert.KernelIdeal.S128, .f32⟩ : BufTy).Contents (Elt Ideal))
    (x11 : (⟨Cert.KernelIdeal.S128x128, .f32⟩ : BufTy).Contents (Elt Ideal))
    (x12 : (⟨Cert.KernelIdeal.S128, .f32⟩ : BufTy).Contents (Elt Ideal))
    (x13 : (⟨Cert.KernelIdeal.S128x128, .f32⟩ : BufTy).Contents (Elt Ideal))
    (x14 : (⟨Cert.KernelIdeal.S128, .f32⟩ : BufTy).Contents (Elt Ideal))
    (x15 : (⟨Cert.KernelIdeal.S128x128, .f32⟩ : BufTy).Contents (Elt Ideal))
    (x16 : (⟨Cert.KernelIdeal.S128, .f32⟩ : BufTy).Contents (Elt Ideal))
    (h : Cert.Pre_finite_inputs.fn (F := Ideal) x0 x1 x2 x3 x4 x5 x6 x7 x8 x9 x10 x11 x12 x13 x14 x15 x16 = (fun _ => 1#1)) :
    (∀ i, ∃ r : ℝ, x0 i = (r : EReal)) ∧
    (∀ i, ∃ r : ℝ, x1 i = (r : EReal)) ∧
    (∀ i, ∃ r : ℝ, x2 i = (r : EReal)) ∧
    (∀ i, ∃ r : ℝ, x3 i = (r : EReal)) ∧
    (∀ i, ∃ r : ℝ, x4 i = (r : EReal)) ∧
    (∀ i, ∃ r : ℝ, x5 i = (r : EReal)) ∧
    (∀ i, ∃ r : ℝ, x6 i = (r : EReal)) ∧
    (∀ i, ∃ r : ℝ, x7 i = (r : EReal)) ∧
    (∀ i, ∃ r : ℝ, x8 i = (r : EReal)) ∧
    (∀ i, ∃ r : ℝ, x9 i = (r : EReal)) ∧
    (∀ i, ∃ r : ℝ, x10 i = (r : EReal)) ∧
    (∀ i, ∃ r : ℝ, x11 i = (r : EReal)) ∧
    (∀ i, ∃ r : ℝ, x12 i = (r : EReal)) ∧
    (∀ i, ∃ r : ℝ, x13 i = (r : EReal)) ∧
    (∀ i, ∃ r : ℝ, x14 i = (r : EReal)) ∧
    (∀ i, ∃ r : ℝ, x15 i = (r : EReal)) ∧
    (∀ i, ∃ r : ℝ, x16 i = (r : EReal)) := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4] at e
  obtain ⟨e, h16⟩ := and_at e
  obtain ⟨e, h15⟩ := and_at e
  obtain ⟨e, h14⟩ := and_at e
  obtain ⟨e, h13⟩ := and_at e
  obtain ⟨e, h12⟩ := and_at e
  obtain ⟨e, h11⟩ := and_at e
  obtain ⟨e, h10⟩ := and_at e
  obtain ⟨e, h9⟩ := and_at e
  obtain ⟨e, h8⟩ := and_at e
  obtain ⟨e, h7⟩ := and_at e
  obtain ⟨e, h6⟩ := and_at e
  obtain ⟨e, h5⟩ := and_at e
  obtain ⟨e, h4⟩ := and_at e
  obtain ⟨e, h3⟩ := and_at e
  obtain ⟨e, h2⟩ := and_at e
  obtain ⟨e, h1⟩ := and_at e
  exact ⟨real_of_test x0 _ _ _ e,
    real_of_test x1 _ _ _ h1,
    real_of_test x2 _ _ _ h2,
    real_of_test x3 _ _ _ h3,
    real_of_test x4 _ _ _ h4,
    real_of_test x5 _ _ _ h5,
    real_of_test x6 _ _ _ h6,
    real_of_test x7 _ _ _ h7,
    real_of_test x8 _ _ _ h8,
    real_of_test x9 _ _ _ h9,
    real_of_test x10 _ _ _ h10,
    real_of_test x11 _ _ _ h11,
    real_of_test x12 _ _ _ h12,
    real_of_test x13 _ _ _ h13,
    real_of_test x14 _ _ _ h14,
    real_of_test x15 _ _ _ h15,
    real_of_test x16 _ _ _ h16⟩

end Cert.KernelIdeal.Finite

end
-- ==== Proof.RefValue.lean ====
/-
  The reference program read at the extended reals computes the layer of Spec.lean.

  Every argument array is the image of an array of reals, and every operation of the program
  (a contraction, a sum, a product, a difference, a maximum with zero, the logistic quotient
  1 / (1 + e^{-t})) sends images of reals to the image of the corresponding real expression:
  a finite sum of products of reals is real, 1 + e^{-t} is a positive real so the quotient is
  its real inverse, and the maximum of two reals is real. So the proof never meets an infinity.

  The program is the encoder followed by the same gated step twice. The step is written once
  as a function of the carried array (stepE below); the two occurrences in the program are
  that function applied to the encoder's output and to the first step's output. Its value on
  the image of a real array is computed once (stepE_flat) and used twice.
-/
import proofs.«106638_g44787918963399_cont_sun_c4_384_9_alg».proof.Proof.Gen.ReferenceIdeal.Read
import proofs.«106638_g44787918963399_cont_sun_c4_384_9_alg».proof.Proof.SpecArgs
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-! ## Real arrays inside the extended reals -/

/-- An array of reals as an array of extended reals. -/
def up {s : Shape} (f : s.Idx → ℝ) : FVec Ideal s .f32 := fun j => ((f j : ℝ) : EReal)

/-- A curried array of the batch, as a function of the index of the shape [32, 512, 128]. -/
def flat (o : GruSpec.Arr3 128) : S32x512x128.Idx → ℝ := fun j => o (j 0) (j 1) (j 2)

/-- Currying an indexed array and reading it back by the index gives the array. -/
theorem flat_arr3 (x : S32x512x128.Idx → ℝ) : flat (GruSpec.arr3 x) = x :=
  funext fun j => congrArg x (eq_ix3 j).symm

/-- The inclusion of the reals commutes with finite sums. -/
theorem coe_sum {ι : Type} (s : Finset ι) (f : ι → ℝ) :
    ((∑ k ∈ s, f k : ℝ) : EReal) = ∑ k ∈ s, ((f k : ℝ) : EReal) :=
  map_sum (⟨⟨Real.toEReal, EReal.coe_zero⟩, EReal.coe_add⟩ : ℝ →+ EReal) f s

/-- A sum of products of images of reals is the image of the real sum of products. -/
theorem sum_coe_mul {n : Nat} (p q : Fin n → ℝ) :
    ∑ k : Fin n, ((p k : ℝ) : EReal) * ((q k : ℝ) : EReal) = ((∑ k : Fin n, p k * q k : ℝ) : EReal) := by
  rw [coe_sum]
  exact Finset.sum_congr rfl fun k _ => (EReal.coe_mul _ _).symm

/-! ## The program's operations, as functions of arrays of extended reals -/

/-- The splat of the constant one. -/
def oneE : FVec Ideal S32x512x128 .f32 := val_main_v19 (F := Ideal)

/-- The splat of the constant zero. -/
def zeroE : FVec Ideal S32x512x128 .f32 := val_main_call0_v0 (F := Ideal)

/-- A dense layer on the feature axis: the contraction with the weights plus the bias along graphs and nodes. -/
def linE (u : FVec Ideal S32x512x128 .f32) (w : FVec Ideal S128x128 .f32) (b : FVec Ideal S128 .f32) :
    FVec Ideal S32x512x128 .f32 :=
  addf (F := Ideal) (φ := .f32) (val_main_v0 (F := Ideal) u w) (val_main_v2 (F := Ideal) b)

/-- Aggregation over each graph: the batched contraction of the support with the carried array. -/
def aggE (s : FVec Ideal S32x512x512 .f32) (u : FVec Ideal S32x512x128 .f32) : FVec Ideal S32x512x128 .f32 :=
  Host.dotGeneral (F := Ideal) (φ₁ := .f32) (φ₂ := .f32) dot_S32x512x512_S32x512x128_S32x512x128_2_1_1_2_0_0 none s u

/-- The logistic quotient 1 / (1 + e^{-t}), entry by entry. -/
def sigE (t : FVec Ideal S32x512x128 .f32) : FVec Ideal S32x512x128 .f32 :=
  Host.divf (F := Ideal) (φ := .f32) oneE
    (addf (F := Ideal) (φ := .f32) oneE (Host.exp (F := Ideal) (φ := .f32) (Host.negf (F := Ideal) (φ := .f32) t)))

/-- The maximum with zero, entry by entry. -/
def reluE (t : FVec Ideal S32x512x128 .f32) : FVec Ideal S32x512x128 .f32 :=
  maximumf (F := Ideal) (φ := .f32) t zeroE

/-- The node mask repeated along the feature axis. -/
def maskE (m : FVec Ideal S32x512x1 .f32) : FVec Ideal S32x512x128 .f32 := val_main_v5 (F := Ideal) m

/-- The encoder. -/
def encE (x : FVec Ideal S32x512x128 .f32) (m : FVec Ideal S32x512x1 .f32) (w : FVec Ideal S128x128 .f32)
    (b : FVec Ideal S128 .f32) : FVec Ideal S32x512x128 .f32 :=
  mulf (F := Ideal) (φ := .f32) (maskE m) (reluE (linE x w b))

/-- A gate: the logistic of the sum of a dense layer of the aggregate and a dense layer of the carried array. -/
def gateE (s : FVec Ideal S32x512x512 .f32) (w0 : FVec Ideal S128x128 .f32) (b0 : FVec Ideal S128 .f32)
    (w1 : FVec Ideal S128x128 .f32) (b1 : FVec Ideal S128 .f32) (u : FVec Ideal S32x512x128 .f32) :
    FVec Ideal S32x512x128 .f32 :=
  sigE (addf (F := Ideal) (φ := .f32) (linE (aggE s u) w0 b0) (linE u w1 b1))

/-- The candidate state. -/
def candE (s : FVec Ideal S32x512x512 .f32) (m : FVec Ideal S32x512x1 .f32)
    (wr0 : FVec Ideal S128x128 .f32) (br0 : FVec Ideal S128 .f32) (wr1 : FVec Ideal S128x128 .f32) (br1 : FVec Ideal S128 .f32)
    (wh0 : FVec Ideal S128x128 .f32) (bh0 : FVec Ideal S128 .f32) (wh1 : FVec Ideal S128x128 .f32) (bh1 : FVec Ideal S128 .f32)
    (u : FVec Ideal S32x512x128 .f32) : FVec Ideal S32x512x128 .f32 :=
  reluE (mulf (F := Ideal) (φ := .f32) (maskE m)
    (addf (F := Ideal) (φ := .f32) (linE (aggE s u) wh0 bh0)
      (linE (mulf (F := Ideal) (φ := .f32) (gateE s wr0 br0 wr1 br1 u) u) wh1 bh1)))

/-- One gated step, in the program's arrangement: candidate times gate plus carried times (one minus gate). -/
def stepE (s : FVec Ideal S32x512x512 .f32) (m : FVec Ideal S32x512x1 .f32)
    (wz0 : FVec Ideal S128x128 .f32) (bz0 : FVec Ideal S128 .f32) (wz1 : FVec Ideal S128x128 .f32) (bz1 : FVec Ideal S128 .f32)
    (wr0 : FVec Ideal S128x128 .f32) (br0 : FVec Ideal S128 .f32) (wr1 : FVec Ideal S128x128 .f32) (br1 : FVec Ideal S128 .f32)
    (wh0 : FVec Ideal S128x128 .f32) (bh0 : FVec Ideal S128 .f32) (wh1 : FVec Ideal S128x128 .f32) (bh1 : FVec Ideal S128 .f32)
    (u : FVec Ideal S32x512x128 .f32) : FVec Ideal S32x512x128 .f32 :=
  addf (F := Ideal) (φ := .f32)
    (mulf (F := Ideal) (φ := .f32) (candE s m wr0 br0 wr1 br1 wh0 bh0 wh1 bh1 u) (gateE s wz0 bz0 wz1 bz1 u))
    (mulf (F := Ideal) (φ := .f32) u (subf (F := Ideal) (φ := .f32) oneE (gateE s wz0 bz0 wz1 bz1 u)))

/-! ## The program is the encoder followed by the step twice -/

theorem v6_eq (x0 : FVec Ideal S32x512x128 .f32) (x2 : FVec Ideal S32x512x1 .f32) (x3 : FVec Ideal S128x128 .f32)
    (x4 : FVec Ideal S128 .f32) :
    val_main_v6 (F := Ideal) x0 x2 x3 x4 = encE x0 x2 x3 x4 := rfl

theorem v55_eq (x0 : FVec Ideal S32x512x128 .f32) (x1 : FVec Ideal S32x512x512 .f32) (x2 : FVec Ideal S32x512x1 .f32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 : FVec Ideal S128 .f32) (x13 : FVec Ideal S128x128 .f32) (x14 : FVec Ideal S128 .f32)
    (x15 : FVec Ideal S128x128 .f32) (x16 : FVec Ideal S128 .f32) :
    val_main_v55 (F := Ideal) x0 x1 x2 x3 x4 x5 x6 x7 x8 x9 x10 x11 x12 x13 x14 x15 x16
      = stepE x1 x2 x5 x6 x7 x8 x9 x10 x11 x12 x13 x14 x15 x16 (val_main_v6 (F := Ideal) x0 x2 x3 x4) := rfl

theorem v104_eq (x0 : FVec Ideal S32x512x128 .f32) (x1 : FVec Ideal S32x512x512 .f32) (x2 : FVec Ideal S32x512x1 .f32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x128 .f32) (x12 : FVec Ideal S128 .f32) (x13 : FVec Ideal S128x128 .f32) (x14 : FVec Ideal S128 .f32)
    (x15 : FVec Ideal S128x128 .f32) (x16 : FVec Ideal S128 .f32) :
    val_main_v104 (F := Ideal) x0 x1 x2 x3 x4 x5 x6 x7 x8 x9 x10 x11 x12 x13 x14 x15 x16
      = stepE x1 x2 x5 x6 x7 x8 x9 x10 x11 x12 x13 x14 x15 x16
          (val_main_v55 (F := Ideal) x0 x1 x2 x3 x4 x5 x6 x7 x8 x9 x10 x11 x12 x13 x14 x15 x16) := rfl

/-! ## Each operation on images of real arrays -/

theorem oneE_apply (j : S32x512x128.Idx) : oneE j = 1 := by
  unfold oneE
  rw [val_main_v19_apply, val_main_cst_apply]
  exact IdealRules.sign_bit.ideal_onePat .f32

theorem zeroE_apply (j : S32x512x128.Idx) : zeroE j = 0 := by
  unfold zeroE
  rw [val_main_call0_v0_apply, val_main_call0_cst_apply]
  exact Ideal.ofBits_zero_f32

theorem addf_up {s : Shape} (f g : s.Idx → ℝ) :
    addf (F := Ideal) (φ := .f32) (up f) (up g) = up (fun j => f j + g j) :=
  funext fun j => (EReal.coe_add (f j) (g j)).symm

theorem mulf_up {s : Shape} (f g : s.Idx → ℝ) :
    mulf (F := Ideal) (φ := .f32) (up f) (up g) = up (fun j => f j * g j) :=
  funext fun j => (EReal.coe_mul (f j) (g j)).symm

/-- One minus the image of a real is the image of one minus it. -/
theorem one_sub_up (f : S32x512x128.Idx → ℝ) :
    subf (F := Ideal) (φ := .f32) oneE (up f) = up (fun j => 1 - f j) := by
  funext j
  show (oneE j : EReal) - ((f j : ℝ) : EReal) = ((1 - f j : ℝ) : EReal)
  rw [oneE_apply, EReal.coe_sub, EReal.coe_one]

/-- The maximum of the image of a real with zero is the image of the real maximum: the inclusion is monotone. -/
theorem reluE_up (f : S32x512x128.Idx → ℝ) : reluE (up f) = up (fun j => max (f j) 0) := by
  funext j
  show max ((f j : ℝ) : EReal) (zeroE j) = ((max (f j) 0 : ℝ) : EReal)
  rw [zeroE_apply, ← EReal.coe_zero]
  exact (EReal.coe_strictMono.monotone.map_max).symm

/-- The logistic quotient of the image of a real: 1 + e^{-t} is a positive real, so the quotient is the image of
    its real inverse. -/
theorem sigE_up (f : S32x512x128.Idx → ℝ) : sigE (up f) = up (fun j => GruSpec.sig (f j)) := by
  funext j
  show FloatOps.hostDivf (F := Ideal) (φ := .f32) (oneE j)
      (FloatOps.addf (F := Ideal) (φ := .f32) (oneE j)
        (FloatOps.hostUnary (F := Ideal) (φ := .f32) .exp (FloatOps.hostNegf (F := Ideal) (φ := .f32) ((f j : ℝ) : EReal))))
    = (((1 + Real.exp (-(f j)))⁻¹ : ℝ) : EReal)
  rw [oneE_apply]
  exact Ideal.logistic_coe (f j)

/-- The bias repeated along graphs and nodes reads the bias at the feature coordinate. -/
theorem bias_up (b : S128.Idx → ℝ) :
    val_main_v2 (F := Ideal) (up b) = up (fun j => b (ix1 (j 2 : Fin 128))) := by
  funext j
  rw [val_main_v2_apply, val_main_v1_apply]
  exact congrArg (fun a => ((b a : ℝ) : EReal)) (funext fun a => by match a with | ⟨0, _⟩ => rfl)

/-- The mask repeated along features reads the mask at the graph and node coordinates. -/
theorem maskE_up (m : S32x512x1.Idx → ℝ) :
    maskE (up m) = up (fun j => m (ix3 (j 0 : Fin 32) (j 1 : Fin 512) (0 : Fin 1))) := by
  funext j
  unfold maskE
  rw [val_main_v5_apply]
  exact congrArg (fun a => ((m a : ℝ) : EReal))
    (funext fun a => by match a with | ⟨0, _⟩ => rfl | ⟨1, _⟩ => rfl | ⟨2, _⟩ => rfl)

/-- A contraction of the feature axis with a weight matrix, on images of reals, entry (g, i, k): the real sum over j
    of the array at (g, i, j) times the weight at (j, k). -/
theorem dense_up (f : S32x512x128.Idx → ℝ) (w : S128x128.Idx → ℝ) :
    val_main_v0 (F := Ideal) (up f) (up w)
      = up (fun j => ∑ k : Fin 128, f (ix3 (j 0 : Fin 32) (j 1 : Fin 512) k) * w (ix2 k (j 2 : Fin 128))) := by
  funext j
  rw [val_main_v0_apply]
  have hl : ∀ k : Fin 128, lidx_main_v0 j k = ix3 (j 0 : Fin 32) (j 1 : Fin 512) k := fun k =>
    funext fun a => by match a with | ⟨0, _⟩ => rfl | ⟨1, _⟩ => rfl | ⟨2, _⟩ => rfl
  have hr : ∀ k : Fin 128, ridx_main_v0 j k = ix2 k (j 2 : Fin 128) := fun k =>
    funext fun a => by match a with | ⟨0, _⟩ => rfl | ⟨1, _⟩ => rfl
  show ∑ k : Fin 128, ((f (lidx_main_v0 j k) : ℝ) : EReal) * ((w (ridx_main_v0 j k) : ℝ) : EReal)
    = ((∑ k : Fin 128, f (ix3 (j 0 : Fin 32) (j 1 : Fin 512) k) * w (ix2 k (j 2 : Fin 128)) : ℝ) : EReal)
  rw [← sum_coe_mul]
  refine Finset.sum_congr rfl fun k _ => ?_
  rw [hl k, hr k]
  rfl

/-- The batched contraction read at (g, i, k): the sum over the nodes l of the left array at (g, i, l) times the right
    array at (g, l, k). -/
theorem aggE_apply (s : FVec Ideal S32x512x512 .f32) (u : FVec Ideal S32x512x128 .f32) (j : S32x512x128.Idx) :
    aggE s u j = ∑ l : Fin 512, s (ix3 (j 0 : Fin 32) (j 1 : Fin 512) l) * u (ix3 (j 0 : Fin 32) l (j 2 : Fin 128)) := by
  unfold aggE
  simp only [Host.dotGeneral]
  rw [Ideal.dotGeneral_apply,
    ← Equiv.sum_comp (contrEquiv1 dot_S32x512x512_S32x512x128_S32x512x128_2_1_1_2_0_0 512 rfl rfl).symm]
  refine Finset.sum_congr rfl fun l _ => ?_
  have hl := contrEquiv1_symm_val dot_S32x512x512_S32x512x128_S32x512x128_2_1_1_2_0_0 512 rfl rfl l
  have e1 : dot_S32x512x512_S32x512x128_S32x512x128_2_1_1_2_0_0.lhsIdx j
      ((contrEquiv1 dot_S32x512x512_S32x512x128_S32x512x128_2_1_1_2_0_0 512 rfl rfl).symm l)
      = ix3 (j 0 : Fin 32) (j 1 : Fin 512) l :=
    funext fun a => Fin.ext (by
      match a with
      | ⟨0, _⟩ => exact lhs_main_v7_0 _ _
      | ⟨1, _⟩ => exact lhs_main_v7_1 _ _
      | ⟨2, _⟩ => exact (lhs_main_v7_2 _ _).trans hl)
  have e2 : dot_S32x512x512_S32x512x128_S32x512x128_2_1_1_2_0_0.rhsIdx j
      ((contrEquiv1 dot_S32x512x512_S32x512x128_S32x512x128_2_1_1_2_0_0 512 rfl rfl).symm l)
      = ix3 (j 0 : Fin 32) l (j 2 : Fin 128) :=
    funext fun a => Fin.ext (by
      match a with
      | ⟨0, _⟩ => exact rhs_main_v7_0 _ _
      | ⟨1, _⟩ => exact (rhs_main_v7_1 _ _).trans hl
      | ⟨2, _⟩ => exact rhs_main_v7_2 _ _)
  rw [e1, e2]
  rfl

/-! ## The stages on the image of a real array, in the spec's words -/

/-- Aggregation of the image of a real array is the image of the spec's aggregation. -/
theorem agg_flat (s : S32x512x512.Idx → ℝ) (o : GruSpec.Arr3 128) :
    aggE (up s) (up (flat o)) = up (flat (GruSpec.agg (GruSpec.arr3 s) o)) := by
  funext j
  rw [aggE_apply]
  exact sum_coe_mul (fun l => s (ix3 (j 0 : Fin 32) (j 1 : Fin 512) l))
    (fun l => flat o (ix3 (j 0 : Fin 32) l (j 2 : Fin 128)))

/-- A dense layer of the image of a real array is the image of the spec's dense layer. -/
theorem lin_flat (o : GruSpec.Arr3 128) (w : S128x128.Idx → ℝ) (b : S128.Idx → ℝ) :
    linE (up (flat o)) (up w) (up b) = up (flat (GruSpec.lin o (GruSpec.arr2 w) (GruSpec.arr1 b))) := by
  unfold linE
  rw [dense_up, bias_up, addf_up]
  rfl

/-- The encoder on images of reals is the image of the spec's encoder. -/
theorem encE_flat (o : GruSpec.Arr3 128) (m : S32x512x1.Idx → ℝ) (w : S128x128.Idx → ℝ) (b : S128.Idx → ℝ) :
    encE (up (flat o)) (up m) (up w) (up b)
      = up (flat (GruSpec.enc o (GruSpec.maskOf m) (GruSpec.arr2 w) (GruSpec.arr1 b))) := by
  unfold encE
  rw [lin_flat, reluE_up, maskE_up, mulf_up]
  rfl

/-- A gate on images of reals: the real logistic of the sum of the two real dense layers. -/
theorem gateE_flat (s : S32x512x512.Idx → ℝ) (w0 : S128x128.Idx → ℝ) (b0 : S128.Idx → ℝ) (w1 : S128x128.Idx → ℝ)
    (b1 : S128.Idx → ℝ) (o : GruSpec.Arr3 128) :
    gateE (up s) (up w0) (up b0) (up w1) (up b1) (up (flat o))
      = up (flat (fun g i k => GruSpec.sig
          (GruSpec.lin (GruSpec.agg (GruSpec.arr3 s) o) (GruSpec.arr2 w0) (GruSpec.arr1 b0) g i k
            + GruSpec.lin o (GruSpec.arr2 w1) (GruSpec.arr1 b1) g i k))) := by
  unfold gateE
  rw [agg_flat, lin_flat, lin_flat, addf_up, sigE_up]
  rfl

section Step
variable (x1 : S32x512x512.Idx → ℝ) (x2 : S32x512x1.Idx → ℝ) (x5 : S128x128.Idx → ℝ) (x6 : S128.Idx → ℝ)
    (x7 : S128x128.Idx → ℝ) (x8 : S128.Idx → ℝ) (x9 : S128x128.Idx → ℝ) (x10 : S128.Idx → ℝ)
    (x11 : S128x128.Idx → ℝ) (x12 : S128.Idx → ℝ) (x13 : S128x128.Idx → ℝ) (x14 : S128.Idx → ℝ)
    (x15 : S128x128.Idx → ℝ) (x16 : S128.Idx → ℝ)

local notation "PP" => GruSpec.paramsOf x1 x2 x5 x6 x7 x8 x9 x10 x11 x12 x13 x14 x15 x16

/-- The candidate on images of reals is the image of the spec's candidate. -/
theorem candE_flat (o : GruSpec.Arr3 128) :
    candE (up x1) (up x2) (up x9) (up x10) (up x11) (up x12) (up x13) (up x14) (up x15) (up x16) (up (flat o))
      = up (flat (GruSpec.cand PP o)) := by
  have hro : mulf (F := Ideal) (φ := .f32) (up (flat (GruSpec.rgate PP o))) (up (flat o))
      = up (flat (fun g i k => GruSpec.rgate PP o g i k * o g i k)) := by
    rw [mulf_up]; rfl
  have hr : gateE (up x1) (up x9) (up x10) (up x11) (up x12) (up (flat o)) = up (flat (GruSpec.rgate PP o)) :=
    gateE_flat x1 x9 x10 x11 x12 o
  unfold candE
  rw [hr, hro, agg_flat, lin_flat, lin_flat, addf_up, maskE_up, mulf_up, reluE_up]
  rfl

/-- One step on the image of a real array is the image of the spec's step. -/
theorem stepE_flat (o : GruSpec.Arr3 128) :
    stepE (up x1) (up x2) (up x5) (up x6) (up x7) (up x8) (up x9) (up x10) (up x11) (up x12) (up x13) (up x14) (up x15)
        (up x16) (up (flat o))
      = up (flat (GruSpec.step PP o)) := by
  have hz : gateE (up x1) (up x5) (up x6) (up x7) (up x8) (up (flat o)) = up (flat (GruSpec.zgate PP o)) :=
    gateE_flat x1 x5 x6 x7 x8 o
  unfold stepE
  rw [candE_flat, hz, mulf_up, one_sub_up, mulf_up, addf_up]
  rfl

end Step

/-! ## The program's result -/

/-- The reference program on the images of seventeen real arrays returns, at every index, the image of the layer of
    the spec: the encoder's output is the image of a real array, and each of the two steps sends the image of a real
    array to the image of the spec's step of it. -/
theorem ref_value (x0 : S32x512x128.Idx → ℝ) (x1 : S32x512x512.Idx → ℝ) (x2 : S32x512x1.Idx → ℝ)
    (x3 : S128x128.Idx → ℝ) (x4 : S128.Idx → ℝ) (x5 : S128x128.Idx → ℝ) (x6 : S128.Idx → ℝ)
    (x7 : S128x128.Idx → ℝ) (x8 : S128.Idx → ℝ) (x9 : S128x128.Idx → ℝ) (x10 : S128.Idx → ℝ)
    (x11 : S128x128.Idx → ℝ) (x12 : S128.Idx → ℝ) (x13 : S128x128.Idx → ℝ) (x14 : S128.Idx → ℝ)
    (x15 : S128x128.Idx → ℝ) (x16 : S128.Idx → ℝ) (i : S32x512x128.Idx) :
    Read.val_main_v104 (F := Ideal) (fun j => ((x0 j : ℝ) : EReal)) (fun j => ((x1 j : ℝ) : EReal))
        (fun j => ((x2 j : ℝ) : EReal)) (fun j => ((x3 j : ℝ) : EReal)) (fun j => ((x4 j : ℝ) : EReal))
        (fun j => ((x5 j : ℝ) : EReal)) (fun j => ((x6 j : ℝ) : EReal)) (fun j => ((x7 j : ℝ) : EReal))
        (fun j => ((x8 j : ℝ) : EReal)) (fun j => ((x9 j : ℝ) : EReal)) (fun j => ((x10 j : ℝ) : EReal))
        (fun j => ((x11 j : ℝ) : EReal)) (fun j => ((x12 j : ℝ) : EReal)) (fun j => ((x13 j : ℝ) : EReal))
        (fun j => ((x14 j : ℝ) : EReal)) (fun j => ((x15 j : ℝ) : EReal)) (fun j => ((x16 j : ℝ) : EReal)) i
      = ((Cert.GruSpec.GAt x0 x1 x2 x3 x4 x5 x6 x7 x8 x9 x10 x11 x12 x13 x14 x15 x16 i : ℝ) : EReal) := by
  have h6 : val_main_v6 (F := Ideal) (up x0) (up x2) (up x3) (up x4)
      = up (flat (GruSpec.enc (GruSpec.arr3 x0) (GruSpec.maskOf x2) (GruSpec.arr2 x3) (GruSpec.arr1 x4))) := by
    have h := encE_flat (GruSpec.arr3 x0) x2 x3 x4
    rw [flat_arr3] at h
    exact h
  have h55 : val_main_v55 (F := Ideal) (up x0) (up x1) (up x2) (up x3) (up x4) (up x5) (up x6) (up x7) (up x8) (up x9)
        (up x10) (up x11) (up x12) (up x13) (up x14) (up x15) (up x16)
      = up (flat (GruSpec.step (GruSpec.paramsOf x1 x2 x5 x6 x7 x8 x9 x10 x11 x12 x13 x14 x15 x16)
          (GruSpec.enc (GruSpec.arr3 x0) (GruSpec.maskOf x2) (GruSpec.arr2 x3) (GruSpec.arr1 x4)))) := by
    rw [v55_eq, h6]
    exact stepE_flat x1 x2 x5 x6 x7 x8 x9 x10 x11 x12 x13 x14 x15 x16 _
  have h104 : val_main_v104 (F := Ideal) (up x0) (up x1) (up x2) (up x3) (up x4) (up x5) (up x6) (up x7) (up x8) (up x9)
        (up x10) (up x11) (up x12) (up x13) (up x14) (up x15) (up x16)
      = up (flat (GruSpec.step (GruSpec.paramsOf x1 x2 x5 x6 x7 x8 x9 x10 x11 x12 x13 x14 x15 x16)
          (GruSpec.step (GruSpec.paramsOf x1 x2 x5 x6 x7 x8 x9 x10 x11 x12 x13 x14 x15 x16)
            (GruSpec.enc (GruSpec.arr3 x0) (GruSpec.maskOf x2) (GruSpec.arr2 x3) (GruSpec.arr1 x4))))) := by
    rw [v104_eq, h55]
    exact stepE_flat x1 x2 x5 x6 x7 x8 x9 x10 x11 x12 x13 x14 x15 x16 _
  exact congrFun h104 i

end Cert.ReferenceIdeal.RefValue

end
-- ==== Proof.RefRun.lean ====
/-
  The reference program's run, in the spec's words: started from a memory whose seventeen argument arrays are, on
  each device, the images of real arrays, every fair execution ends with the result array equal, entry by entry, to
  the image of the layer of Spec.lean of that device's arrays, and with the arguments unchanged. The run itself ends
  with the result at the composed term of the program's operations; that term is the last stage, and the last stage
  on images of reals is the image of the layer (ref_value).
-/
import proofs.«106638_g44787918963399_cont_sun_c4_384_9_alg».proof.Proof.RefValue

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- From a memory whose argument arrays are, on each device, the images of real arrays, the program ends with its
    result the image of the spec's layer of that device's arrays, and its arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (x0 : Dev Cert.ReferenceIdeal.nD → S32x512x128.Idx → ℝ) (x1 : Dev Cert.ReferenceIdeal.nD → S32x512x512.Idx → ℝ)
    (x2 : Dev Cert.ReferenceIdeal.nD → S32x512x1.Idx → ℝ) (x3 : Dev Cert.ReferenceIdeal.nD → S128x128.Idx → ℝ)
    (x4 : Dev Cert.ReferenceIdeal.nD → S128.Idx → ℝ) (x5 : Dev Cert.ReferenceIdeal.nD → S128x128.Idx → ℝ)
    (x6 : Dev Cert.ReferenceIdeal.nD → S128.Idx → ℝ) (x7 : Dev Cert.ReferenceIdeal.nD → S128x128.Idx → ℝ)
    (x8 : Dev Cert.ReferenceIdeal.nD → S128.Idx → ℝ) (x9 : Dev Cert.ReferenceIdeal.nD → S128x128.Idx → ℝ)
    (x10 : Dev Cert.ReferenceIdeal.nD → S128.Idx → ℝ) (x11 : Dev Cert.ReferenceIdeal.nD → S128x128.Idx → ℝ)
    (x12 : Dev Cert.ReferenceIdeal.nD → S128.Idx → ℝ) (x13 : Dev Cert.ReferenceIdeal.nD → S128x128.Idx → ℝ)
    (x14 : Dev Cert.ReferenceIdeal.nD → S128.Idx → ℝ) (x15 : Dev Cert.ReferenceIdeal.nD → S128x128.Idx → ℝ)
    (x16 : Dev Cert.ReferenceIdeal.nD → S128.Idx → ℝ)
    (h0 : ∀ c : Dev Cert.ReferenceIdeal.nD, m' ((c.tc : Thread Cert.ReferenceIdeal.nD Cert.ReferenceIdeal.τ).loc Cert.ReferenceIdeal.main_arg0) = fun j => ((x0 c j : ℝ) : EReal))
    (h1 : ∀ c : Dev Cert.ReferenceIdeal.nD, m' ((c.tc : Thread Cert.ReferenceIdeal.nD Cert.ReferenceIdeal.τ).loc Cert.ReferenceIdeal.main_arg1) = fun j => ((x1 c j : ℝ) : EReal))
    (h2 : ∀ c : Dev Cert.ReferenceIdeal.nD, m' ((c.tc : Thread Cert.ReferenceIdeal.nD Cert.ReferenceIdeal.τ).loc Cert.ReferenceIdeal.main_arg2) = fun j => ((x2 c j : ℝ) : EReal))
    (h3 : ∀ c : Dev Cert.ReferenceIdeal.nD, m' ((c.tc : Thread Cert.ReferenceIdeal.nD Cert.ReferenceIdeal.τ).loc Cert.ReferenceIdeal.main_arg3) = fun j => ((x3 c j : ℝ) : EReal))
    (h4 : ∀ c : Dev Cert.ReferenceIdeal.nD, m' ((c.tc : Thread Cert.ReferenceIdeal.nD Cert.ReferenceIdeal.τ).loc Cert.ReferenceIdeal.main_arg4) = fun j => ((x4 c j : ℝ) : EReal))
    (h5 : ∀ c : Dev Cert.ReferenceIdeal.nD, m' ((c.tc : Thread Cert.ReferenceIdeal.nD Cert.ReferenceIdeal.τ).loc Cert.ReferenceIdeal.main_arg5) = fun j => ((x5 c j : ℝ) : EReal))
    (h6 : ∀ c : Dev Cert.ReferenceIdeal.nD, m' ((c.tc : Thread Cert.ReferenceIdeal.nD Cert.ReferenceIdeal.τ).loc Cert.ReferenceIdeal.main_arg6) = fun j => ((x6 c j : ℝ) : EReal))
    (h7 : ∀ c : Dev Cert.ReferenceIdeal.nD, m' ((c.tc : Thread Cert.ReferenceIdeal.nD Cert.ReferenceIdeal.τ).loc Cert.ReferenceIdeal.main_arg7) = fun j => ((x7 c j : ℝ) : EReal))
    (h8 : ∀ c : Dev Cert.ReferenceIdeal.nD, m' ((c.tc : Thread Cert.ReferenceIdeal.nD Cert.ReferenceIdeal.τ).loc Cert.ReferenceIdeal.main_arg8) = fun j => ((x8 c j : ℝ) : EReal))
    (h9 : ∀ c : Dev Cert.ReferenceIdeal.nD, m' ((c.tc : Thread Cert.ReferenceIdeal.nD Cert.ReferenceIdeal.τ).loc Cert.ReferenceIdeal.main_arg9) = fun j => ((x9 c j : ℝ) : EReal))
    (h10 : ∀ c : Dev Cert.ReferenceIdeal.nD, m' ((c.tc : Thread Cert.ReferenceIdeal.nD Cert.ReferenceIdeal.τ).loc Cert.ReferenceIdeal.main_arg10) = fun j => ((x10 c j : ℝ) : EReal))
    (h11 : ∀ c : Dev Cert.ReferenceIdeal.nD, m' ((c.tc : Thread Cert.ReferenceIdeal.nD Cert.ReferenceIdeal.τ).loc Cert.ReferenceIdeal.main_arg11) = fun j => ((x11 c j : ℝ) : EReal))
    (h12 : ∀ c : Dev Cert.ReferenceIdeal.nD, m' ((c.tc : Thread Cert.ReferenceIdeal.nD Cert.ReferenceIdeal.τ).loc Cert.ReferenceIdeal.main_arg12) = fun j => ((x12 c j : ℝ) : EReal))
    (h13 : ∀ c : Dev Cert.ReferenceIdeal.nD, m' ((c.tc : Thread Cert.ReferenceIdeal.nD Cert.ReferenceIdeal.τ).loc Cert.ReferenceIdeal.main_arg13) = fun j => ((x13 c j : ℝ) : EReal))
    (h14 : ∀ c : Dev Cert.ReferenceIdeal.nD, m' ((c.tc : Thread Cert.ReferenceIdeal.nD Cert.ReferenceIdeal.τ).loc Cert.ReferenceIdeal.main_arg14) = fun j => ((x14 c j : ℝ) : EReal))
    (h15 : ∀ c : Dev Cert.ReferenceIdeal.nD, m' ((c.tc : Thread Cert.ReferenceIdeal.nD Cert.ReferenceIdeal.τ).loc Cert.ReferenceIdeal.main_arg15) = fun j => ((x15 c j : ℝ) : EReal))
    (h16 : ∀ c : Dev Cert.ReferenceIdeal.nD, m' ((c.tc : Thread Cert.ReferenceIdeal.nD Cert.ReferenceIdeal.τ).loc Cert.ReferenceIdeal.main_arg16) = fun j => ((x16 c j : ℝ) : EReal)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v104) = (fun i => ((Cert.GruSpec.GAt (x0 c) (x1 c) (x2 c) (x3 c) (x4 c) (x5 c) (x6 c) (x7 c) (x8 c) (x9 c) (x10 c) (x11 c) (x12 c) (x13 c) (x14 c) (x15 c) (x16 c) i : ℝ) : EReal))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)) :=
  (θ_run Cert.ReferenceIdeal.defs _ _).mono (fun _ h c => ⟨(h c).1.trans (by
      rw [Read.val_main_v104_eq, h0 c, h1 c, h2 c, h3 c, h4 c, h5 c, h6 c, h7 c, h8 c, h9 c, h10 c, h11 c, h12 c, h13 c, h14 c, h15 c, h16 c]
      exact funext fun i => ref_value (x0 c) (x1 c) (x2 c) (x3 c) (x4 c) (x5 c) (x6 c) (x7 c) (x8 c) (x9 c) (x10 c) (x11 c) (x12 c) (x13 c) (x14 c) (x15 c) (x16 c) i), (h c).2⟩)
    (Cert.ReferenceIdeal.Value.run (F := Ideal) m' ρ')

/-- From any memory, the program ends with its arguments unchanged. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)) :=
  (θ_run Cert.ReferenceIdeal.defs _ _).mono (fun _ h c => (h c).2) (Cert.ReferenceIdeal.Value.run (F := Ideal) m g)

end Cert.ReferenceIdeal.RefValue

end
-- ==== Proof.lean ====
/-
  The certificate: a fused kernel for a two-step gated graph layer against its plain reference.

  Both programs compute, for 32 graphs of 512 nodes and 128 features,
    out₀ = mask · relu (x · W_enc + b_enc),  then twice
    a = support · out,  z = σ ((a · W_z0 + b_z0) + (out · W_z1 + b_z1)),  r = σ ((a · W_r0 + b_r0) + (out · W_r1 + b_r1)),
    hh = relu (mask · ((a · W_h0 + b_h0) + ((r ⊙ out) · W_h1 + b_h1))),  out' = hh ⊙ z + out ⊙ (1 - z).
  The kernel treats four graphs per grid point, multiplies by the concatenated matrices `[W_z0 | W_r0 | W_h0]` and
  `[W_z1 | W_r1]` and takes column slices, associates the candidate's three summands differently, and writes the last
  line as `out + z ⊙ (hh - out)`. On the extended reals the two last lines agree only where every entry is a real
  number; the precondition makes every input entry real, and sums, products, maxima and σ of reals are real, so both
  programs' results are the coercion of ONE real-valued function of the argument arrays (`Cert.GruSpec.GAt`).

  The frames: each kernel program runs its eight host operations and then its one pipelined call, whose body loads,
  computes and stores four slabs that cover the output block; no argument array is written. The reference is a
  straight line of host operations. Nothing was rewritten by the idealization, so `preserves` has nothing to state.
-/
import proofs.«106638_g44787918963399_cont_sun_c4_384_9_alg».proof.Defs
import proofs.«106638_g44787918963399_cont_sun_c4_384_9_alg».proof.Proof.Gen.Kernel
import proofs.«106638_g44787918963399_cont_sun_c4_384_9_alg».proof.Proof.Gen.KernelIdeal
import proofs.«106638_g44787918963399_cont_sun_c4_384_9_alg».proof.Proof.Gen.ReferenceIdeal
import proofs.«106638_g44787918963399_cont_sun_c4_384_9_alg».proof.Proof.Gen.Pre_finite_inputs
import proofs.«106638_g44787918963399_cont_sun_c4_384_9_alg».proof.Proof.FrameBits
import proofs.«106638_g44787918963399_cont_sun_c4_384_9_alg».proof.Proof.KFinal
import proofs.«106638_g44787918963399_cont_sun_c4_384_9_alg».proof.Proof.Finite
import proofs.«106638_g44787918963399_cont_sun_c4_384_9_alg».proof.Proof.RefRun
import Idealize.ShloMosaic.Adequacy
import Idealize.ShloMosaic.Init

noncomputable section

namespace Cert.Proof

open Idealize.ShloMosaic Idealize.SL.Sem

/-- The word-level kernel runs, faults nowhere and leaves its arguments unchanged. -/
theorem frame_k : Cert.frame_Kernel (hKernel := Cert.Kernel.Gen.facts) (hPre_finite_inputs := Cert.Pre_finite_inputs.Gen.facts) :=
  fun m ρ _ => Cert.Kernel.HandFrame.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.HandFrame.frame m ρ

/-- And the reference. -/
theorem frame_ri : Cert.frame_ReferenceIdeal (hReferenceIdeal := Cert.ReferenceIdeal.Gen.facts) (hPre_finite_inputs := Cert.Pre_finite_inputs.Gen.facts) :=
  fun m g _ => Cert.ReferenceIdeal.RefValue.ref_frame m g

/-- The idealization rewrote nothing. -/
theorem preserves : Cert.preserves_Kernel_KernelIdeal := trivial

/-- From memories agreeing on the arguments, all of whose entries are real, both programs end with the layer of
    the arguments as their result, and with their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- every argument entry is a real number, device by device
  haveI : Cert.Pre_finite_inputs.Facts := Cert.Pre_finite_inputs.Gen.facts
  have H := fun c => Cert.KernelIdeal.Finite.real_of_pre _ _ _ _ _ _ _ _ _ _ _ _ _ _ _ _ _ (hpre c)
  choose x0 hx0 using fun c => (H c).1
  choose x1 hx1 using fun c => (H c).2.1
  choose x2 hx2 using fun c => (H c).2.2.1
  choose x3 hx3 using fun c => (H c).2.2.2.1
  choose x4 hx4 using fun c => (H c).2.2.2.2.1
  choose x5 hx5 using fun c => (H c).2.2.2.2.2.1
  choose x6 hx6 using fun c => (H c).2.2.2.2.2.2.1
  choose x7 hx7 using fun c => (H c).2.2.2.2.2.2.2.1
  choose x8 hx8 using fun c => (H c).2.2.2.2.2.2.2.2.1
  choose x9 hx9 using fun c => (H c).2.2.2.2.2.2.2.2.2.1
  choose x10 hx10 using fun c => (H c).2.2.2.2.2.2.2.2.2.2.1
  choose x11 hx11 using fun c => (H c).2.2.2.2.2.2.2.2.2.2.2.1
  choose x12 hx12 using fun c => (H c).2.2.2.2.2.2.2.2.2.2.2.2.1
  choose x13 hx13 using fun c => (H c).2.2.2.2.2.2.2.2.2.2.2.2.2.1
  choose x14 hx14 using fun c => (H c).2.2.2.2.2.2.2.2.2.2.2.2.2.2.1
  choose x15 hx15 using fun c => (H c).2.2.2.2.2.2.2.2.2.2.2.2.2.2.2.1
  choose x16 hx16 using fun c => (H c).2.2.2.2.2.2.2.2.2.2.2.2.2.2.2.2
  refine ⟨fun c => Cert.KernelIdeal.KVal.Gfun (x0 c) (x1 c) (x2 c) (x3 c) (x4 c) (x5 c) (x6 c) (x7 c) (x8 c) (x9 c) (x10 c) (x11 c) (x12 c) (x13 c) (x14 c) (x15 c) (x16 c), ?_, ?_⟩
  · refine (θ_run Cert.KernelIdeal.defs _ _).mono (fun r h c => ⟨(Cert.KernelIdeal.HandFrame.post11 m r h c).trans
        (Cert.KernelIdeal.KVal.final11 m c (x0 c) (x1 c) (x2 c) (x3 c) (x4 c) (x5 c) (x6 c) (x7 c) (x8 c) (x9 c) (x10 c) (x11 c) (x12 c) (x13 c) (x14 c) (x15 c) (x16 c)
          (funext (hx0 c)) (funext (hx1 c)) (funext (hx2 c)) (funext (hx3 c)) (funext (hx4 c)) (funext (hx5 c)) (funext (hx6 c)) (funext (hx7 c)) (funext (hx8 c)) (funext (hx9 c)) (funext (hx10 c)) (funext (hx11 c)) (funext (hx12 c)) (funext (hx13 c)) (funext (hx14 c)) (funext (hx15 c)) (funext (hx16 c))),
      Cert.KernelIdeal.HandFrame.kept_all m r h c⟩) (Cert.KernelIdeal.HandFrame.run_main m ρ)
  · exact Cert.ReferenceIdeal.RefValue.ref_run m' ρ' x0 x1 x2 x3 x4 x5 x6 x7 x8 x9 x10 x11 x12 x13 x14 x15 x16
      (fun c => ((hagree c).1).trans (funext (hx0 c)))
      (fun c => ((hagree c).2.1).trans (funext (hx1 c)))
      (fun c => ((hagree c).2.2.1).trans (funext (hx2 c)))
      (fun c => ((hagree c).2.2.2.1).trans (funext (hx3 c)))
      (fun c => ((hagree c).2.2.2.2.1).trans (funext (hx4 c)))
      (fun c => ((hagree c).2.2.2.2.2.1).trans (funext (hx5 c)))
      (fun c => ((hagree c).2.2.2.2.2.2.1).trans (funext (hx6 c)))
      (fun c => ((hagree c).2.2.2.2.2.2.2.1).trans (funext (hx7 c)))
      (fun c => ((hagree c).2.2.2.2.2.2.2.2.1).trans (funext (hx8 c)))
      (fun c => ((hagree c).2.2.2.2.2.2.2.2.2.1).trans (funext (hx9 c)))
      (fun c => ((hagree c).2.2.2.2.2.2.2.2.2.2.1).trans (funext (hx10 c)))
      (fun c => ((hagree c).2.2.2.2.2.2.2.2.2.2.2.1).trans (funext (hx11 c)))
      (fun c => ((hagree c).2.2.2.2.2.2.2.2.2.2.2.2.1).trans (funext (hx12 c)))
      (fun c => ((hagree c).2.2.2.2.2.2.2.2.2.2.2.2.2.1).trans (funext (hx13 c)))
      (fun c => ((hagree c).2.2.2.2.2.2.2.2.2.2.2.2.2.2.1).trans (funext (hx14 c)))
      (fun c => ((hagree c).2.2.2.2.2.2.2.2.2.2.2.2.2.2.2.1).trans (funext (hx15 c)))
      (fun c => ((hagree c).2.2.2.2.2.2.2.2.2.2.2.2.2.2.2.2).trans (funext (hx16 c)))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
